-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S4096x2048 : Shape := ⟨2, ![4096, 2048]⟩
abbrev S1000x128 : Shape := ⟨2, ![1000, 128]⟩
abbrev S2048x128 : Shape := ⟨2, ![2048, 128]⟩
abbrev S128 : Shape := ⟨1, ![128]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S4096 : S_.BroadcastsInDim S4096 (![] : Fin 0 → Fin S4096.rank)
  reducesTo_S4096_S_d0 : S4096.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg0 : IVec S4096 32) (main_arg5 : FVec F S_ .f32) (main_arg6 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg6
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_c_10 : IVec S_ 32 := constantI S_ 32 0#32
  let main_v27 : IVec S4096 32 := broadcastInDim S4096 ![] bcast_S_S4096 main_c_10
  let main_v28 : IVec S4096 1 := cmpi .sge main_arg0 main_v27
  let main_c_11 : IVec S_ 32 := constantI S_ 32 999#32
  let main_v29 : IVec S4096 32 := broadcastInDim S4096 ![] bcast_S_S4096 main_c_11
  let main_v30 : IVec S4096 1 := cmpi .sle main_arg0 main_v29
  let main_v31 : IVec S4096 1 := andi main_v28 main_v30
  let main_c_12 : IVec S_ 1 := constantI S_ 1 1#1
  let main_v32 : IVec S_ 1 := (fun x v => Host.reduce IntOp.andi x v reducesTo_S4096_S_d0 h_S_) main_v31 main_c_12
  fn_part2 (F := F) main_v26 main_v32

def fn {F : FTy → Type} [FloatOps F] (main_arg0 : IVec S4096 32) (main_arg1 : FVec F S4096x2048 .f32) (main_arg2 : FVec F S1000x128 .f32) (main_arg3 : FVec F S2048x128 .f32) (main_arg4 : FVec F S128 .f32) (main_arg5 : FVec F S_ .f32) (main_arg6 : FVec F S_ .f32) : IVec S_ 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S2048x128 .f32 := Host.absf main_arg3
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_v13 main_v16
-- ==== Kernel.lean ====
abbrev S4096 : Shape := ⟨1, ![4096]⟩
abbrev S4096x2048 : Shape := ⟨2, ![4096, 2048]⟩
abbrev S1000x128 : Shape := ⟨2, ![1000, 128]⟩
abbrev S2048x128 : Shape := ⟨2, ![2048, 128]⟩
abbrev S128 : Shape := ⟨1, ![128]⟩
abbrev S_ : Shape := ⟨0, ![]⟩
abbrev S4096x128 : Shape := ⟨2, ![4096, 128]⟩
abbrev S128x128 : Shape := ⟨2, ![128, 128]⟩
abbrev S1 : Shape := ⟨1, ![1]⟩
abbrev S1x128 : Shape := ⟨2, ![1, 128]⟩
abbrev S1024x2048 : Shape := ⟨2, ![1024, 2048]⟩
abbrev S1024x128 : Shape := ⟨2, ![1024, 128]⟩

abbrev nBuf : Table → Nat
  | .hbm => 13
  | .local .tc .vmem => 12
  | .local .tc .smem => 2
  | .local .scVector .vmem => 2
  | _ => 0

abbrev bufTy : (tb : Table) → Fin (nBuf tb) → BufTy
  | .hbm, ⟨0, _⟩ => ⟨S4096, .i32⟩
  | .hbm, ⟨1, _⟩ => ⟨S4096x2048, .f32⟩
  | .hbm, ⟨2, _⟩ => ⟨S1000x128, .f32⟩
  | .hbm, ⟨3, _⟩ => ⟨S2048x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S4096x128, .f32⟩
  | .hbm, ⟨8, _⟩ => ⟨S1, .f32⟩
  | .hbm, ⟨9, _⟩ => ⟨S1x128, .f32⟩
  | .hbm, ⟨10, _⟩ => ⟨S4096x128, .f32⟩
  | .hbm, ⟨11, _⟩ => ⟨S1, .f32⟩
  | .hbm, ⟨12, _⟩ => ⟨S4096x128, .f32⟩
  | .local .tc .vmem, ⟨0, _⟩ => ⟨S1024x2048, .f32⟩
  | .local .tc .vmem, ⟨1, _⟩ => ⟨S1024x2048, .f32⟩
  | .local .tc .vmem, ⟨2, _⟩ => ⟨S2048x128, .f32⟩
  | .local .tc .vmem, ⟨3, _⟩ => ⟨S1x128, .f32⟩
  | .local .tc .vmem, ⟨4, _⟩ => ⟨S1024x128, .f32⟩
  | .local .tc .vmem, ⟨5, _⟩ => ⟨S1024x128, .f32⟩
  | .local .tc .vmem, ⟨6, _⟩ => ⟨S2048x128, .f32⟩
  | .local .tc .vmem, ⟨7, _⟩ => ⟨S2048x128, .f32⟩
  | .local .tc .vmem, ⟨8, _⟩ => ⟨S2048x128, .f32⟩
  | .local .tc .vmem, ⟨9, _⟩ => ⟨S2048x128, .f32⟩
  | .local .tc .vmem, ⟨10, _⟩ => ⟨S2048x128, .f32⟩
  | .local .tc .vmem, ⟨11, _⟩ => ⟨S2048x128, .f32⟩
  | .local .tc .smem, ⟨0, _⟩ => ⟨S1, .f32⟩
  | .local .tc .smem, ⟨1, _⟩ => ⟨S1, .f32⟩
  | .local .scVector .vmem, ⟨0, _⟩ => ⟨S128, .i32⟩
  | .local .scVector .vmem, ⟨1, _⟩ => ⟨S128x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg0_scv : Ref sig .scVector := ⟨.hbm, 0, rfl⟩
abbrev main_arg2_scv : Ref sig .scVector := ⟨.hbm, 2, rfl⟩
abbrev main_v0_scv : Ref sig .scVector := ⟨.hbm, 7, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg4_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc1_stg0_0 : Ref sig .tc := ⟨.smem, 0, rfl⟩
abbrev cc2_stg0_0 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![4], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000x128_S1000x128_0_0 : ∀ a, (![0, 0] : Fin 2 → Nat) a + S1000x128.size a ≤ S1000x128.size a
  gathers_S1000x128_S128x128 : S1000x128.Gathers 0 S128x128
  shapeCasts_S_S1 : S_.ShapeCasts S1
  shapeCasts_S128_S1x128 : S128.ShapeCasts S1x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  inb_S1_S1_0 : ∀ a, (![0] : Fin 1 → Nat) a + S1.size a ≤ S1.size a
  numel1_S1 : S1.numel = 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S2048x128_S2048x128 : S2048x128.ShapeCasts S2048x128
  dot_S1024x2048_S2048x128_S1024x128_1_0_0_1_n_n_wf : DotDims.WF S1024x2048 S2048x128 S1024x128 [1] [0] [0] [1] [] []
  hcc0_scratch2 : 0 + S_.numel ≤ 17
  hcc0_scoped0 : 1 + S_.numel ≤ 17
  hcc0_scoped1 : 2 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ a, (k0_off2 i) a + S128x128.size a ≤ S4096x128.size a
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1.size a ≤ S1.size a
  hwx1_0 : ∀ i : grid1.Coords, EltTy.bits .f32 = 32 ∨ (Rect.block (s := S1) S1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x2048.size a
  hwx1_1 : ∀ i : grid1.Coords, EltTy.bits .f32 = 32 ∨ (Rect.block (s := S4096x2048) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S2048x128.size a
  hwx1_2 : ∀ i : grid1.Coords, EltTy.bits .f32 = 32 ∨ (Rect.block (s := S2048x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S4096x128.size a
  hwx1_4 : ∀ i : grid1.Coords, EltTy.bits .f32 = 32 ∨ (Rect.block (s := S4096x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1.size a ≤ S1.size a
  hwx2_0 : ∀ i : grid2.Coords, EltTy.bits .f32 = 32 ∨ (Rect.block (s := S1) S1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S4096x128.size a
  hwx2_1 : ∀ i : grid2.Coords, EltTy.bits .f32 = 32 ∨ (Rect.block (s := S4096x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S4096x128.size a
  hwx2_2 : ∀ i : grid2.Coords, EltTy.bits .f32 = 32 ∨ (Rect.block (s := S4096x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S4096x128.size a
  hwx2_3 : ∀ i : grid2.Coords, EltTy.bits .f32 = 32 ∨ (Rect.block (s := S4096x128) S2048x128.size (cc2_transform_3 i) (hinb2_3 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win1_0 : Pipeline.Window sig grid1 :=
  Pipeline.Window.ofSpec (Memref.whole main_v1) S1.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4) S1.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096 : Shape := ⟨1, ![4096]⟩
abbrev S4096x2048 : Shape := ⟨2, ![4096, 2048]⟩
abbrev S1000x128 : Shape := ⟨2, ![1000, 128]⟩
abbrev S2048x128 : Shape := ⟨2, ![2048, 128]⟩
abbrev S128 : Shape := ⟨1, ![128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x2048, .f32⟩
  | .hbm, ⟨2, _⟩ => ⟨S1000x128, .f32⟩
  | .hbm, ⟨3, _⟩ => ⟨S2048x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x128, .f32⟩
  | .hbm, ⟨26, _⟩ => ⟨S4096x128, .i1⟩
  | .hbm, ⟨27, _⟩ => ⟨S_, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S1x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  gather_S1000x128_S4096x1_S4096x128_1_0_n_n_0_1_1128_wf : GatherDims.WF S1000x128 S4096x1 S4096x128 [1] [0] [] [0] [] 1 ![1, 128]
  dot_S4096x2048_S2048x128_S4096x128_1_0_0_1_n_n_wf : DotDims.WF S4096x2048 S2048x128 S4096x128 [1] [0] [0] [1] [] []

variable [Facts₀]

def gather_S1000x128_S4096x1_S4096x128_1_0_n_n_0_1_1128 : GatherDims S1000x128 S4096x1 S4096x128 where
  offsetDims := [1]
  collapsedSliceDims := [0]
  operandBatchingDims := []
  startIndicesBatchingDims := []
  startIndexMap := [0]
  indexVectorDim := 1
  sliceSizes := ![1, 128]
  wf := gather_S1000x128_S4096x1_S4096x128_1_0_n_n_0_1_1128_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf

class Facts : Prop extends Facts₀ where

variable [Facts]
-- ==== Proof.KIGhost.lean ====
/-
  The program as the launch theorem of a SparseCore program sees it, and the ghost state the proof runs over:
  the launch handshakes' rounds, beside the rounds of the two TensorCore pipelines' staging cells, beside the
  counters of the vector subcores' own copies.
-/
import proofs.«205810_g90829968376338_cont_sun_m_901_13_alg».proof.KernelIdeal
import proofs.«205810_g90829968376338_cont_sun_m_901_13_alg».proof.Proof.Gen.KernelIdeal
import Idealize.ShloMosaic.Lib.SparseCore.Launch
import Idealize.ShloMosaic.Lib.Pipeline.Kit

noncomputable section

namespace Cert.KI

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program's body table: the kernels' and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
/-- The body table under the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipelines' rounds, the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The pipelines' component: the left of the right. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-- The launch element splits into the handshakes' part and the pipelines' part; the counters' unit is dropped. -/
theorem ownU_split (a : UH) (b : UP) :
    (ownU ((a, (b, 1)) : UU) : sProp 𝕄) ⊢ iprop(BI.own (EH (F := F) a) ∗ BI.own (EP (F := F) b)) := by
  iintro Hu
  ihave H := (ownU_pair _ _) $$ Hu
  icases H with ⟨HH, HR⟩
  ihave H' := (own_pair_emb (embR : Emb (UP × Counters) 𝕄) b (1 : Counters)) $$ HR
  icases H' with ⟨HP, -⟩
  isplitl [HH]; · iexact HH
  iexact HP

/-- The wait records the TensorCore may hold once the SparseCore call has returned: pairs at or below level 8, the level
    under which the launch's bookkeeping of the TensorCore's waits sits after the one call. The pipelines' proof data
    bound their recorded pairs by it, so that the bound survives the two regions. -/
def recB (F : FTy → Type) (c : Dev nD) : Set (SemLoc sig × HIx 1) :=
  {p | (K (F := F)).lev ((SparseCore.T c : Thread nD τ), p.1) p.2 ≤ 8}

end Cert.KI

end
-- ==== Proof.Spec.lean ====
/-
  What both programs compute, as one function of the seven argument arrays, index by index on the extended
  reals: row r of the result is cs times the table row the r-th index word names, plus ds times (row r of x
  times W, plus b).  The index words are read as naturals and reduced modulo the number of table rows, so
  that the function is total; on words in range (what the precondition says of every word) the reduction is
  the identity.
-/
import Idealize.ShloMosaic.PureOps.Ideal
import Idealize.ShloMosaic.Lib.ValueIdx

noncomputable section

open scoped BigOperators

namespace Cert.Spec

open Idealize.ShloMosaic Idealize.ShloMosaic.ValueIdx

abbrev SIdx : Shape := ⟨1, ![4096]⟩
abbrev SX : Shape := ⟨2, ![4096, 2048]⟩
abbrev STab : Shape := ⟨2, ![1000, 128]⟩
abbrev SW : Shape := ⟨2, ![2048, 128]⟩
abbrev SB : Shape := ⟨1, ![128]⟩
abbrev S0 : Shape := ⟨0, ![]⟩
abbrev SOut : Shape := ⟨2, ![4096, 128]⟩

/-- The table row an index word names: the word as a natural, reduced into the table's thousand rows. -/
def rowOf (w : BitVec 32) : Fin 1000 := ⟨w.toNat % 1000, Nat.mod_lt _ (by norm_num)⟩

/-- On a word in range the reduction is the identity. -/
theorem rowOf_val {w : BitVec 32} (h : w.toNat < 1000) : (rowOf w).val = w.toNat := Nat.mod_eq_of_lt h

/-- The rows of the table the index vector picks: entry (r, j) is entry j of the row word r names. -/
def gathered {α : Type} (idx : SIdx.Idx → BitVec 32) (tbl : STab.Idx → α) : SOut.Idx → α :=
  fun i => tbl (ix2 (rowOf (idx (ix1 (i 0)))) (i 1))

/-- The projected features: ds times (x W + b), entry (r, j) a sum over the 2048 features. -/
def projected (x : SX.Idx → EReal) (w : SW.Idx → EReal) (b : SB.Idx → EReal) (ds : S0.Idx → EReal) : SOut.Idx → EReal :=
  fun i => ds ix0 * ((∑ k : Fin 2048, x (ix2 (i 0) k) * w (ix2 k (i 1))) + b (ix1 (i 1)))

/-- The result: cs times the gathered rows plus the projected features. -/
def G (idx : SIdx.Idx → BitVec 32) (x : SX.Idx → EReal) (tbl : STab.Idx → EReal) (w : SW.Idx → EReal) (b : SB.Idx → EReal)
    (cs ds : S0.Idx → EReal) : SOut.Idx → EReal :=
  fun i => cs ix0 * gathered idx tbl i + projected x w b ds i

end Cert.Spec

end
-- ==== Proof.KIScDefs.lean ====
/-
  The SparseCore gather, the vocabulary: each of the 32 vector subcores (16 on each of 2 SparseCores) works on one
  block of 128 consecutive rows — subcore i of SparseCore c on block 2 i + c —: it copies the block's 128 index words
  into its index scratch, gathers the 128 table rows they name into its row scratch, and copies those rows out to
  the block's rows of the result.  Here: the blocks as rectangles and sets, the memrefs as the program slices them,
  how a subcore's own storage splits into the two scratches and three DMA semaphores it uses, and the one fact the
  gather needs of the launch memory (every index word names a table row).
-/
import proofs.«205810_g90829968376338_cont_sun_m_901_13_alg».proof.Proof.KIGhost
import proofs.«205810_g90829968376338_cont_sun_m_901_13_alg».proof.Proof.Spec
import proofs.«205810_g90829968376338_cont_sun_m_901_13_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The launch memory and the buffers -/

variable (m : (ℓ : Loc nD τ sig) → Buf (Elt F) ℓ) (ρ : Dev nD → PrngReg)

/-- The index vector, the table, and the gathered rows' array, as locations of device d. -/
abbrev iLoc (d : Dev nD) : Loc nD τ sig := (SparseCore.T d).loc main_arg0
abbrev tLoc (d : Dev nD) : Loc nD τ sig := (SparseCore.T d).loc main_arg2
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- The 4096 rows fall into 32 blocks of 128: block b is rows 128 b … 128 b + 127. -/
theorem idiv : 32 ∣ S4096.size 0 := ⟨128, rfl⟩
theorem odiv : 32 ∣ S4096x128.size 0 := ⟨128, rfl⟩
abbrev iblk (b : Fin 32) : Rect S4096 := Rect.part (s := S4096) (a₀ := 0) idiv b
abbrev oblk (b : Fin 32) : Rect S4096x128 := Rect.part (s := S4096x128) (a₀ := 0) odiv b
abbrev iSet (b : Fin 32) : Finset S4096.Idx := ((iV).view.slice (iblk b)).set
abbrev oSet (b : Fin 32) : Finset S4096x128.Idx := ((oV).view.slice (oblk b)).set

/-- The block a vector subcore works on: subcore i of SparseCore c has block 2 i + c. -/
def blockOf (c : Fin 2) (i : Fin 16) : Fin 32 := ⟨2 * i.val + c.val, by omega⟩

/-- The table is read whole by all 32 vector subcores at once: each holds one of 32 read shares. -/
abbrev tq (b : Fin 32) : PosShare TreeShare := Transfers.shareTok fullShare 32 b

section Tile
variable (d : Dev nD) (L : grid0.Coords)
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev bL (L : grid0.Coords) : Fin 32 := ⟨2 * (L 1).val + (L 0).val, by
  have h0 : (L 0).val < 2 := (L 0).isLt
  have h1 : (L 1).val < 16 := (L 1).isLt
  omega⟩

abbrev iRectK (L : grid0.Coords) : Rect S4096 := Rect.unit (s := S4096) (k0_off1 L) S128.size (k0_off1_inb L)
abbrev oRectK (L : grid0.Coords) : Rect S4096x128 := Rect.unit (s := S4096x128) (k0_off2 L) S128x128.size (k0_off2_inb L)
abbrev iSliceK (L : grid0.Coords) : Memref sig .scVector .hbm S128 .i32 := (iV).slice (iRectK L) (fun _ => rfl)
abbrev oSliceK (L : grid0.Coords) : Memref sig .scVector .hbm S128x128 .f32 := (oV).slice (oRectK L) (fun _ => rfl)

theorem iRectK_eq : iRectK L = iblk (bL L) := by
  unfold iRectK iblk Rect.part Rect.block
  congr 1 <;> funext a
  · rw [k0_off1_eq]
    match a with
    | 0 => simp [Shape.partIx, Shape.partSize]; omega
  · match a with
    | 0 => simp [Shape.partSize]
theorem oRectK_eq : oRectK L = oblk (bL L) := by
  unfold oRectK oblk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_iSliceK : (iSliceK L).view.set = iSet (bL L) := by
  show ((iV).view.slice (iRectK L)).set = ((iV).view.slice (iblk (bL L))).set
  rw [iRectK_eq]
theorem set_oSliceK : (oSliceK L).view.set = oSet (bL L) := by
  show ((oV).view.slice (oRectK L)).set = ((oV).view.slice (oblk (bL L))).set
  rw [oRectK_eq]

theorem pts_iSliceK (f : Buf (Elt F) (iLoc d)) :
    ((iSliceK L).view.loc (V d (cV L) (jV L)) ↦[(iSliceK L).view.set]{fullShare} f : sProp 𝕄) = iLoc d ↦[iSet (bL L)]{fullShare} f := by
  rw [set_iSliceK]
theorem pts_oSliceK (f : Buf (Elt F) (oLoc d)) :
    ((oSliceK L).view.loc (V d (cV L) (jV L)) ↦[(oSliceK L).view.set]{fullShare} f : sProp 𝕄) = oLoc d ↦[oSet (bL L)]{fullShare} f := by
  rw [set_oSliceK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- A vector subcore's three DMA semaphores: the gather's, the index fetch's, the write-out's. -/
abbrev cGcell (d : Dev nD) (c : Fin τ.nSC) (i : Fin τ.nSub) : GSem nD τ sig := (V d c i, .dma cc0_scratch2.sem)
abbrev cIcell (d : Dev nD) (c : Fin τ.nSC) (i : Fin τ.nSub) : GSem nD τ sig := (V d c i, .dma cc0_scoped0.sem)
abbrev cOcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cIcell d (cV L) (jV L)) 0 ∗ semVal (cOcell d (cV L) (jV L)) 0
          ∗ bigSep ((((ownCells (V d (cV L) (jV L))).erase (cGcell d (cV L) (jV L))).erase (cIcell d (cV L) (jV L))).erase (cOcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cIcell]; decide, (mem_ownCells (g := cIcell d (cV L) (jV L))).mpr ⟨rfl, by
      show (SemLoc.dma cc0_scoped0.sem : SemLoc sig).isScoped .scVector = true; decide⟩⟩),
    SparseCore.bigSep_erase' (Finset.mem_erase.mpr ⟨by simp [cIcell, cOcell]; decide, Finset.mem_erase.mpr ⟨by simp [cGcell, cOcell]; decide,
      (mem_ownCells (g := cOcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the proof asks of the launch memory: every index word names a row of the table. -/
def PreOK : Prop := ∀ (d : Dev nD) (j : S4096.Idx), (m (iLoc d) j).toNat < 1000

variable [FloatOps F]

abbrev iPart (d : Dev nD) (b : Fin 32) : sProp 𝕄 := iLoc d ↦[iSet b]{fullShare} m (iLoc d)
abbrev tPart (d : Dev nD) (b : Fin 32) : sProp 𝕄 := tLoc d ↦{tq b} m (tLoc d)
abbrev oPart (d : Dev nD) (b : Fin 32) (f : Buf (Elt F) (oLoc d)) : sProp 𝕄 := oLoc d ↦[oSet b]{fullShare} f

abbrev tAllK : Memref sig .scVector .hbm S1000x128 .f32 :=
  (tV).slice (Rect.unit (s := S1000x128) ![0, 0] S1000x128.size inb_S1000x128_S1000x128_0_0) (fun _ => rfl)

/-- The offsets the gather reads are in range: what the index fetch landed in the scratch is the subcore's block of
    the index vector, each word below 1000. -/
theorem inb_of_pre (hpre : PreOK m) (fs : Buf (Elt F) ((V d (cV L) (jV L)).loc cc0_scratch0)) (pay : S128.Idx → Elt F .i32)
    (hpay : pay = (iSliceK L).view.read (Elt F) (m (iLoc d))) :
    ∀ x, ((sV).view.read (Elt F) (View.write (Elt F) (sV).view fs pay Finset.univ) x).toNat < S1000x128.size gathers_S1000x128_S128x128.axis := by
  subst hpay; intro x
  rw [View.write_whole_univ]
  simp only [Memref.view_whole, View.read_whole]
  rw [show ∀ j, (iSliceK L).view.read (Elt F) (m (iLoc d)) j = m (iLoc d) ((iSliceK L).view.emb j) from fun j => (View.read_apply _ _).trans (cast_eq _ _)]
  exact hpre d _

/-- The gathered rows as ONE array: entry (r, j) is entry j of the table row the r-th index word names. -/
def Gout (d : Dev nD) : Buf (Elt F) (oLoc d) := Cert.Spec.gathered (m (iLoc d)) (m (tLoc d))

end Tile
end Cert.KI
end
-- ==== Proof.KIScPay.lean ====
/-
  What the launch's handshakes carry for the one SparseCore call: the TensorCore hands each of the two SparseCores its
  sixteen tasks' parts — per task its block of the index vector, one of 32 read shares of the table, its block of
  the result array — and gets them back, the result's blocks at the gathered rows.
-/
import proofs.«205810_g90829968376338_cont_sun_m_901_13_alg».proof.Proof.KIScDefs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-! ## What the launch's handshakes carry, and the launch theorem's obligations for the gather -/

section Pay

variable [FloatOps F]

/-- The block of vector subcore i of SparseCore c. -/
def bOf (c : Fin ((K (F := F)).nCore 0)) (i : Fin ((K (F := F)).nSub 0)) : Fin 32 :=
  ⟨2 * i.val + c.val, by
    have h0 : c.val < 2 := c.isLt
    have h1 : i.val < 16 := i.isLt
    omega⟩

/-- What a task is handed: its block of the index vector, a read share of the table, its block of the result;
    and what it hands back: the same, the result's block at the gathered rows. -/
abbrev goOf (d : Dev nD) (b : Fin 32) : sProp 𝕄 := iprop(iPart m d b ∗ tPart m d b ∗ oPart d b (m (oLoc d)))
abbrev tdOf (d : Dev nD) (b : Fin 32) : sProp 𝕄 := iprop(iPart m d b ∗ tPart m d b ∗ oPart d b (Gout m d))

/-- The one call hands each SparseCore its sixteen tasks' parts, and takes them back. -/
def P : (K (F := F)).Pay (nD := nD) (Val := Elt F) (Name := ℕ) (U := UU) where
  st := fun q d c => match q with | 0 => bigSep Finset.univ fun i : Fin ((K (F := F)).nSub 0) => goOf m d (bOf c i)
  dn := fun q d c => match q with | 0 => bigSep Finset.univ fun i : Fin ((K (F := F)).nSub 0) => tdOf m d (bOf c i)
  go := fun q d c i => match q with | 0 => goOf m d (bOf c i)
  td := fun q d c i => match q with | 0 => tdOf m d (bOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goOf m d (bOf c i)))
  dn q d c := match q with
    | 0 => (inferInstance : BI.Storable (upEmb : UEmb _ 𝕄) (bigSep Finset.univ fun i : Fin ((K (F := F)).nSub 0) => tdOf m d (bOf c i)))
  go q d c i := match q with
    | 0 => (inferInstance : BI.Storable (upEmb : UEmb _ 𝕄) (goOf m d (bOf c i)))
  td q d c i := match q with
    | 0 => (inferInstance : BI.Storable (upEmb : UEmb _ 𝕄) (tdOf m d (bOf c i)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A SparseCore's operands ARE its sixteen tasks' parts: nothing to split. -/
theorem vecSplit : (K (F := F)).VecSplit' (P m) 0 := by
  intro d c
  show (bigSep Finset.univ fun i : Fin ((K (F := F)).nSub 0) => goOf m d (bOf c i))
    ⊢ |={Set.univ}=> iprop((bigSep Finset.univ fun i : Fin ((K (F := F)).nSub 0) => goOf m d (bOf c i))
      ∗ ((bigSep Finset.univ fun i : Fin ((K (F := F)).nSub 0) => tdOf m d (bOf c i))
          -∗ bigSep Finset.univ fun i : Fin ((K (F := F)).nSub 0) => tdOf m d (bOf c i)))
  iintro H; imodintro
  isplitl [H]; · iexact H
  iintro H; iexact H

end Pay

end Cert.KI
end
-- ==== Proof.KITc1.lean ====
/-
  The first TensorCore call (the projection ds * (x W + b) over four row blocks of 1024) as pipeline proof data:
  what each window's staging buffer holds when the body runs and after it, stated at the buffer contents the call
  finds (a variable), and the body's obligation at every grid point.
-/
import proofs.«205810_g90829968376338_cont_sun_m_901_13_alg».proof.Proof.KIGhost
import proofs.«205810_g90829968376338_cont_sun_m_901_13_alg».proof.Proof.Gen.KernelIdeal.Launch
import proofs.«205810_g90829968376338_cont_sun_m_901_13_alg».proof.Proof.Gen.KernelIdeal.Skeleton
import proofs.«205810_g90829968376338_cont_sun_m_901_13_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KI.Tc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.KI.UU ℕ

variable (c : Dev nD) (V : (b : Ref sig .tc) → Buf (Elt F) ((c : Thread nD τ).loc b))

/-! ## The windows' blocks -/

/-- Window w's block at point t, read off its array as the call finds it. -/
def iblk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- An input window's current staging buffer holds its block at every point, fetched there or not (where it is not
    fetched its block index has not moved), for any proof data over these arrays whose body leaves the block in place. -/
theorem before1_0_of (dat : Dat τ (Elt F) (HIx 1) ℕ Cert.KI.UU ℕ cfg1 c) (hA : dat.A 0 = V (Pipeline.arrRef spec1 0))
    (hafter : ∀ t, dat.after 0 t = iblk1 c V 0 t) (t : Fin cfg1.N) (d) : dat.before 0 t d = iblk1 c V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of (dat : Dat τ (Elt F) (HIx 1) ℕ Cert.KI.UU ℕ cfg1 c) (hA : dat.A 1 = V (Pipeline.arrRef spec1 1))
    (hafter : ∀ t, dat.after 1 t = iblk1 c V 1 t) (t : Fin cfg1.N) (d) : dat.before 1 t d = iblk1 c V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of (dat : Dat τ (Elt F) (HIx 1) ℕ Cert.KI.UU ℕ cfg1 c) (hA : dat.A 2 = V (Pipeline.arrRef spec1 2))
    (hafter : ∀ t, dat.after 2 t = iblk1 c V 2 t) (t : Fin cfg1.N) (d) : dat.before 2 t d = iblk1 c V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of (dat : Dat τ (Elt F) (HIx 1) ℕ Cert.KI.UU ℕ cfg1 c) (hA : dat.A 3 = V (Pipeline.arrRef spec1 3))
    (hafter : ∀ t, dat.after 3 t = iblk1 c V 3 t) (t : Fin cfg1.N) (d) : dat.before 3 t d = iblk1 c V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one word of the scalar window, -/
abbrev r1_s : Rect S1 := Rect.unit (s := S1) ![0] S1.size inb_S1_S1_0
/-- its one index, -/
abbrev x1_s : r1_s.shape.Idx := Shape.Idx.first (numel1_S1.symm ▸ Nat.one_pos)
/-- a whole block of x, the whole of W, the one row of b, a whole block of the result. -/
abbrev r1_x : Rect S1024x2048 := Rect.unit (s := S1024x2048) ![0, 0] S1024x2048.size inb_S1024x2048_S1024x2048_0_0
abbrev r1_w : Rect S2048x128 := Rect.unit (s := S2048x128) ![0, 0] S2048x128.size inb_S2048x128_S2048x128_0_0
abbrev r1_b : Rect S1x128 := Rect.unit (s := S1x128) ![0, 0] S1x128.size inb_S1x128_S1x128_0_0
abbrev r1_o : Rect S1024x128 := Rect.unit (s := S1024x128) ![0, 0] S1024x128.size inb_S1024x128_S1024x128_0_0

/-! ## What the body leaves in the output window's buffer -/

/-- Window 4's staging buffer after the body, from the input windows' blocks: its one store, of the scalar read times
    (the block of x times W, plus the row of b). -/
def out1_4 (x0 : Vec F S1 .f32) (x1 : Vec F S1024x2048 .f32) (x2 : Vec F S2048x128 .f32) (x3 : Vec F S1x128 .f32) : Vec F S1024x128 .f32 :=
  View.canon [⟨r1_o, k1_pay1 (View.ld x1 r1_x) (View.ld x2 r1_w) (View.ld x0 r1_s x1_s) (View.ld x3 r1_b)⟩]

/-- The store covers the buffer. -/
theorem cover1_4 (p0 : Vec F S1024x128 .f32) (y : S1024x128.Idx) :
    ∃ pc ∈ ([⟨r1_o, p0⟩] : List (View.Piece (Elt F) S1024x128 .f32)), y ∈ pc.1.set :=
  View.cover_of_tiled [⟨r1_o, p0⟩] S1024x128.size (by rfl) y

/-! ## The body's triple -/

set_option maxHeartbeats 1000000 in
/-- The body on whole staging memrefs, the inputs' at contents x0 … x3 and the output's at anything, runs to the
    continuation holding the inputs' as they were and the output's at out1_4 of them. -/
theorem sound_kernel1 (E : Set ℕ) (i : grid1.Coords) (arg1 : Memref sig .tc .smem S1 .f32) (harg1 : arg1.IsWhole)
    (arg2 : Memref sig .tc .vmem S1024x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x128 .f32) (harg5 : arg5.IsWhole)
    (x0 : Vec F S1 .f32) (x1 : Vec F S1024x2048 .f32) (x2 : Vec F S2048x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__matmul_body i arg1 harg1 arg2 harg2 arg3 harg3 arg4 harg4 arg5 harg5) K := by
  simp only [cc1__matmul_body_eq_skeleton]; unfold cc1__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The call's invariant on core c: the core's scoped buffers that are no staging buffer of this call, each at some
    contents, and its generator register at some state. -/
abbrev Φ1 : sProp 𝕄 :=
  iprop(Pipeline.scopedRest (Ix := HIx 1) (Name := ℕ) (U := Cert.KI.UU) (Lvl := ℕ) (Val := Elt F) spec1 c ∗ ∃ r, prngReg c r)

/-- The proof data of the call on core c: the arrays as the call finds them; after the body at point t each input's
    buffer at its block and the output's at out1_4 of the input blocks; the invariant the scoped rest and the generator
    register, untouched; nothing owed; full shares; the recorded wait pairs within the bound the launch left. -/
def dat1 : Dat τ (Elt F) (HIx 1) ℕ Cert.KI.UU ℕ cfg1 c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => out1_4 (iblk1 c V 0 t) (iblk1 c V 1 t) (iblk1 c V 2 t) (iblk1 c V 3 t)
  Φ _ := Φ1 c
  q _ := fullShare
  owed _ := 0
  recorded _ := Cert.KI.recB F c

/-- The proof data's arrays are the contents the call finds. -/
theorem A_eq1 (w : Fin cfg1.W) : (dat1 c V).A w = V (Pipeline.arrRef spec1 w) := by
  dsimp only [dat1]

/-- What the body leaves, window by window. -/
theorem after1_0 (t : Fin cfg1.N) : (dat1 c V).after 0 t = iblk1 c V 0 t := by dsimp only [dat1]
theorem after1_1 (t : Fin cfg1.N) : (dat1 c V).after 1 t = iblk1 c V 1 t := by dsimp only [dat1]
theorem after1_2 (t : Fin cfg1.N) : (dat1 c V).after 2 t = iblk1 c V 2 t := by dsimp only [dat1]
theorem after1_3 (t : Fin cfg1.N) : (dat1 c V).after 3 t = iblk1 c V 3 t := by dsimp only [dat1]
theorem after1_4 (t : Fin cfg1.N) : (dat1 c V).after 4 t = out1_4 (iblk1 c V 0 t) (iblk1 c V 1 t) (iblk1 c V 2 t) (iblk1 c V 3 t) := by dsimp only [dat1]

/-- Each input's current staging buffer holds its block at every point. -/
theorem before1_0 (t : Fin cfg1.N) (d) : (dat1 c V).before 0 t d = iblk1 c V 0 t :=
  before1_0_of c V (dat1 c V) (A_eq1 c V 0) (after1_0 c V) t d
theorem before1_1 (t : Fin cfg1.N) (d) : (dat1 c V).before 1 t d = iblk1 c V 1 t :=
  before1_1_of c V (dat1 c V) (A_eq1 c V 1) (after1_1 c V) t d
theorem before1_2 (t : Fin cfg1.N) (d) : (dat1 c V).before 2 t d = iblk1 c V 2 t :=
  before1_2_of c V (dat1 c V) (A_eq1 c V 2) (after1_2 c V) t d
theorem before1_3 (t : Fin cfg1.N) (d) : (dat1 c V).before 3 t d = iblk1 c V 3 t :=
  before1_3_of c V (dat1 c V) (A_eq1 c V 3) (after1_3 c V) t d

/-! ## The body obligation, at a generic point -/

/-- What the body is called with at point t, the windows one by one, -/
def bodyPre1 (t : Fin cfg1.N) : sProp 𝕄 :=
  iprop((dat1 c V).Φ t.castSucc ∗ (dat1 c V).owesAt (none : HIx 1) t.castSucc
    ∗ (∃ d, owns (c : Thread nD τ) (st1_0 t) fullShare ((dat1 c V).before 0 t d))
    ∗ (∃ d, owns (c : Thread nD τ) (st1_1 t) fullShare ((dat1 c V).before 1 t d))
    ∗ (∃ d, owns (c : Thread nD τ) (st1_2 t) fullShare ((dat1 c V).before 2 t d))
    ∗ (∃ d, owns (c : Thread nD τ) (st1_3 t) fullShare ((dat1 c V).before 3 t d))
    ∗ (∃ d, owns (c : Thread nD τ) (st1_4 t) fullShare ((dat1 c V).before 4 t d)))

/-- and what it returns. -/
def bodyPost1 (t : Fin cfg1.N) : sProp 𝕄 :=
  iprop((dat1 c V).Φ t.succ ∗ (dat1 c V).owesAt (none : HIx 1) t.succ
    ∗ owns (c : Thread nD τ) (st1_0 t) fullShare ((dat1 c V).after 0 t)
    ∗ owns (c : Thread nD τ) (st1_1 t) fullShare ((dat1 c V).after 1 t)
    ∗ owns (c : Thread nD τ) (st1_2 t) fullShare ((dat1 c V).after 2 t)
    ∗ owns (c : Thread nD τ) (st1_3 t) fullShare ((dat1 c V).after 3 t)
    ∗ owns (c : Thread nD τ) (st1_4 t) fullShare ((dat1 c V).after 4 t))

/-- The body at any point: the inputs' memrefs hold their blocks, so the body's triple applies; the invariant and the
    core's owed tallies pass through unread. -/
theorem sound_body1 (t : Fin cfg1.N) :
    bodyPre1 c V t ⊢ wp frame (wpE (defs₀ (F := F)) Variants.none c none) Set.univ (bodyAt1 t) (fun _ => bodyPost1 c V t) := by
  unfold bodyPre1 bodyPost1 bodyAt1
  simp only [before1_0, before1_1, before1_2, before1_3]
  rw [show (dat1 c V).Φ t.succ = (dat1 c V).Φ t.castSucc from rfl,
    show (dat1 c V).owesAt (none : HIx 1) t.succ = (dat1 c V).owesAt (none : HIx 1) t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 c V 0 t) (iblk1 c V 1 t) (iblk1 c V 2 t) (iblk1 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 : BodyObligation (dat1 (F := F) c V) (defs₀ (F := F)) Variants.none (none : HIx 1) Set.univ := fun t => by
  rw [bigSep_W1, bigSep_W1]
  exact sound_body1 c V t

end Cert.KI.Tc

end
-- ==== Proof.KITc2.lean ====
/-
  The second TensorCore call (the combination cs * emb + p over two row blocks of 2048) as pipeline proof data:
  what each window's staging buffer holds when the body runs and after it, stated at the buffer contents the call
  finds (a variable), and the body's obligation at every grid point.
-/
import proofs.«205810_g90829968376338_cont_sun_m_901_13_alg».proof.Proof.KIGhost
import proofs.«205810_g90829968376338_cont_sun_m_901_13_alg».proof.Proof.Gen.KernelIdeal.Launch
import proofs.«205810_g90829968376338_cont_sun_m_901_13_alg».proof.Proof.Gen.KernelIdeal.Skeleton
import proofs.«205810_g90829968376338_cont_sun_m_901_13_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KI.Tc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.KI.UU ℕ

variable (c : Dev nD) (V : (b : Ref sig .tc) → Buf (Elt F) ((c : Thread nD τ).loc b))

/-! ## The windows' blocks -/

/-- Window w's block at point t, read off its array as the call finds it. -/
def iblk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- An input window's current staging buffer holds its block at every point, fetched there or not (where it is not
    fetched its block index has not moved), for any proof data over these arrays whose body leaves the block in place. -/
theorem before2_0_of (dat : Dat τ (Elt F) (HIx 1) ℕ Cert.KI.UU ℕ cfg2 c) (hA : dat.A 0 = V (Pipeline.arrRef spec2 0))
    (hafter : ∀ t, dat.after 0 t = iblk2 c V 0 t) (t : Fin cfg2.N) (d) : dat.before 0 t d = iblk2 c V 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of (dat : Dat τ (Elt F) (HIx 1) ℕ Cert.KI.UU ℕ cfg2 c) (hA : dat.A 1 = V (Pipeline.arrRef spec2 1))
    (hafter : ∀ t, dat.after 1 t = iblk2 c V 1 t) (t : Fin cfg2.N) (d) : dat.before 1 t d = iblk2 c V 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of (dat : Dat τ (Elt F) (HIx 1) ℕ Cert.KI.UU ℕ cfg2 c) (hA : dat.A 2 = V (Pipeline.arrRef spec2 2))
    (hafter : ∀ t, dat.after 2 t = iblk2 c V 2 t) (t : Fin cfg2.N) (d) : dat.before 2 t d = iblk2 c V 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one word of the scalar window, -/
abbrev r2_s : Rect S1 := Rect.unit (s := S1) ![0] S1.size inb_S1_S1_0
/-- its one index, -/
abbrev x2_s : r2_s.shape.Idx := Shape.Idx.first (numel1_S1.symm ▸ Nat.one_pos)
/-- and a whole row block. -/
abbrev r2_0 : Rect S2048x128 := Rect.unit (s := S2048x128) ![0, 0] S2048x128.size inb_S2048x128_S2048x128_0_0

/-! ## What the body leaves in the output window's buffer -/

/-- Window 3's staging buffer after the body, from the input windows' blocks: its one store, of the scalar read
    times the first block plus the second. -/
def out2_3 (x0 : Vec F S1 .f32) (x1 : Vec F S2048x128 .f32) (x2 : Vec F S2048x128 .f32) : Vec F S2048x128 .f32 :=
  View.canon [⟨r2_0, k2_pay1 (View.ld x0 r2_s x2_s) (View.ld x1 r2_0) (View.ld x2 r2_0)⟩]

/-- The store covers the buffer. -/
theorem cover2_3 (p0 : Vec F S2048x128 .f32) (y : S2048x128.Idx) :
    ∃ pc ∈ ([⟨r2_0, p0⟩] : List (View.Piece (Elt F) S2048x128 .f32)), y ∈ pc.1.set :=
  View.cover_of_tiled [⟨r2_0, p0⟩] S2048x128.size (by rfl) y

/-! ## The body's triple -/

set_option maxHeartbeats 1000000 in
/-- The body on whole staging memrefs, the inputs' at contents x0, x1, x2 and the output's at anything, runs to the
    continuation holding the inputs' as they were and the output's at out2_3 of them. -/
theorem sound_kernel2 (E : Set ℕ) (i : grid2.Coords) (arg1 : Memref sig .tc .smem S1 .f32) (harg1 : arg1.IsWhole)
    (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole)
    (x0 : Vec F S1 .f32) (x1 : Vec F S2048x128 .f32) (x2 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine_body i arg1 harg1 arg2 harg2 arg3 harg3 arg4 harg4) K := by
  simp only [cc2__combine_body_eq_skeleton]; unfold cc2__combine_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The call's invariant on core c: the core's scoped buffers that are no staging buffer of this call, each at some
    contents, and its generator register at some state. -/
abbrev Φ2 : sProp 𝕄 :=
  iprop(Pipeline.scopedRest (Ix := HIx 1) (Name := ℕ) (U := Cert.KI.UU) (Lvl := ℕ) (Val := Elt F) spec2 c ∗ ∃ r, prngReg c r)

/-- The proof data of the call on core c: the arrays as the call finds them; after the body at point t each input's
    buffer at its block and the output's at out2_3 of the input blocks; the invariant the scoped rest and the generator
    register, untouched; nothing owed; full shares; the recorded wait pairs within the bound the launch left. -/
def dat2 : Dat τ (Elt F) (HIx 1) ℕ Cert.KI.UU ℕ cfg2 c where
  A w := V (Pipeline.arrRef spec2 w)
  after w t := match w with
    | ⟨0, _⟩ => iblk2 c V 0 t
    | ⟨1, _⟩ => iblk2 c V 1 t
    | ⟨2, _⟩ => iblk2 c V 2 t
    | ⟨3, _⟩ => out2_3 (iblk2 c V 0 t) (iblk2 c V 1 t) (iblk2 c V 2 t)
  Φ _ := Φ2 c
  q _ := fullShare
  owed _ := 0
  recorded _ := Cert.KI.recB F c

/-- The proof data's arrays are the contents the call finds. -/
theorem A_eq2 (w : Fin cfg2.W) : (dat2 c V).A w = V (Pipeline.arrRef spec2 w) := by
  dsimp only [dat2]

/-- What the body leaves, window by window. -/
theorem after2_0 (t : Fin cfg2.N) : (dat2 c V).after 0 t = iblk2 c V 0 t := by dsimp only [dat2]
theorem after2_1 (t : Fin cfg2.N) : (dat2 c V).after 1 t = iblk2 c V 1 t := by dsimp only [dat2]
theorem after2_2 (t : Fin cfg2.N) : (dat2 c V).after 2 t = iblk2 c V 2 t := by dsimp only [dat2]
theorem after2_3 (t : Fin cfg2.N) : (dat2 c V).after 3 t = out2_3 (iblk2 c V 0 t) (iblk2 c V 1 t) (iblk2 c V 2 t) := by dsimp only [dat2]

/-- Each input's current staging buffer holds its block at every point. -/
theorem before2_0 (t : Fin cfg2.N) (d) : (dat2 c V).before 0 t d = iblk2 c V 0 t :=
  before2_0_of c V (dat2 c V) (A_eq2 c V 0) (after2_0 c V) t d
theorem before2_1 (t : Fin cfg2.N) (d) : (dat2 c V).before 1 t d = iblk2 c V 1 t :=
  before2_1_of c V (dat2 c V) (A_eq2 c V 1) (after2_1 c V) t d
theorem before2_2 (t : Fin cfg2.N) (d) : (dat2 c V).before 2 t d = iblk2 c V 2 t :=
  before2_2_of c V (dat2 c V) (A_eq2 c V 2) (after2_2 c V) t d

/-! ## The body obligation, at a generic point -/

/-- What the body is called with at point t, the windows one by one, -/
def bodyPre2 (t : Fin cfg2.N) : sProp 𝕄 :=
  iprop((dat2 c V).Φ t.castSucc ∗ (dat2 c V).owesAt (none : HIx 1) t.castSucc
    ∗ (∃ d, owns (c : Thread nD τ) (st2_0 t) fullShare ((dat2 c V).before 0 t d))
    ∗ (∃ d, owns (c : Thread nD τ) (st2_1 t) fullShare ((dat2 c V).before 1 t d))
    ∗ (∃ d, owns (c : Thread nD τ) (st2_2 t) fullShare ((dat2 c V).before 2 t d))
    ∗ (∃ d, owns (c : Thread nD τ) (st2_3 t) fullShare ((dat2 c V).before 3 t d)))

/-- and what it returns. -/
def bodyPost2 (t : Fin cfg2.N) : sProp 𝕄 :=
  iprop((dat2 c V).Φ t.succ ∗ (dat2 c V).owesAt (none : HIx 1) t.succ
    ∗ owns (c : Thread nD τ) (st2_0 t) fullShare ((dat2 c V).after 0 t)
    ∗ owns (c : Thread nD τ) (st2_1 t) fullShare ((dat2 c V).after 1 t)
    ∗ owns (c : Thread nD τ) (st2_2 t) fullShare ((dat2 c V).after 2 t)
    ∗ owns (c : Thread nD τ) (st2_3 t) fullShare ((dat2 c V).after 3 t))

/-- The body at any point: the inputs' memrefs hold their blocks, so the body's triple applies; the invariant and the
    core's owed tallies pass through unread. -/
theorem sound_body2 (t : Fin cfg2.N) :
    bodyPre2 c V t ⊢ wp frame (wpE (defs₀ (F := F)) Variants.none c none) Set.univ (bodyAt2 t) (fun _ => bodyPost2 c V t) := by
  unfold bodyPre2 bodyPost2 bodyAt2
  simp only [before2_0, before2_1, before2_2]
  rw [show (dat2 c V).Φ t.succ = (dat2 c V).Φ t.castSucc from rfl,
    show (dat2 c V).owesAt (none : HIx 1) t.succ = (dat2 c V).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 c V 0 t) (iblk2 c V 1 t) (iblk2 c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 : BodyObligation (dat2 (F := F) c V) (defs₀ (F := F)) Variants.none (none : HIx 1) Set.univ := fun t => by
  rw [bigSep_W2, bigSep_W2]
  exact sound_body2 c V t

end Cert.KI.Tc

end
-- ==== Proof.KISegs.lean ====
/-
  The TensorCore's part of the program after the SparseCore gather, as the list of items a pipeline launch runs:
  two reshapes (the scale ds as a one-element vector, b as a one-row matrix), the first pallas_call
  (p = ds * (x W + b), four row blocks), one reshape (cs as a one-element vector), the second pallas_call
  (cs * emb + p, two row blocks); the contents of every buffer between the items, as a fold; and each call as a
  region entered from the contents the item before it left and left at what its pipeline computes.
-/
import proofs.«205810_g90829968376338_cont_sun_m_901_13_alg».proof.Proof.KIScPay
import proofs.«205810_g90829968376338_cont_sun_m_901_13_alg».proof.Proof.KITc1
import proofs.«205810_g90829968376338_cont_sun_m_901_13_alg».proof.Proof.KITc2
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Seg HostSeg RegionSeg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's part after the gather: two reshapes, the first call, a reshape, the second call -/

/-- No pallas_call has a prefetched table. -/
abbrev adm : (p : Fin 2) → (pcfgs (F := F) p).Adm := fun p => (cfgs p).toPCfg_adm

abbrev opA : HloOp τ sig (Elt F) := StableHlo.reshape main_arg6 main_v1 rfl shapeCasts_S_S1
abbrev opB : HloOp τ sig (Elt F) := StableHlo.reshape main_arg4 main_v2 rfl shapeCasts_S128_S1x128
abbrev opC : HloOp τ sig (Elt F) := StableHlo.reshape main_arg5 main_v4 rfl shapeCasts_S_S1
abbrev hostOps0 : List (HloOp τ sig (Elt F)) := [opA, opB]
abbrev hostOps1 : List (HloOp τ sig (Elt F)) := [opC]

theorem hostOps0_sub : (hostOps0 : List (HloOp τ sig (Elt F))).Forall fun op => op.bufs ⊆ StableHlo.tcRefs τ sig :=
  ⟨StableHlo.reshape_bufs_sub .., StableHlo.reshape_bufs_sub ..⟩
theorem hostOps1_sub : (hostOps1 : List (HloOp τ sig (Elt F))).Forall fun op => op.bufs ⊆ StableHlo.tcRefs τ sig :=
  StableHlo.reshape_bufs_sub ..
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ### The buffers' contents between the items -/

/-- At launch; -/
abbrev W0 (c : Dev nD) : Valuation τ sig (Elt F) := fun b => m (c, b)
/-- after the gather: the gathered rows' array at the gathered rows; -/
def W1 (c : Dev nD) : Valuation τ sig (Elt F) := Function.update (W0 m c) (Proc.devRef .tc main_v0) (Gout m c)
/-- after the two reshapes; -/
abbrev W2 (c : Dev nD) : Valuation τ sig (Elt F) := StableHlo.after hostOps0 (W1 m c)
abbrev V2 (c : Dev nD) : (b : Ref sig .tc) → Buf (Elt F) ((c : Thread nD τ).loc b) := fun b => W2 m c b
/-- after the first call: its arrays at what its pipeline leaves; -/
def W3 (c : Dev nD) : Valuation τ sig (Elt F) :=
  Pipeline.withArrays spec1 c (W2 m c) fun w => (Tc.dat1 c (V2 m c)).arrAt w cfg1.N
/-- after the third reshape; -/
abbrev W4 (c : Dev nD) : Valuation τ sig (Elt F) := StableHlo.after hostOps1 (W3 m c)
abbrev V4 (c : Dev nD) : (b : Ref sig .tc) → Buf (Elt F) ((c : Thread nD τ).loc b) := fun b => W4 m c b
/-- after the second call. -/
def W5 (c : Dev nD) : Valuation τ sig (Elt F) :=
  Pipeline.withArrays spec2 c (W4 m c) fun w => (Tc.dat2 c (V4 m c)).arrAt w cfg2.N
abbrev V3 (c : Dev nD) : (b : Ref sig .tc) → Buf (Elt F) ((c : Thread nD τ).loc b) := fun b => W3 m c b
abbrev V5 (c : Dev nD) : (b : Ref sig .tc) → Buf (Elt F) ((c : Thread nD τ).loc b) := fun b => W5 m c b

theorem W3_arr (c : Dev nD) (w : Fin cfg1.W) :
    W3 m c (Proc.devRef .tc (Pipeline.arrRef spec1 w)) = (Tc.dat1 c (V2 m c)).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (Tc.dat2 c (V4 m c)).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

theorem hF1 (c : Dev nD) (w : Fin cfg1.W) : (Tc.dat1 c (V2 m c)).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (Tc.dat2 c (V4 m c)).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ### The proof data family, the thread state, the segments -/

def pdats : (p : Fin 2) → (c : Dev nD) → Dat τ (Elt F) (HIx 1) ℕ UU ℕ (Pipeline.pin (pcfgs (F := F)) adm p) c
  | ⟨0, _⟩ => fun c => Tc.dat1 c (V2 m c)
  | ⟨1, _⟩ => fun c => Tc.dat2 c (V4 m c)

abbrev LL : GSem nD τ sig → Finset (HIx 1) := (K (F := F)).L
abbrev lv : GSem nD τ sig → HIx 1 → ℕ := (K (F := F)).lev

/-- What rides beside the buffers: the generator register and the TensorCore's dues, none, its recorded waits below
    the level the launch bounds them by. -/
abbrev RR (c : Dev nD) : sProp 𝕄 :=
  iprop((∃ r, prngReg c r) ∗ ∃ W, ⌜↑W ⊆ recB F c⌝ ∗ owes (c : Thread nD τ) (0 : CellTallies nD τ sig (HIx 1)) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR (F := F))

/-- The wait pairs of a pipeline's own staging cells sit at level 0. -/
theorem bound_sub (c : Dev nD) {cfg : Pipeline.Cfg sig Λ₀} {Wt : Waits sig (HIx 1)}
    (h : ↑Wt ⊆ recB F c ∪ cfg.waitPairs (none : HIx 1)) : ↑Wt ⊆ recB F c := by
  intro p hp
  rcases h hp with h | ⟨w, s, rfl⟩
  · exact h
  · show (K (F := F)).lev _ none ≤ 8
    rw [SparseCore.Cfg.lev_none]; omega

set_option backward.isDefEq.respectTransparency.types false in
/-- The first call over the thread state: entered from every unscoped buffer at the contents the item before left,
    left at the contents its pipeline leaves; its arrays split out of the unscoped buffers and put back; the generator
    register into the invariant and out; nothing owed; no semaphore of the kernel's own. -/
def reg0 : Pipeline.RegionSeg (pcfgs (F := F)) adm (pdats m) (none : HIx 1) defs₀ 𝒱₀ (LL (F := F)) (lv (F := F)) 0 where
  win := launch1.win.to₀
  block_pos := launch1.block_pos
  stage_whole := launch1.stage_whole
  K := PEmpty
  osem k := k.elim
  ho := Pipeline.OwnSemFacts.none _
  hbody c := (Tc.body_obligation1 c (V2 m c)).loose
  hwaits := Pipeline.hwaits_of_owed_zero _ _ _ _ (LL (F := F)) (lv (F := F)) 0 fun _ _ => rfl
  pre c := iprop(StableHlo.held (c : Thread nD τ) (Pipeline.ucRefs τ sig) (W2 m c) ∗ RR (F := F) c)
  post c := iprop(StableHlo.held (c : Thread nD τ) (Pipeline.ucRefs τ sig) (W3 m c) ∗ RR (F := F) c)
  X c := iprop(∃ r, prngReg c r)
  Y c := iprop(∃ r, prngReg c r)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun _ hp => Or.inl (hW hp)
      iexact HO
    isplitl [Hp]; · iexact Hp
    iexact Hrest
  hin c := by
    rw [show (pdats m 0 c).Φ 0 = Tc.Φ1 c from rfl]
    iintro ⟨Hp, -, Hr⟩
    isplitl [Hr]; · iexact Hr
    iexact Hp
  hout c := by
    rw [Pipeline.ownSems0_none, show (pdats m 0 c).Φ (Fin.last _) = Tc.Φ1 c from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hW, HO⟩; iexists Wt; isplitr; · ipureintro; exact bound_sub c hW
    iexact HO

set_option backward.isDefEq.respectTransparency.types false in
/-- The second call over the thread state: entered from every unscoped buffer at the contents the item before left,
    left at the contents its pipeline leaves; its arrays split out of the unscoped buffers and put back; the generator
    register into the invariant and out; nothing owed; no semaphore of the kernel's own. -/
def reg1 : Pipeline.RegionSeg (pcfgs (F := F)) adm (pdats m) (none : HIx 1) defs₀ 𝒱₀ (LL (F := F)) (lv (F := F)) 1 where
  win := launch2.win.to₀
  block_pos := launch2.block_pos
  stage_whole := launch2.stage_whole
  K := PEmpty
  osem k := k.elim
  ho := Pipeline.OwnSemFacts.none _
  hbody c := (Tc.body_obligation2 c (V4 m c)).loose
  hwaits := Pipeline.hwaits_of_owed_zero _ _ _ _ (LL (F := F)) (lv (F := F)) 1 fun _ _ => rfl
  pre c := iprop(StableHlo.held (c : Thread nD τ) (Pipeline.ucRefs τ sig) (W4 m c) ∗ RR (F := F) c)
  post c := iprop(StableHlo.held (c : Thread nD τ) (Pipeline.ucRefs τ sig) (W5 m c) ∗ RR (F := F) c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun _ hp => Or.inl (hW hp)
      iexact HO
    isplitl [Hp]; · iexact Hp
    iexact Hrest
  hin c := by
    rw [show (pdats m 1 c).Φ 0 = Tc.Φ2 c from rfl]
    iintro ⟨Hp, -, Hr⟩
    isplitl [Hr]; · iexact Hr
    iexact Hp
  hout c := by
    rw [Pipeline.ownSems0_none, show (pdats m 1 c).Φ (Fin.last _) = Tc.Φ2 c from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hW, HO⟩; iexists Wt; isplitr; · ipureintro; exact bound_sub c hW
    iexact HO

/-- The TensorCore's items after the gather, in order. -/
abbrev segs : List (Pipeline.Seg (pcfgs (F := F)) adm (pdats m) (none : HIx 1) defs₀ 𝒱₀ (LL (F := F)) (lv (F := F))) :=
  [ .host (hseg hostOps0 hostOps0_sub hostOps0_fresh (W1 m)),
    .region (reg0 m),
    .host (hseg hostOps1 hostOps1_sub hostOps1_fresh (W3 m)),
    .region (reg1 m) ]

/-- @main is the SparseCore call followed by those items, read in the extended signature. -/
theorem main_eq (d : Dev nD) : main (F := F) d = (sc (F := F)).run d 0 >>= fun _ => SparseCore.liftProg (Pipeline.Seg.run (segs m)) := by
  simp only [main, segs, Pipeline.Seg.run, hseg, Pipeline.HostSeg.ofOps, StableHlo.seq, Prog.lift, Prog.bind_op, Prog.bind_ret, bind_pure_comp]
  rfl

end Cert.KI
end
-- ==== Proof.KIParts.lean ====
/-
  The TensorCore's side of the one SparseCore call, as a regrouping of what it holds.  It holds the index vector,
  the table and the result array whole.  The 4096 rows fall into 32 blocks of 128, pairwise disjoint and covering,
  so the index vector and the result array are each the 32 blocks; the table's full share is 32 read shares and a
  remainder.  Block b of each array and share b of the table are what the task of block b is handed; the tasks are
  indexed by SparseCore c and subcore i with block 2 i + c, which runs over the 32 blocks once.  Afterwards the
  same pieces come back, the result array's blocks all at one function, and join to the whole arrays again.
-/
import proofs.«205810_g90829968376338_cont_sun_m_901_13_alg».proof.Proof.KIScPay
import Idealize.ShloMosaic.Lib.Transfers
import Mathlib.Logic.Equiv.Fin.Basic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S4096x128 EltTy.f32)

/-! ## The blocks: disjoint, and covering -/

theorem iSet_eq (b : Fin 32) : iSet b = (iblk b).set := by
  show ((View.whole (main_arg0_scv : Ref sig .scVector)).slice (iblk b)).set = _
  rw [View.set_slice]; exact Finset.map_refl
theorem oSet_eq (b : Fin 32) : oSet b = (oblk b).set := by
  show ((View.whole (main_v0_scv : Ref sig .scVector)).slice (oblk b)).set = _
  rw [View.set_slice]; exact Finset.map_refl

theorem iSets_disjoint : ∀ b ∈ (Finset.univ : Finset (Fin 32)), ∀ b' ∈ (Finset.univ : Finset (Fin 32)), b ≠ b' → Disjoint (iSet b) (iSet b') :=
  fun b _ b' _ h => by rw [iSet_eq, iSet_eq]; exact Rect.part_disjoint idiv h
theorem oSets_disjoint : ∀ b ∈ (Finset.univ : Finset (Fin 32)), ∀ b' ∈ (Finset.univ : Finset (Fin 32)), b ≠ b' → Disjoint (oSet b) (oSet b') :=
  fun b _ b' _ h => by rw [oSet_eq, oSet_eq]; exact Rect.part_disjoint odiv h
theorem iSets_cover : (Finset.univ : Finset (Fin 32)).biUnion iSet = Finset.univ :=
  (Finset.biUnion_congr rfl fun b _ => iSet_eq b).trans (Rect.biUnion_part idiv)
theorem oSets_cover : (Finset.univ : Finset (Fin 32)).biUnion oSet = Finset.univ :=
  (Finset.biUnion_congr rfl fun b _ => oSet_eq b).trans (Rect.biUnion_part odiv)

/-- The index vector held whole is its 32 blocks held. -/
theorem iPts_blocks (d : Dev nD) (f : Buf (Elt F) (iLoc d)) :
    (iLoc d ↦{fullShare} f : sProp 𝕄) = bigSep Finset.univ fun b : Fin 32 => iLoc d ↦[iSet b]{fullShare} f := by
  rw [← pointsTo_biUnion Finset.univ (ℓ := iLoc d) iSet iSets_disjoint, iSets_cover]; try rfl
/-- The result array held whole is its 32 blocks held. -/
theorem oPts_blocks (d : Dev nD) (f : Buf (Elt F) (oLoc d)) :
    (oLoc d ↦{fullShare} f : sProp 𝕄) = bigSep Finset.univ fun b : Fin 32 => oLoc d ↦[oSet b]{fullShare} f := by
  rw [← pointsTo_biUnion Finset.univ (ℓ := oLoc d) oSet oSets_disjoint, oSets_cover]; try rfl

/-! ## The tasks run over the blocks once -/

/-- Block 2 i + c, over SparseCore c of 2 and subcore i of 16, runs over the 32 blocks once. -/
theorem regroup_aux (Φ : Fin 32 → sProp 𝕄) :
    (bigSep Finset.univ fun c : Fin 2 => bigSep Finset.univ fun i : Fin 16 =>
        Φ ⟨2 * i.val + c.val, by have := c.isLt; have := i.isLt; omega⟩) = bigSep Finset.univ Φ := by
  rw [bigSep_univ_comm,
    ← bigSep_univ_prod (fun p : Fin 16 × Fin 2 => Φ ⟨2 * p.1.val + p.2.val, by have := p.1.isLt; have := p.2.isLt; omega⟩),
    bigSep_univ_equiv (finProdFinEquiv : Fin 16 × Fin 2 ≃ Fin (16 * 2)) Φ]
  exact bigSep_congr fun p _ => congrArg Φ (Fin.ext (by simp [finProdFinEquiv]; omega))

variable [FloatOps F]

theorem regroup (Φ : Fin 32 → sProp 𝕄) :
    (bigSep Finset.univ fun c : Fin ((K (F := F)).nCore 0) => bigSep Finset.univ fun i : Fin ((K (F := F)).nSub 0) => Φ (bOf c i))
      = bigSep Finset.univ Φ :=
  regroup_aux Φ

/-! ## Cutting into the tasks' parts, and putting them together again -/

/-- The three arrays held whole are the table's remainder and, per block, what its task is handed. -/
theorem parts_split (d : Dev nD) :
    iprop((iLoc d ↦{fullShare} m (iLoc d)) ∗ (tLoc d ↦{fullShare} m (tLoc d)) ∗ (oLoc d ↦{fullShare} m (oLoc d)))
      ⊢ (iprop((tLoc d ↦{Transfers.shareDrop fullShare 32} m (tLoc d)) ∗ bigSep Finset.univ fun b : Fin 32 => goOf m d b) : sProp 𝕄) := by
  rw [bigSep_sep', bigSep_sep', iPts_blocks, oPts_blocks]
  iintro ⟨Hi, Ht, Ho⟩
  ihave Ht' := (Transfers.pointsTo_toks_split fullShare 32) $$ Ht
  icases Ht' with ⟨Hd, Hts⟩
  isplitl [Hd]; · iexact Hd
  isplitl [Hi]; · iexact Hi
  isplitl [Hts]; · iexact Hts
  iexact Ho

/-- The table's remainder and, per block, what its task hands back are the three arrays held whole, the result
    array at the one function all its blocks are at. -/
theorem parts_join (d : Dev nD) :
    iprop((tLoc d ↦{Transfers.shareDrop fullShare 32} m (tLoc d)) ∗ bigSep Finset.univ fun b : Fin 32 => tdOf m d b)
      ⊢ (iprop((iLoc d ↦{fullShare} m (iLoc d)) ∗ (tLoc d ↦{fullShare} m (tLoc d)) ∗ (oLoc d ↦{fullShare} Gout m d)) : sProp 𝕄) := by
  rw [bigSep_sep', bigSep_sep', iPts_blocks, oPts_blocks]
  iintro ⟨Hd, Hi, Hts, Ho⟩
  isplitl [Hi]; · iexact Hi
  isplitl [Hd Hts]
  · iapply (Transfers.pointsTo_toks_join fullShare 32)
    isplitl [Hd]; · iexact Hd
    iexact Hts
  iexact Ho

end Cert.KI
end
-- ==== Proof.KIMain.lean ====
/-
  @main on the TensorCore: it cuts the index vector and the result array into the 32 tasks' blocks and the table into
  32 read shares, starts the SparseCore call and waits for it, puts the arrays together again — the gathered rows'
  array now at the gathered rows —, and then runs its own items (the reshapes and the two pallas_calls) as a
  pipeline launch's segments, entered with nothing owed and left with nothing owed; at the end every unscoped buffer
  is at the last item's contents.
-/
import proofs.«205810_g90829968376338_cont_sun_m_901_13_alg».proof.Proof.KISegs
import proofs.«205810_g90829968376338_cont_sun_m_901_13_alg».proof.Proof.KIParts
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Seg HostSeg RegionSeg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

/-- The three arrays the gather touches, as the TensorCore's buffers. -/
abbrev i' : DevRef τ sig := Proc.devRef .tc (main_arg0 : Ref sig .tc)
abbrev t' : DevRef τ sig := Proc.devRef .tc (main_arg2 : Ref sig .tc)
abbrev o' : DevRef τ sig := Proc.devRef .tc (main_v0 : Ref sig .tc)
abbrev T3 : Finset (DevRef τ sig) := {i', t', o'}
theorem T3_sub : T3 ⊆ Pipeline.ucRefs τ sig := by decide

omit [FloatOps F] in
theorem held_T3 (d : Dev nD) (Wv : Valuation τ sig (Elt F)) :
    (StableHlo.held (SparseCore.T d) T3 Wv : sProp 𝕄) = iprop((iLoc d ↦{fullShare} Wv i') ∗ (tLoc d ↦{fullShare} Wv t') ∗ (oLoc d ↦{fullShare} Wv o')) := by
  unfold StableHlo.held T3
  rw [SparseCore.bigSep_insert' (by decide), SparseCore.bigSep_insert' (by decide), bigSep_singleton]

theorem W1_i (d : Dev nD) : W1 m d i' = m (iLoc d) := Function.update_of_ne (show i' ≠ o' by decide) _ _
theorem W1_t (d : Dev nD) : W1 m d t' = m (tLoc d) := Function.update_of_ne (show t' ≠ o' by decide) _ _
theorem W1_o (d : Dev nD) : W1 m d o' = Gout m d := Function.update_self _ _ _
theorem held_rest_W1 (d : Dev nD) :
    (StableHlo.held (SparseCore.T d) (Pipeline.ucRefs τ sig \ T3) (W1 m d) : sProp 𝕄) = StableHlo.held (SparseCore.T d) (Pipeline.ucRefs τ sig \ T3) (W0 m d) :=
  StableHlo.held_congr _ fun b hb => Function.update_of_ne (fun (e : b = o') => (Finset.mem_sdiff.mp hb).2 (by rw [e]; decide)) _ _

theorem st0_eq (d : Dev nD) : (bigSep Finset.univ fun c : Fin ((K (F := F)).nCore 0) => (P m).st 0 d c) = bigSep Finset.univ fun b : Fin 32 => goOf m d b :=
  regroup (fun b => goOf m d b)
theorem dn0_eq (d : Dev nD) : (bigSep Finset.univ fun c : Fin ((K (F := F)).nCore 0) => (P m).dn 0 d c) = bigSep Finset.univ fun b : Fin 32 => tdOf m d b :=
  regroup (fun b => tdOf m d b)

theorem held_W1 (d : Dev nD) :
    (StableHlo.held (SparseCore.T d) (Pipeline.ucRefs τ sig) (W1 m d) : sProp 𝕄)
      = iprop(((iLoc d ↦{fullShare} m (iLoc d)) ∗ (tLoc d ↦{fullShare} m (tLoc d)) ∗ (oLoc d ↦{fullShare} Gout m d))
          ∗ StableHlo.held (SparseCore.T d) (Pipeline.ucRefs τ sig \ T3) (W0 m d)) := by
  rw [StableHlo.held_sub_split (SparseCore.T d) T3_sub, held_T3, held_rest_W1, W1_i, W1_t, W1_o]

/-- What the launch leaves the TensorCore beside its dues after the one call. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) :
    ((K (F := F)).tcSt EH d 1 : sProp 𝕄)
      = iprop((∃ Wt, ⌜(K (F := F)).WBelow (SparseCore.T d) Wt (8 * 1)⌝ ∗ owes (SparseCore.T d) (0 : CellTallies nD τ sig (HIx 1)) Wt) ∗ tcTail (F := F) d) := by
  unfold SparseCore.Cfg.tcSt tcTail
  rw [(K (F := F)).Otc_end d (le_refl 1)]

/-- The final contents of every unscoped buffer of the TensorCore. -/
abbrev FIN (d : Dev nD) : sProp 𝕄 := StableHlo.held (SparseCore.T d) (Pipeline.ucRefs τ sig) (W5 m d)

set_option maxHeartbeats 1000000 in
theorem hmain (κ : GSem nD τ sig → ℕ) (d : Dev nD) :
    iprop((K (F := F)).ctx EH (P m) κ ∗ (K (F := F)).tcSt EH d 0 ∗ (K (F := F)).tcRes m ρ d
        ∗ Pipeline.ghostOn (pcfgs (F := F)) adm EP Finset.univ d)
      ⊢ wp frame (wpE ((K (F := F)).defs (D (F := F))) 𝒱 (SparseCore.T d) none) Set.univ (main d)
          fun _ => iprop((K (F := F)).tcSt EH d 1 ∗ FIN m d) := by
  rw [main_eq m d, wp_bind, tcSt_one]
  unfold SparseCore.Cfg.tcRes
  rw [show (unscopedBufs d (fun b => m ((SparseCore.T d).loc b)) : sProp 𝕄) = StableHlo.held (SparseCore.T d) (Pipeline.ucRefs τ sig) (W0 m d)
      from Pipeline.unscopedBufs_held d (W0 m d),
    StableHlo.held_sub_split (SparseCore.T d) T3_sub, held_T3]
  iintro ⟨#Hctx, Hst, ⟨Hb, ⟨⟨Hi, Ht, Ho⟩, Hrest⟩, Hsems, Hprng⟩, Hghost⟩
  ihave Hparts := (parts_split m d) $$ [Hi Ht Ho]
  · isplitl [Hi]; · iexact Hi
    isplitl [Ht] <;> iassumption
  icases Hparts with ⟨Htd, Hgo⟩
  iapply ((K (F := F)).wp_run (D (F := F)) 𝒱 (EH := EH) (P := P m) κ d 0) $$ [Hst Hgo Hb Htd Hrest Hsems Hprng Hghost]
  isplitr; · iexact Hctx
  isplitl [Hst]; · iexact Hst
  isplitl [Hgo]; · rw [st0_eq]; iexact Hgo
  iintro ⟨Hst, Hdn⟩
  ihave Hst' := (Entails.of_eq (show ((K (F := F)).tcSt EH d ((0 : Fin 1).val + 1) : sProp 𝕄) = _ from tcSt_one (F := F) d)) $$ Hst
  icases Hst' with ⟨⟨%Wt, %hWt, HO⟩, Htail⟩
  ihave Hdn' := (Entails.of_eq (dn0_eq m d)) $$ Hdn
  ihave Hj := (parts_join m d) $$ [Htd Hdn']
  · isplitl [Htd] <;> iassumption
  icases Hj with ⟨Hi, Ht, Ho⟩
  ihave Hheld := (Entails.of_eq (held_W1 m d).symm) $$ [Hi Ht Ho Hrest]
  · isplitl [Hi Ht Ho]
    · isplitl [Hi]; · iexact Hi
      isplitl [Ht] <;> iassumption
    · iexact Hrest
  ihave Hlev := ((K (F := F)).ctx_levAts κ) $$ Hctx
  iapply ((K (F := F)).wp_liftProg (D (F := F)) 𝒱 (SparseCore.T d) Set.univ none (Seg.run (segs m)) _)
  iapply (Pipeline.wp_segs (pcfgs (F := F)) adm (pdats m) (none : HIx 1) cellOf_inj EP defs₀ 𝒱₀ (LL (F := F)) (lv (F := F)) d (segs m) Finset.univ
      (fun c => iprop(StableHlo.held (c : Thread nD τ) (Pipeline.ucRefs τ sig) (W1 m c) ∗ RR (F := F) c))
      (fun c => iprop(StableHlo.held (c : Thread nD τ) (Pipeline.ucRefs τ sig) (W5 m c) ∗ RR (F := F) c))
      (by simp only [segs, Pipeline.Seg.pipes_host, Pipeline.Seg.pipes_region, Pipeline.Seg.pipes_nil]; decide)
      (fun _ _ => Finset.mem_univ _)
      ⟨fun _ => .rfl, fun _ => .rfl, fun _ => .rfl, fun _ => .rfl, fun _ => .rfl⟩) $$ [Hb Hheld Hprng HO Hghost Htail]
  isplitl [Htail]
  · iintro ⟨Hb, Hheld, Hp, ⟨%Wt', %hW', HO⟩⟩
    isplitl [HO Htail]
    · isplitl [HO]
      · iexists Wt'; isplitr
        · ipureintro; intro p hp; exact le_of_le_of_eq (hW' hp) (Nat.mul_one 8).symm
        · iexact HO
      · iexact Htail
    · iexact Hheld
  isplitl [Hb]; · iexact Hb
  isplitl [Hheld Hprng HO]
  · isplitl [Hheld]; · iexact Hheld
    isplitl [Hprng]; · iexists _; iexact Hprng
    iexists Wt; isplitr
    · ipureintro; intro p hp; exact le_of_le_of_eq (hWt p hp) (Nat.mul_one 8)
    · iexact HO
  isplitr; · iexact Hlev
  iexact Hghost

end Cert.KI
end
-- ==== Proof.KIScVal.lean ====
/-
  The SparseCore gather, the value a vector subcore leaves: subcore (c, s) works on block 2 s + c, rows
  128 (2 s + c) … 128 (2 s + c) + 127.  What it writes over its block of the gathered rows' array is the contents
  of its row scratch, and those are the gather's payload: entry (k, j) of the scratch is entry j of the table row
  named by word k of the index scratch, read as a natural; the index scratch holds the block's 128 words of the
  index vector, word k of the scratch being word 128 (2 s + c) + k of the vector.  So on the block's index set the
  written array is the array of gathered rows: entry (r, j) is entry j of the table row word r names (every word
  names a row of the table, so reducing it into the table's thousand rows changes nothing).
-/
import proofs.«205810_g90829968376338_cont_sun_m_901_13_alg».proof.Proof.KIScDefs

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

section
variable (m : (ℓ : Loc nD τ sig) → Buf (Elt F) ℓ) (d : Dev nD) (L : grid0.Coords)

/-- On the block of a vector subcore, the result array written with the subcore's row scratch — itself written
    with the gather's payload for the block's index words — is the array of gathered rows.  Coordinate by
    coordinate: the column is kept all the way; the row read of the table at scratch row k is the k-th word of the
    index scratch, which is word (block offset + k) of the index vector, and (block offset + k) is the row of the
    result that scratch row k lands on. -/
theorem out_written [FloatOps F] (hpre : PreOK m) (fs : Buf (Elt F) ((V d (cV L) (jV L)).loc cc0_scratch0)) (fr : Buf (Elt F) ((V d (cV L) (jV L)).loc cc0_scratch1))
    (hn : S128.numel = S128x128.size gathers_S1000x128_S128x128.axis')
    (hin : ∀ x, ((sV).view.read (Elt F) (View.write (Elt F) (sV).view fs ((iSliceK L).view.read (Elt F) (m (iLoc d))) Finset.univ) x).toNat < S1000x128.size gathers_S1000x128_S128x128.axis)
    (pay : S128x128.Idx → Elt F .f32)
    (hpay : pay = ReadAs.same.apply (View.read (Elt F) (rV).view ((rV).view.writes (Elt F) fr
        [⟨Rect.whole S128x128, SparseCore.gatherPayload gathers_S1000x128_S128x128 (View.read (Elt F) (tAllK).view (m (tLoc d)))
            (SparseCore.rows (View.read (Elt F) (sV).view (View.write (Elt F) (sV).view fs (ReadAs.same.apply (View.read (Elt F) (iSliceK L).view (m (iLoc d)))) Finset.univ)) hn hin)⟩]))) :
    ∀ i ∈ (oSliceK L).view.set, ((oSliceK L).view.writes (Elt F) (m (oLoc d)) [⟨Rect.whole S128x128, pay⟩]) i = Gout m d i := by
  subst hpay
  intro i hi
  obtain ⟨y, -, rfl⟩ := Finset.mem_map.mp hi
  rw [View.writes_singleton]
  have e : (oSliceK L).view.emb y = ((oSliceK L).view.slice (Rect.whole S128x128)).emb y := by
    rw [View.emb_slice]
    show _ = (oSliceK L).view.emb ((Rect.whole S128x128).emb y)
    rw [Rect.emb_whole_apply]
  conv_lhs => rw [e, View.write_emb_of_mem _ _ (Finset.mem_univ _)]
  rw [cast_eq, ReadAs.apply_same]
  have hr : ∀ (P : S128x128.Idx → Elt F .f32), View.read (Elt F) (rV).view ((rV).view.writes (Elt F) fr [⟨Rect.whole S128x128, P⟩]) y = P y := fun P => by
    have h := View.read_writes_cons_emb (rV).view fr (Rect.whole S128x128) P [] y
    have e2 : (Rect.whole S128x128).emb y = y := Rect.emb_whole_apply S128x128 y
    rwa [e2] at h
  rw [hr]
  unfold SparseCore.gatherPayload
  rw [View.read_apply, cast_eq]
  unfold Gout Cert.Spec.gathered
  congr 1
  have ht : ∀ (z : S1000x128.Idx) (a : Fin 2), ((tAllK).view.emb z a).val = (z a).val := fun z a => by
    show (![0, 0] : Fin 2 → ℕ) a + 1 * (z a).val = _
    match a with
    | 0 => simp
    | 1 => simp
  have ho : ∀ a : Fin 2, ((oSliceK L).view.emb y a).val = (k0_off2 L a) + (y a).val := fun a => by
    show k0_off2 L a + 1 * (y a).val = _
    omega
  funext a; apply Fin.ext
  match a with
  | 0 =>
    refine (ht _ 0).trans ?_
    refine (congrArg Fin.val (Shape.Gathers.idx_axis gathers_S1000x128_S128x128 _ y)).trans ?_
    show (View.read (Elt F) (sV).view (View.write (Elt F) (sV).view fs
            (ReadAs.same.apply (View.read (Elt F) (iSliceK L).view (m (iLoc d)))) Finset.univ)
          (S128.rowMajor.symm ((y 0).cast hn.symm))).toNat
        = (Spec.rowOf (m (iLoc d) (ValueIdx.ix1 ((oSliceK L).view.emb y 0)))).val
    rw [Cert.Spec.rowOf_val (hpre d _)]
    congr 1
    rw [View.write_whole_univ]
    simp only [Memref.view_whole, View.read_whole, ReadAs.apply_same]
    refine ((View.read_apply _ _).trans (cast_eq _ _)).trans ?_
    congr 1
    funext b; apply Fin.ext
    match b with
    | 0 =>
      show k0_off1 L 0 + 1 * ((S128.rowMajor.symm ((y 0).cast hn.symm)) 0).val = ((oSliceK L).view.emb y 0).val
      have hk : ((S128.rowMajor.symm ((y 0).cast hn.symm)) 0).val = (y 0).val := by
        have h1 := Shape.rowMajor_val_one (S128.rowMajor.symm ((y 0).cast hn.symm))
        rw [Equiv.apply_symm_apply] at h1
        exact h1.symm
      rw [hk, ho, k0_off1_eq, k0_off2_eq]
      simp
  | 1 =>
    refine (ht _ 1).trans ?_
    refine (Shape.Gathers.idx_of_ne gathers_S1000x128_S128x128 _ y 1 (by decide)).trans ?_
    show (y 1).val = ((oSliceK L).view.emb y 1).val
    rw [ho, k0_off2_eq]; simp

end
end Cert.KI
end
-- ==== Proof.KISc.lean ====
/-
  One vector subcore's task of the gather, run: the block's 128 index words copied into the index scratch and waited
  for; the 128 table rows they name gathered into the row scratch (the offsets in range because every index word names
  a table row) and waited for; the rows copied out to the block's rows of the result and waited for.  It leaves the
  block's rows of the result at the gathered rows, the index words and the table as they were, the subcore's own
  storage as it found it.  That is the launch theorem's obligation for each of the 32 tasks.
-/
import proofs.«205810_g90829968376338_cont_sun_m_901_13_alg».proof.Proof.KIScPay
import proofs.«205810_g90829968376338_cont_sun_m_901_13_alg».proof.Proof.KIScVal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

section Tile
variable (d : Dev nD) (L : grid0.Coords) [FloatOps F]

set_option maxHeartbeats 4000000 in
/-- One vector subcore's task: the block's index words fetched, the table rows they name gathered, the rows written
    out — leaving the block's rows of the result at the gathered rows, the index words and the table as they were. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iPart m d (bL L) ∗ tPart m d (bL L) ∗ oPart d (bL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) tV (Memref.isWhole_whole _) oV (Memref.isWhole_whole _)
            sV (Memref.isWhole_whole _) rV (Memref.isWhole_whole _) cc0_scratch2 cc0_scoped0 cc0_scoped1)
          fun _ => iprop((iPart m d (bL L) ∗ tPart m d (bL L) ∗ oPart d (bL L) (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSliceK (F := F) d L _).symm) $$ Hi
  ihave Ho' := (Entails.of_eq (pts_oSliceK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  -- the index fetch and its wait
  sl_exec
  -- the gather reads the table through the whole-array slice the program takes of it, and its offsets are in range
  ihave Hts := (pointsTo_split_subset (q := tq (bL L)) (f := m (tLoc d)) (S := Finset.univ) (Finset.subset_univ (tAllK).view.set)).1 $$ Ht'
  icases Hts with ⟨Hts, Htr⟩
  ihave Hts' := (Entails.of_eq (show ((tV).view.loc (V d (cV L) (jV L)) ↦[(tAllK).view.set]{tq (bL L)} m (tLoc d) : sProp 𝕄)
      = (tAllK).view.loc (V d (cV L) (jV L)) ↦[(tAllK).view.set]{tq (bL L)} m (tLoc d) from rfl)) $$ Hts
  have hin := inb_of_pre m d L hpre fs _ rfl
  -- the gather and its wait, the write-out and its wait
  sl_exec
  have hw := out_written m d L hpre fs fr (by decide) hin (tile_body.sl.dma0_1 m d L fs fr hin) rfl
  ihave Ho2 := (Entails.of_eq (pointsTo_congr (q := fullShare) hw)) $$ Ho'
  sl_step
  isplitl [Hi' Htr Ho2]
  · isplitl [Hi']; · iapply (Entails.of_eq (pts_iSliceK (F := F) d L _)); iexact Hi'
    isplitl [Htr]; · iexact Htr
    iapply (Entails.of_eq (pts_oSliceK (F := F) d L _)); iexact Ho2
  isplitl [Hs' Hr' Hbufs]
  · isplitl [Hs']; · iexists _; iexact Hs'
    isplitl [Hr']; · iexists _; iexact Hr'
    iexact Hbufs
  isplitl [HsemG HsemI HsemO Hsems]
  · isplitl [HsemG]; · iexact HsemG
    isplitl [HsemI]; · iexact HsemI
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

section Obl
variable [FloatOps F]

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hc : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Obl

end Cert.KI
end
-- ==== Proof.KILaunch.lean ====
/-
  The launch element of the ghost state: the rounds of the launch's handshakes at their start, beside the rounds
  of the two pipelines' staging cells at their start, beside no counter.  Owning it gives the handshakes' rounds,
  and, after an update, every core's share of the pipelines' ghost state: per pipeline its cells' rounds and its
  duty tokens; the handshakes hand nothing of the kernels' own on.
-/
import proofs.«205810_g90829968376338_cont_sun_m_901_13_alg».proof.Proof.KISegs
import proofs.«205810_g90829968376338_cont_sun_m_901_13_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Tactic

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The two pipelines' staging cells are pairwise distinct. -/
theorem cellOf_inj' : Function.Injective (Pipeline.cellOf (nD := nD) (τ := τ) (Pipeline.pin (pcfgs (F := F)) adm)) := Gen.cellOf_inj

/-- The launch element: the handshakes' rounds at their start, the pipelines' rounds at theirs, no counter. -/
def u₀ : UU := (initOf (K (F := F)).hsCells (K (F := F)).hsToks, (initOf (Pipeline.cells (Pipeline.pin (pcfgs (F := F)) adm) cellOf_inj') (Pipeline.launchToks (Pipeline.pin (pcfgs (F := F)) adm) cellOf_inj'), 1))

/-- Owning the launch element gives the handshakes' rounds and, after an update, on every core each pipeline's cells'
    rounds and duty tokens; what the handshakes hand each thread of the kernels' own is nothing. -/
theorem hu₀ : (ownU (u₀ (F := F)) : sProp 𝕄) ⊢ |={Set.univ}=> iprop(BI.own (EH (initOf (K (F := F)).hsCells (K (F := F)).hsToks)) ∗ (bigSep Finset.univ fun d : Dev nD => Pipeline.ghostOn (pcfgs (F := F)) adm EP Finset.univ d) ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj') $$ HP with ⟨HA, HB⟩
  imodintro
  isplitl [HH]; · iexact HH
  isplitl [HA HB]
  · have hg : (bigSep Finset.univ fun d : Dev nD => Pipeline.ghostOn (pcfgs (F := F)) adm EP Finset.univ d : sProp 𝕄)
        = iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) := by
      rw [← bigSep_sep']
      refine bigSep_congr fun c _ => ?_
      rw [← bigSep_sep']
      rfl
    rw [hg]
    isplitl [HA]; · iexact HA
    iexact HB
  · have hx : (bigSep Finset.univ fun thr : Thread nD τ => bigSep Finset.univ fun q : Fin 1 => (P m).x q thr : sProp 𝕄) = iprop(emp) := by
      show (bigSep Finset.univ fun _ : Thread nD τ => bigSep Finset.univ fun _ : Fin 1 => (iprop(emp) : sProp 𝕄)) = iprop(emp)
      have be : ∀ {I : Type} (s : Finset I), (bigSep s fun _ => iprop(emp)) = (iprop(emp) : sProp 𝕄) := fun s => bigSep_emp_const s
      rw [bigSep_congr fun _ _ => be _, be]
    rw [hx]; iempintro

end Cert.KI
end
-- ==== Proof.KIRun.lean ====
/-
  The whole program's run, from the launch theorem of a SparseCore program: the 32 tasks' obligations, how a
  SparseCore's operands are its tasks' parts, @main on the TensorCore, the launch element of the ghost state, and how
  the last thread state reads a final memory.
-/
import proofs.«205810_g90829968376338_cont_sun_m_901_13_alg».proof.Proof.KIMain
import proofs.«205810_g90829968376338_cont_sun_m_901_13_alg».proof.Proof.KISc
import proofs.«205810_g90829968376338_cont_sun_m_901_13_alg».proof.Proof.KILaunch
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Seg HostSeg RegionSeg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The run -/

/-- What a final memory holds on device d, read off the last thread state. -/
def fq (d : Dev nD) (s' : Phys nD τ sig (Elt F)) : Prop :=
  ∀ b ∈ Pipeline.ucRefs τ sig, s'.mem.mem ((d, b) : Loc nD τ sig) = W5 m d b

theorem hfin (d : Dev nD) (s' : Phys nD τ sig (Elt F)) : iprop(FIN m d ∗ SI s') ⊢ (⌜fq m d s'⌝ : sProp 𝕄) := by
  show iprop(StableHlo.held (SparseCore.T d) (Pipeline.ucRefs τ sig) (W5 m d) ∗ SI s') ⊢ _
  unfold StableHlo.held
  iintro ⟨Hh, HSI⟩
  ihave H := (pointsTo_read_all (Pipeline.ucRefs τ sig) (fun b => ((d, b) : Loc nD τ sig)) (W5 m d) s') $$ [Hh HSI]
  · isplitl [Hh] <;> iassumption
  icases H with ⟨%h, -⟩
  ipureintro; exact h

/-- Every final memory holds, on every device, every unscoped TensorCore buffer at the last item's contents. -/
def QC : PUnit × MemSt nD τ sig (Elt F) → Prop := fun r => ∀ c : Dev nD, ∀ b ∈ Pipeline.ucRefs τ sig, r.2.mem ((c, b) : Loc nD τ sig) = W5 m c b

/-- THE RUN: from any memory with zero counters whose index words name table rows, every weakly fair execution of
    the device's 35 threads terminates, nothing faulting, and ends with every unscoped buffer at the fold's last
    contents. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => Pipeline.ghostOn (pcfgs (F := F)) adm EP Finset.univ d) (FIN m) (u₀ (F := F))
    (sep_elim_left.trans (hu₀ m)) (hmain m ρ) (fq m) (hfin m) (QC m) (fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KI
end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.KITc1Val.lean ====
/-
  The first TensorCore call's output array after its last grid point, at the ideal values, as one function of the
  arrays the call finds: entry (r, j) is the scalar times (the sum over the 2048 features k of x (r, k) * W (k, j), plus
  entry j of the bias) — the specification's projected features, the bias read off its one row and the scalar off
  its one word.  Each point writes back its block of that function (the features' blocks move with the output's, the
  weights, the bias and the scalar stay in place), and the four blocks of 1024 rows cover the 4096 rows.
-/
import proofs.«205810_g90829968376338_cont_sun_m_901_13_alg».proof.Proof.KITc1
import proofs.«205810_g90829968376338_cont_sun_m_901_13_alg».proof.Proof.Spec
import proofs.«205810_g90829968376338_cont_sun_m_901_13_alg».proof.Proof.LibPlainMatmul
import Idealize.ShloMosaic.Lib.Pipeline.Value
import Idealize.ShloMosaic.Lib.ValueIdx
import Idealize.ShloMosaic.Lib.ValueLayout

set_option maxRecDepth 16384

noncomputable section

open scoped BigOperators

namespace Cert.KI.Tc

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable (c : Dev nD) (V : (b : Ref sig .tc) → Buf (Elt Ideal) ((c : Thread nD τ).loc b))

theorem hz1 : (![0, 0] : Fin 2 → Nat) = fun _ => 0 := funext fun a => by fin_cases a <;> rfl

/-- The four arrays the call reads, as functions into the extended reals: the scalar (one word), the features, the
    weights, the bias as one row. -/
abbrev ds1 : S1.Idx → EReal := V main_v1
abbrev x1 : S4096x2048.Idx → EReal := V main_arg1
abbrev w1 : S2048x128.Idx → EReal := V main_arg3
abbrev b1 : S1x128.Idx → EReal := V main_v2

/-- What the output array ends holding: the projected features of the specification, the bias read off its one row and
    the scalar off its one word. -/
def G1 : S4096x128.Idx → EReal :=
  Cert.Spec.projected (x1 c V) (w1 c V) (fun j => b1 c V (ix2 (0 : Fin 1) (j 0))) (fun _ => ds1 c V (ix1 (0 : Fin 1)))

/-- The body's payload at the ideal values, at an entry: the scalar times (the row of the first operand times the
    column of the second, plus the row vector's entry). -/
theorem pay1_apply (v0 : S1024x2048.Idx → EReal) (v1 : S2048x128.Idx → EReal) (v3 : EReal) (v4 : S1x128.Idx → EReal)
    (p : Fin 1024) (q : Fin 128) :
    k1_pay1 (F := Ideal) v0 v1 v3 v4 (ix2 p q)
      = v3 * ((∑ k : Fin 2048, v0 (ix2 p k) * v1 (ix2 k q)) + v4 (ix2 (0 : Fin 1) q)) := by
  unfold k1_pay1
  simp only [shapeCast_self]
  show v3 * (matmul (F := Ideal) dot_S1024x2048_S2048x128_S1024x128_1_0_0_1_n_n none v0 v1 (constant (F := Ideal) S1024x128 .f32 0x00000000#32) (ix2 p q)
      + broadcastTo S1024x128 v4 broadcasts_S1x128_S1024x128 (ix2 p q)) = _
  rw [broadcastTo_1b_ab_apply]
  rw [show dot_S1024x2048_S2048x128_S1024x128_1_0_0_1_n_n = DotDims.plain 1024 2048 128 from rfl]
  rw [Cert.Proof.LibPlainMatmul.matmul_plain_zero_apply]

/-- One point, over plain arrays and indices: the payload at block entry (p, q), of blocks whose entries are the
    arrays' at the places named, is the specification's entry at the output's own index e. -/
theorem point1 (s : S1.Idx → EReal) (X : S4096x2048.Idx → EReal) (Wm : S2048x128.Idx → EReal) (B : S1x128.Idx → EReal)
    (v3 : EReal) (x0 : S1024x2048.Idx → EReal) (xw : S2048x128.Idx → EReal) (x4 : S1x128.Idx → EReal)
    (p : Fin 1024) (q : Fin 128) (e : S4096x128.Idx)
    (hv : v3 = s (ix1 (0 : Fin 1)))
    (hx0 : ∀ k : Fin 2048, x0 (ix2 p k) = X (ix2 (e 0) k))
    (hxw : ∀ k : Fin 2048, xw (ix2 k q) = Wm (ix2 k (e 1)))
    (hx4 : x4 (ix2 (0 : Fin 1) q) = B (ix2 (0 : Fin 1) (e 1))) :
    k1_pay1 (F := Ideal) x0 xw v3 x4 (ix2 p q)
      = Cert.Spec.projected X Wm (fun j => B (ix2 (0 : Fin 1) (j 0))) (fun _ => s (ix1 (0 : Fin 1))) e := by
  rw [pay1_apply, hv, hx4]
  simp only [hx0, hxw]
  rfl

/-- The printed index maps, decided over the grid: the scalar, the weights and the bias stay at block 0; the features'
    blocks move with the output's, down the rows. -/
theorem idx_facts1 : ∀ t : Fin cfg1.N, win1_0.index t (0 : Fin 1) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of G1 of the arrays as the call finds them. -/
theorem flushed1_eq (t : Fin cfg1.N) :
    (dat1 c V).flushed 4 t = ((cfg1.win 4).blk t).view.read (Elt Ideal) (G1 c V) := by
  show (cfg1.win 4).cut (grid1.coords t) ((dat1 c V).after 4 t) = _
  rw [after1_4]
  unfold out1_4
  rw [View.canon_unit_zero hz1]
  simp only [View.ld_unit_zero (S := S1024x2048) hz1, View.ld_unit_zero (S := S2048x128) hz1, View.ld_unit_zero (S := S1x128) hz1]
  obtain ⟨e0, e1, e2, e3, e4, e5, e6, e7, e8⟩ := idx_facts1 t
  funext j
  have hj0 : (j 0).val < 1024 := (j 0).isLt
  have hj1 : (j 1).val < 128 := (j 1).isLt
  have hj : j = ix2 (⟨(j 0).val, hj0⟩ : Fin 1024) (⟨(j 1).val, hj1⟩ : Fin 128) := by
    funext a; match a with | ⟨0, _⟩ => rfl | ⟨1, _⟩ => rfl
  refine (congrArg (k1_pay1 (F := Ideal) (iblk1 c V 1 t) (iblk1 c V 2 t) (View.ld (iblk1 c V 0 t) r1_s x1_s) (iblk1 c V 3 t)) hj).trans ?_
  refine point1 (ds1 c V) (x1 c V) (w1 c V) (b1 c V) _ _ _ _ _ _ (((cfg1.win 4).blk t).view.emb j) ?_ ?_ ?_ ?_
  · show ds1 c V (((cfg1.win 0).blk t).view.emb (r1_s.idx x1_s)) = ds1 c V (ix1 (0 : Fin 1))
    congr 1
    funext a; apply Fin.ext
    match a with
    | ⟨0, _⟩ => show win1_0.index t (0 : Fin 1) * 1 + 1 * 0 = 0; omega
  · intro k
    show x1 c V (((cfg1.win 1).blk t).view.emb (ix2 (⟨(j 0).val, hj0⟩ : Fin 1024) k)) = x1 c V (ix2 ((((cfg1.win 4).blk t).view.emb j) 0) k)
    congr 1
    funext a; apply Fin.ext
    match a with
    | ⟨0, _⟩ => show win1_1.index t (0 : Fin 2) * 1024 + 1 * (j 0).val = win1_4.index t (0 : Fin 2) * 1024 + 1 * (j 0).val; omega
    | ⟨1, _⟩ => show win1_1.index t (1 : Fin 2) * 2048 + 1 * k.val = k.val; omega
  · intro k
    show w1 c V (((cfg1.win 2).blk t).view.emb (ix2 k (⟨(j 1).val, hj1⟩ : Fin 128))) = w1 c V (ix2 k ((((cfg1.win 4).blk t).view.emb j) 1))
    congr 1
    funext a; apply Fin.ext
    match a with
    | ⟨0, _⟩ => show win1_2.index t (0 : Fin 2) * 2048 + 1 * k.val = k.val; omega
    | ⟨1, _⟩ => show win1_2.index t (1 : Fin 2) * 128 + 1 * (j 1).val = win1_4.index t (1 : Fin 2) * 128 + 1 * (j 1).val; omega
  · show b1 c V (((cfg1.win 3).blk t).view.emb (ix2 (0 : Fin 1) (⟨(j 1).val, hj1⟩ : Fin 128))) = b1 c V (ix2 (0 : Fin 1) ((((cfg1.win 4).blk t).view.emb j) 1))
    congr 1
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the array is in point t's block iff each coordinate is in the block's range on its axis. -/
theorem mem_blk1 (t : Fin cfg1.N) (i : S4096x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v3).slice (win1_4.rect t)).set ↔ _
  rw [View.set_slice_whole, Rect.mem_set_unit]
  exact Iff.rfl

/-- Every index of the array is in some point's block: row r is in the block of point r / 1024. -/
theorem cover1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 4 := N_1
  let t : Fin cfg1.N := ⟨(i 0).val / 1024, by rw [hN]; omega⟩
  have ht : t.val = (i 0).val / 1024 := rfl
  obtain ⟨e0, e1, e2, e3, e4, e5, e6, e7, e8⟩ := idx_facts1 t
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 128 ≤ (i 1).val ∧ (i 1).val < win1_4.index t (1 : Fin 2) * 128 + 128; omega

/-- The output array after the last point: the specification's projected features of the arrays the call finds. -/
theorem arr1_out : (dat1 (F := Ideal) c V).arrAt 4 cfg1.N
    = Cert.Spec.projected (x1 c V) (w1 c V) (fun j => b1 c V (ix2 (0 : Fin 1) (j 0))) (fun _ => ds1 c V (ix1 (0 : Fin 1))) :=
  (dat1 c V).arrAt_eq_of_cover 4 (G1 c V) (fun t _ => flushed1_eq c V t) (cover1)

end Cert.KI.Tc

end
-- ==== Proof.KITc2Val.lean ====
/-
  The second TensorCore call's output array after its last grid point, at the ideal values, as one function of
  the arrays the call finds: entry (r, j) is the scalar times entry (r, j) of the gathered rows plus entry (r, j) of
  the projected features.  Each point writes back its block of that function (the input windows move with the
  output window, block for block), and the two blocks of 2048 rows cover the 4096 rows.
-/
import proofs.«205810_g90829968376338_cont_sun_m_901_13_alg».proof.Proof.KITc2
import Idealize.ShloMosaic.Lib.Pipeline.Value
import Idealize.ShloMosaic.Lib.ValueIdx
import Idealize.ShloMosaic.Lib.ValueLayout

set_option maxRecDepth 16384

noncomputable section

open scoped BigOperators

namespace Cert.KI.Tc

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable (c : Dev nD) (V : (b : Ref sig .tc) → Buf (Elt Ideal) ((c : Thread nD τ).loc b))

theorem hz2 : (![0, 0] : Fin 2 → Nat) = fun _ => 0 := funext fun a => by fin_cases a <;> rfl

/-- The three arrays the call reads, as functions into the extended reals: the scalar (one word), the gathered rows, the
    projected features. -/
abbrev cs2 : S1.Idx → EReal := V main_v4
abbrev emb2 : S4096x128.Idx → EReal := V main_v0
abbrev p2 : S4096x128.Idx → EReal := V main_v3

/-- What the output array ends holding: the scalar times the first array plus the second, index by index. -/
def G2 : S4096x128.Idx → EReal := fun i => cs2 c V (ix1 (0 : Fin 1)) * emb2 c V i + p2 c V i

/-- The body's payload at the ideal values, at an index. -/
theorem pay2_apply (v0 : EReal) (x1 x5 : S2048x128.Idx → EReal) (j : S2048x128.Idx) :
    k2_pay1 (F := Ideal) v0 x1 x5 j = v0 * x1 j + x5 j := by
  unfold k2_pay1
  simp only [shapeCast_self]
  rfl

/-- One point, over plain arrays and indices: the payload of a scalar read at the word e0, a block whose entry j is the
    first array's at e1 and a block whose entry j is the second's at e2, these three being the scalar's one index and
    the output's own index e3, is the result array's entry at e3. -/
theorem point2 (s : S1.Idx → EReal) (A B : S4096x128.Idx → EReal) (e0 : S1.Idx) (e1 e2 e3 : S4096x128.Idx)
    (h0 : e0 = ix1 (0 : Fin 1)) (h1 : e1 = e3) (h2 : e2 = e3) (v0 : EReal) (x1 x5 : S2048x128.Idx → EReal) (j : S2048x128.Idx)
    (hv : v0 = s e0) (hx1 : x1 j = A e1) (hx5 : x5 j = B e2) :
    k2_pay1 (F := Ideal) v0 x1 x5 j = s (ix1 (0 : Fin 1)) * A e3 + B e3 := by
  rw [pay2_apply, hv, hx1, hx5, h0, h1, h2]

theorem idx_facts2 : ∀ t : Fin cfg2.N, win2_0.index t (0 : Fin 1) = 0
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) = t.val ∧ win2_3.index t (1 : Fin 2) = 0 :=
  (by decide +kernel : ∀ t : Fin grid2.N, _)

theorem flushed2_eq (t : Fin cfg2.N) :
    (dat2 c V).flushed 3 t = ((cfg2.win 3).blk t).view.read (Elt Ideal) (G2 c V) := by
  show (cfg2.win 3).cut (grid2.coords t) ((dat2 c V).after 3 t) = _
  rw [after2_3]
  unfold out2_3
  rw [View.canon_unit_zero hz2]
  simp only [View.ld_unit_zero (S := S2048x128) hz2]
  obtain ⟨e0, e1, e2, e3, e4, e5, e6⟩ := idx_facts2 t
  funext j
  have h0 : ((cfg2.win 0).blk t).view.emb (r2_s.idx x2_s) = ix1 (0 : Fin 1) := by
    funext a; apply Fin.ext
    match a with
    | ⟨0, _⟩ => show win2_0.index t (0 : Fin 1) * 1 + 1 * 0 = 0; omega
  have h1 : ((cfg2.win 1).blk t).view.emb j = ((cfg2.win 3).blk t).view.emb j := by
    funext a; apply Fin.ext
    match a with
    | ⟨0, _⟩ => show win2_1.index t (0 : Fin 2) * 2048 + 1 * (j 0).val = win2_3.index t (0 : Fin 2) * 2048 + 1 * (j 0).val; omega
    | ⟨1, _⟩ => show win2_1.index t (1 : Fin 2) * 128 + 1 * (j 1).val = win2_3.index t (1 : Fin 2) * 128 + 1 * (j 1).val; omega
  have h2 : ((cfg2.win 2).blk t).view.emb j = ((cfg2.win 3).blk t).view.emb j := by
    funext a; apply Fin.ext
    match a with
    | ⟨0, _⟩ => show win2_2.index t (0 : Fin 2) * 2048 + 1 * (j 0).val = win2_3.index t (0 : Fin 2) * 2048 + 1 * (j 0).val; omega
    | ⟨1, _⟩ => show win2_2.index t (1 : Fin 2) * 128 + 1 * (j 1).val = win2_3.index t (1 : Fin 2) * 128 + 1 * (j 1).val; omega
  exact point2 (cs2 c V) (emb2 c V) (p2 c V) _ _ _ _ h0 h1 h2 _ _ _ j rfl rfl rfl

/-- An index of the array is in point t's block iff each coordinate is in the block's range on its axis. -/
theorem mem_blk2 (t : Fin cfg2.N) (i : S4096x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v5).slice (win2_3.rect t)).set ↔ _
  rw [View.set_slice_whole, Rect.mem_set_unit]
  exact Iff.rfl

/-- Every index of the array is in some point's block: row r is in the block of point r / 2048. -/
theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have hN : cfg2.N = 2 := N_2
  let t : Fin cfg2.N := ⟨(i 0).val / 2048, by rw [hN]; omega⟩
  have ht : t.val = (i 0).val / 2048 := rfl
  obtain ⟨e0, e1, e2, e3, e4, e5, e6⟩ := idx_facts2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

/-- The output array after the last point, as one function of the arrays the call finds. -/
theorem arr2_out : (dat2 (F := Ideal) c V).arrAt 3 cfg2.N = fun i => cs2 c V (ix1 (0 : Fin 1)) * emb2 c V i + p2 c V i :=
  (dat2 c V).arrAt_eq_of_cover 3 (G2 c V) (fun t _ => flushed2_eq c V t) (cover2)

end Cert.KI.Tc

end
-- ==== Proof.KIWalk.lean ====
/-
  The contents of the TensorCore's buffers after its last item, read back through the items to the launch memory.
  No item writes an argument array, so each argument ends as launched.  The result array ends, at the ideal
  values, at the specification's function of the seven arguments: the second call leaves cs times the gathered
  rows plus the projected features; the scalar it reads is the one element of the reshaped cs; the gathered rows
  are what the gather left; the projected features are what the first call leaves, whose scalar and bias row are
  the reshaped ds and b.
-/
import proofs.«205810_g90829968376338_cont_sun_m_901_13_alg».proof.Proof.KISegs
import proofs.«205810_g90829968376338_cont_sun_m_901_13_alg».proof.Proof.KITc1Val
import proofs.«205810_g90829968376338_cont_sun_m_901_13_alg».proof.Proof.KITc2Val
import Idealize.ShloMosaic.Lib.ValueLayout

noncomputable section

open scoped BigOperators

namespace Cert.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

section Arguments

variable {F : FTy → Type} [FloatOps F]
variable (m : (ℓ : Loc nD τ sig) → Buf (Elt F) ℓ)

/-! ## One item back at a buffer the item does not write -/

/-- The gather writes the gathered rows' array only. -/
theorem W1_of_ne (c : Dev nD) {b : Ref sig .tc} (h : b ≠ main_v0) :
    W1 m c (Proc.devRef .tc b) = m ((c : Thread nD τ).loc b) := by
  unfold W1
  rw [Function.update_of_ne (StableHlo.devRef_ne_of_ne h)]

/-- The two reshapes write the one-element ds and the one-row b only. -/
theorem W2_of_ne (c : Dev nD) {b : Ref sig .tc} (h1 : b ≠ main_v1) (h2 : b ≠ main_v2) :
    W2 m c (Proc.devRef .tc b) = W1 m c (Proc.devRef .tc b) := by
  show StableHlo.after hostOps0 (W1 m c) (Proc.devRef .tc b) = _
  simp only [StableHlo.after_cons, StableHlo.after_nil]
  rw [StableHlo.reshape_result_ne _ _ _ _ _ _ _ h2, StableHlo.reshape_result_ne _ _ _ _ _ _ _ h1]

/-- The third reshape writes the one-element cs only. -/
theorem W4_of_ne (c : Dev nD) {b : Ref sig .tc} (h : b ≠ main_v4) :
    W4 m c (Proc.devRef .tc b) = W3 m c (Proc.devRef .tc b) := by
  show StableHlo.after hostOps1 (W3 m c) (Proc.devRef .tc b) = _
  simp only [StableHlo.after_cons, StableHlo.after_nil]
  rw [StableHlo.reshape_result_ne _ _ _ _ _ _ _ h]

/-- An input window's array is left by the first call as it was found. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((Tc.dat1 c (V2 m c)).arrAt_in w hw _).trans (Tc.A_eq1 c (V2 m c) w))

/-- An input window's array is left by the second call as it was found. -/
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((Tc.dat2 c (V4 m c)).arrAt_in w hw _).trans (Tc.A_eq2 c (V4 m c) w))

/-! ## The arguments end as launched -/

theorem W5_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c (by decide)
    _ = W2 m c (Proc.devRef .tc main_arg0) := W3_of_ne m c main_arg0 (by decide)
    _ = W1 m c (Proc.devRef .tc main_arg0) := W2_of_ne m c (by decide) (by decide)
    _ = m ((c : Thread nD τ).loc main_arg0) := W1_of_ne m c (by decide)

theorem W5_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c (by decide)
    _ = W2 m c (Proc.devRef .tc main_arg1) := W3_in m c 1 rfl
    _ = W1 m c (Proc.devRef .tc main_arg1) := W2_of_ne m c (by decide) (by decide)
    _ = m ((c : Thread nD τ).loc main_arg1) := W1_of_ne m c (by decide)

theorem W5_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c (by decide)
    _ = W2 m c (Proc.devRef .tc main_arg2) := W3_of_ne m c main_arg2 (by decide)
    _ = W1 m c (Proc.devRef .tc main_arg2) := W2_of_ne m c (by decide) (by decide)
    _ = m ((c : Thread nD τ).loc main_arg2) := W1_of_ne m c (by decide)

theorem W5_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c (by decide)
    _ = W2 m c (Proc.devRef .tc main_arg3) := W3_in m c 2 rfl
    _ = W1 m c (Proc.devRef .tc main_arg3) := W2_of_ne m c (by decide) (by decide)
    _ = m ((c : Thread nD τ).loc main_arg3) := W1_of_ne m c (by decide)

theorem W5_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c (by decide)
    _ = W2 m c (Proc.devRef .tc main_arg4) := W3_of_ne m c main_arg4 (by decide)
    _ = W1 m c (Proc.devRef .tc main_arg4) := W2_of_ne m c (by decide) (by decide)
    _ = m ((c : Thread nD τ).loc main_arg4) := W1_of_ne m c (by decide)

theorem W5_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of_ne m c (by decide)
    _ = W2 m c (Proc.devRef .tc main_arg5) := W3_of_ne m c main_arg5 (by decide)
    _ = W1 m c (Proc.devRef .tc main_arg5) := W2_of_ne m c (by decide) (by decide)
    _ = m ((c : Thread nD τ).loc main_arg5) := W1_of_ne m c (by decide)

theorem W5_arg6 (c : Dev nD) : W5 m c (Proc.devRef .tc main_arg6) = m ((c : Thread nD τ).loc main_arg6) :=
  calc W5 m c (Proc.devRef .tc main_arg6)
    _ = W4 m c (Proc.devRef .tc main_arg6) := W5_of_ne m c main_arg6 (by decide)
    _ = W3 m c (Proc.devRef .tc main_arg6) := W4_of_ne m c (by decide)
    _ = W2 m c (Proc.devRef .tc main_arg6) := W3_of_ne m c main_arg6 (by decide)
    _ = W1 m c (Proc.devRef .tc main_arg6) := W2_of_ne m c (by decide) (by decide)
    _ = m ((c : Thread nD τ).loc main_arg6) := W1_of_ne m c (by decide)

end Arguments

section Result

variable (m : (ℓ : Loc nD τ sig) → Buf (Elt Ideal) ℓ)

/-! ## The launch arrays, as functions of the specification's types -/

abbrev L0 (c : Dev nD) : Cert.Spec.SIdx.Idx → BitVec 32 := m ((c : Thread nD τ).loc main_arg0)
abbrev L1 (c : Dev nD) : Cert.Spec.SX.Idx → EReal := m ((c : Thread nD τ).loc main_arg1)
abbrev L2 (c : Dev nD) : Cert.Spec.STab.Idx → EReal := m ((c : Thread nD τ).loc main_arg2)
abbrev L3 (c : Dev nD) : Cert.Spec.SW.Idx → EReal := m ((c : Thread nD τ).loc main_arg3)
abbrev L4 (c : Dev nD) : Cert.Spec.SB.Idx → EReal := m ((c : Thread nD τ).loc main_arg4)
abbrev L5 (c : Dev nD) : Cert.Spec.S0.Idx → EReal := m ((c : Thread nD τ).loc main_arg5)
abbrev L6 (c : Dev nD) : Cert.Spec.S0.Idx → EReal := m ((c : Thread nD τ).loc main_arg6)

/-- A scalar reshaped to one element reads, at its one index, the scalar. -/
theorem shapeCast_scalar_one {α : Type} (x : S_.Idx → α) (h : S_.ShapeCasts S1) : shapeCast S1 x h (ix1 (0 : Fin 1)) = x ix0 :=
  shapeCast_apply x h _ _ (by
    have h1 : (S_.rowMajor ix0).val < S_.numel := (S_.rowMajor ix0).isLt
    have h2 : (S1.rowMajor (ix1 (0 : Fin 1))).val < S1.numel := (S1.rowMajor (ix1 (0 : Fin 1))).isLt
    have e1 : S_.numel = 1 := by decide
    have e2 : S1.numel = 1 := by decide
    omega)

/-! ## What the first call finds -/

theorem V2_x (c : Dev nD) : Tc.x1 c (V2 m c) = L1 m c :=
  (W2_of_ne m c (by decide) (by decide)).trans (W1_of_ne m c (by decide))

theorem V2_w (c : Dev nD) : Tc.w1 c (V2 m c) = L3 m c :=
  (W2_of_ne m c (by decide) (by decide)).trans (W1_of_ne m c (by decide))

/-- The scalar window's word is ds. -/
theorem V2_ds (c : Dev nD) : Tc.ds1 c (V2 m c) (ix1 (0 : Fin 1)) = L6 m c ix0 := by
  have h : W2 m c (Proc.devRef .tc main_v1) = fun i => shapeCast S1 (L6 m c) shapeCasts_S_S1 i := by
    show StableHlo.after hostOps0 (W1 m c) (Proc.devRef .tc main_v1) = _
    simp only [StableHlo.after_cons, StableHlo.after_nil]
    rw [StableHlo.reshape_result_ne _ _ _ _ _ _ _ (by decide : main_v1 ≠ main_v2), StableHlo.reshape_result,
      W1_of_ne m c (by decide : main_arg6 ≠ main_v0)]
    rfl
  show W2 m c (Proc.devRef .tc main_v1) (ix1 (0 : Fin 1)) = _
  rw [h]
  exact shapeCast_scalar_one _ _

/-- The bias window's row is b. -/
theorem V2_b (c : Dev nD) (q : Fin 128) : Tc.b1 c (V2 m c) (ix2 (0 : Fin 1) q) = L4 m c (ix1 q) := by
  have h : W2 m c (Proc.devRef .tc main_v2) = fun i => shapeCast S1x128 (L4 m c) shapeCasts_S128_S1x128 i := by
    show StableHlo.after hostOps0 (W1 m c) (Proc.devRef .tc main_v2) = _
    simp only [StableHlo.after_cons, StableHlo.after_nil]
    rw [StableHlo.reshape_result, StableHlo.reshape_result_ne _ _ _ _ _ _ _ (by decide : main_arg4 ≠ main_v1),
      W1_of_ne m c (by decide : main_arg4 ≠ main_v0)]
    rfl
  show W2 m c (Proc.devRef .tc main_v2) (ix2 (0 : Fin 1) q) = _
  rw [h]
  exact shapeCast_a_1a_apply _ _ _ _

/-! ## What the second call finds -/

/-- The scalar window's word is cs. -/
theorem V4_cs (c : Dev nD) : Tc.cs2 c (V4 m c) (ix1 (0 : Fin 1)) = L5 m c ix0 := by
  have h : W4 m c (Proc.devRef .tc main_v4) = fun i => shapeCast S1 (L5 m c) shapeCasts_S_S1 i := by
    show StableHlo.after hostOps1 (W3 m c) (Proc.devRef .tc main_v4) = _
    simp only [StableHlo.after_cons, StableHlo.after_nil]
    rw [StableHlo.reshape_result, W3_of_ne m c main_arg5 (by decide), W2_of_ne m c (by decide) (by decide),
      W1_of_ne m c (by decide : main_arg5 ≠ main_v0)]
    rfl
  show W4 m c (Proc.devRef .tc main_v4) (ix1 (0 : Fin 1)) = _
  rw [h]
  exact shapeCast_scalar_one _ _

/-- The gathered rows' array is what the gather left. -/
theorem V4_emb (c : Dev nD) : Tc.emb2 c (V4 m c) = Cert.Spec.gathered (L0 m c) (L2 m c) := by
  show W4 m c (Proc.devRef .tc main_v0) = _
  rw [W4_of_ne m c (by decide), W3_of_ne m c main_v0 (by decide), W2_of_ne m c (by decide) (by decide)]
  unfold W1
  rw [Function.update_self]
  rfl

/-- The projected features' array is what the first call left: the specification's, of the launch arrays. -/
theorem V4_p (c : Dev nD) : Tc.p2 c (V4 m c) = Cert.Spec.projected (L1 m c) (L3 m c) (L4 m c) (L6 m c) := by
  show W4 m c (Proc.devRef .tc main_v3) = _
  rw [W4_of_ne m c (by decide)]
  refine (W3_arr m c 4).trans ?_
  rw [Tc.arr1_out]
  have hb : (fun j : Cert.Spec.SB.Idx => Tc.b1 c (V2 m c) (ix2 (0 : Fin 1) (j 0))) = L4 m c :=
    funext fun j => (V2_b m c (j 0)).trans (congrArg (L4 m c) (eq_ix1 j).symm)
  have hd : (fun _ : Cert.Spec.S0.Idx => Tc.ds1 c (V2 m c) (ix1 (0 : Fin 1))) = L6 m c :=
    funext fun j => (V2_ds m c).trans (congrArg (L6 m c) (eq_ix0 j).symm)
  exact congr (congr (congr (congrArg Cert.Spec.projected (V2_x m c)) (V2_w m c)) hb) hd

/-! ## The result -/

/-- The result array after the last item is the specification's function of the seven launch arrays. -/
theorem W5_out (c : Dev nD) : W5 (F := Ideal) m c (Proc.devRef .tc main_v5)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W5_arr m c 3).trans ?_
  rw [Tc.arr2_out]
  funext i
  show Tc.cs2 c (V4 m c) (ix1 (0 : Fin 1)) * Tc.emb2 c (V4 m c) i + Tc.p2 c (V4 m c) i
    = L5 m c ix0 * Cert.Spec.gathered (L0 m c) (L2 m c) i + Cert.Spec.projected (L1 m c) (L3 m c) (L4 m c) (L6 m c) i
  rw [V4_cs, V4_emb, V4_p]

end Result

end Cert.KI

end
-- ==== Proof.KBGhost.lean ====
/-
  The program as the launch theorem of a SparseCore program sees it, and the ghost state the proof runs over:
  the launch handshakes' rounds, beside the rounds of the two TensorCore pipelines' staging cells, beside the
  counters of the vector subcores' own copies.
-/
import proofs.«205810_g90829968376338_cont_sun_m_901_13_alg».proof.Kernel
import proofs.«205810_g90829968376338_cont_sun_m_901_13_alg».proof.Proof.Gen.Kernel
import Idealize.ShloMosaic.Lib.SparseCore.Launch
import Idealize.ShloMosaic.Lib.Pipeline.Kit

noncomputable section

namespace Cert.KB

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program's body table: the kernels' and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
/-- The body table under the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipelines' rounds, the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The pipelines' component: the left of the right. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-- The launch element splits into the handshakes' part and the pipelines' part; the counters' unit is dropped. -/
theorem ownU_split (a : UH) (b : UP) :
    (ownU ((a, (b, 1)) : UU) : sProp 𝕄) ⊢ iprop(BI.own (EH (F := F) a) ∗ BI.own (EP (F := F) b)) := by
  iintro Hu
  ihave H := (ownU_pair _ _) $$ Hu
  icases H with ⟨HH, HR⟩
  ihave H' := (own_pair_emb (embR : Emb (UP × Counters) 𝕄) b (1 : Counters)) $$ HR
  icases H' with ⟨HP, -⟩
  isplitl [HH]; · iexact HH
  iexact HP

/-- The wait records the TensorCore may hold once the SparseCore call has returned: pairs at or below level 8, the level
    under which the launch's bookkeeping of the TensorCore's waits sits after the one call. The pipelines' proof data
    bound their recorded pairs by it, so that the bound survives the two regions. -/
def recB (F : FTy → Type) (c : Dev nD) : Set (SemLoc sig × HIx 1) :=
  {p | (K (F := F)).lev ((SparseCore.T c : Thread nD τ), p.1) p.2 ≤ 8}

end Cert.KB

end
-- ==== Proof.KBScDefs.lean ====
/-
  The SparseCore gather, the vocabulary: each of the 32 vector subcores (16 on each of 2 SparseCores) works on one
  block of 128 consecutive rows — subcore i of SparseCore c on block 2 i + c —: it copies the block's 128 index words
  into its index scratch, gathers the 128 table rows they name into its row scratch, and copies those rows out to
  the block's rows of the result.  Here: the blocks as rectangles and sets, the memrefs as the program slices them,
  how a subcore's own storage splits into the two scratches and three DMA semaphores it uses, and the one fact the
  gather needs of the launch memory (every index word names a table row).
-/
import proofs.«205810_g90829968376338_cont_sun_m_901_13_alg».proof.Proof.KBGhost
import proofs.«205810_g90829968376338_cont_sun_m_901_13_alg».proof.Proof.Spec
import proofs.«205810_g90829968376338_cont_sun_m_901_13_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The launch memory and the buffers -/

variable (m : (ℓ : Loc nD τ sig) → Buf (Elt F) ℓ) (ρ : Dev nD → PrngReg)

/-- The index vector, the table, and the gathered rows' array, as locations of device d. -/
abbrev iLoc (d : Dev nD) : Loc nD τ sig := (SparseCore.T d).loc main_arg0
abbrev tLoc (d : Dev nD) : Loc nD τ sig := (SparseCore.T d).loc main_arg2
abbrev oLoc (d : Dev nD) : Loc nD τ sig := (SparseCore.T d).loc main_v0

local notation "iV" => (Memref.whole Cert.Kernel.main_arg0_scv : Memref Cert.Kernel.sig Kind.scVector Space.hbm Cert.Kernel.S4096 EltTy.i32)
local notation "tV" => (Memref.whole Cert.Kernel.main_arg2_scv : Memref Cert.Kernel.sig Kind.scVector Space.hbm Cert.Kernel.S1000x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

/-- The 4096 rows fall into 32 blocks of 128: block b is rows 128 b … 128 b + 127. -/
theorem idiv : 32 ∣ S4096.size 0 := ⟨128, rfl⟩
theorem odiv : 32 ∣ S4096x128.size 0 := ⟨128, rfl⟩
abbrev iblk (b : Fin 32) : Rect S4096 := Rect.part (s := S4096) (a₀ := 0) idiv b
abbrev oblk (b : Fin 32) : Rect S4096x128 := Rect.part (s := S4096x128) (a₀ := 0) odiv b
abbrev iSet (b : Fin 32) : Finset S4096.Idx := ((iV).view.slice (iblk b)).set
abbrev oSet (b : Fin 32) : Finset S4096x128.Idx := ((oV).view.slice (oblk b)).set

/-- The block a vector subcore works on: subcore i of SparseCore c has block 2 i + c. -/
def blockOf (c : Fin 2) (i : Fin 16) : Fin 32 := ⟨2 * i.val + c.val, by omega⟩

/-- The table is read whole by all 32 vector subcores at once: each holds one of 32 read shares. -/
abbrev tq (b : Fin 32) : PosShare TreeShare := Transfers.shareTok fullShare 32 b

section Tile
variable (d : Dev nD) (L : grid0.Coords)
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev bL (L : grid0.Coords) : Fin 32 := ⟨2 * (L 1).val + (L 0).val, by
  have h0 : (L 0).val < 2 := (L 0).isLt
  have h1 : (L 1).val < 16 := (L 1).isLt
  omega⟩

abbrev iRectK (L : grid0.Coords) : Rect S4096 := Rect.unit (s := S4096) (k0_off1 L) S128.size (k0_off1_inb L)
abbrev oRectK (L : grid0.Coords) : Rect S4096x128 := Rect.unit (s := S4096x128) (k0_off2 L) S128x128.size (k0_off2_inb L)
abbrev iSliceK (L : grid0.Coords) : Memref sig .scVector .hbm S128 .i32 := (iV).slice (iRectK L) (fun _ => rfl)
abbrev oSliceK (L : grid0.Coords) : Memref sig .scVector .hbm S128x128 .f32 := (oV).slice (oRectK L) (fun _ => rfl)

theorem iRectK_eq : iRectK L = iblk (bL L) := by
  unfold iRectK iblk Rect.part Rect.block
  congr 1 <;> funext a
  · rw [k0_off1_eq]
    match a with
    | 0 => simp [Shape.partIx, Shape.partSize]; omega
  · match a with
    | 0 => simp [Shape.partSize]
theorem oRectK_eq : oRectK L = oblk (bL L) := by
  unfold oRectK oblk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_iSliceK : (iSliceK L).view.set = iSet (bL L) := by
  show ((iV).view.slice (iRectK L)).set = ((iV).view.slice (iblk (bL L))).set
  rw [iRectK_eq]
theorem set_oSliceK : (oSliceK L).view.set = oSet (bL L) := by
  show ((oV).view.slice (oRectK L)).set = ((oV).view.slice (oblk (bL L))).set
  rw [oRectK_eq]

theorem pts_iSliceK (f : Buf (Elt F) (iLoc d)) :
    ((iSliceK L).view.loc (V d (cV L) (jV L)) ↦[(iSliceK L).view.set]{fullShare} f : sProp 𝕄) = iLoc d ↦[iSet (bL L)]{fullShare} f := by
  rw [set_iSliceK]
theorem pts_oSliceK (f : Buf (Elt F) (oLoc d)) :
    ((oSliceK L).view.loc (V d (cV L) (jV L)) ↦[(oSliceK L).view.set]{fullShare} f : sProp 𝕄) = oLoc d ↦[oSet (bL L)]{fullShare} f := by
  rw [set_oSliceK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- A vector subcore's three DMA semaphores: the gather's, the index fetch's, the write-out's. -/
abbrev cGcell (d : Dev nD) (c : Fin τ.nSC) (i : Fin τ.nSub) : GSem nD τ sig := (V d c i, .dma cc0_scratch2.sem)
abbrev cIcell (d : Dev nD) (c : Fin τ.nSC) (i : Fin τ.nSub) : GSem nD τ sig := (V d c i, .dma cc0_scoped0.sem)
abbrev cOcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cIcell d (cV L) (jV L)) 0 ∗ semVal (cOcell d (cV L) (jV L)) 0
          ∗ bigSep ((((ownCells (V d (cV L) (jV L))).erase (cGcell d (cV L) (jV L))).erase (cIcell d (cV L) (jV L))).erase (cOcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cIcell]; decide, (mem_ownCells (g := cIcell d (cV L) (jV L))).mpr ⟨rfl, by
      show (SemLoc.dma cc0_scoped0.sem : SemLoc sig).isScoped .scVector = true; decide⟩⟩),
    SparseCore.bigSep_erase' (Finset.mem_erase.mpr ⟨by simp [cIcell, cOcell]; decide, Finset.mem_erase.mpr ⟨by simp [cGcell, cOcell]; decide,
      (mem_ownCells (g := cOcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the proof asks of the launch memory: every index word names a row of the table. -/
def PreOK : Prop := ∀ (d : Dev nD) (j : S4096.Idx), (m (iLoc d) j).toNat < 1000

variable [FloatOps F]

abbrev iPart (d : Dev nD) (b : Fin 32) : sProp 𝕄 := iLoc d ↦[iSet b]{fullShare} m (iLoc d)
abbrev tPart (d : Dev nD) (b : Fin 32) : sProp 𝕄 := tLoc d ↦{tq b} m (tLoc d)
abbrev oPart (d : Dev nD) (b : Fin 32) (f : Buf (Elt F) (oLoc d)) : sProp 𝕄 := oLoc d ↦[oSet b]{fullShare} f

abbrev tAllK : Memref sig .scVector .hbm S1000x128 .f32 :=
  (tV).slice (Rect.unit (s := S1000x128) ![0, 0] S1000x128.size inb_S1000x128_S1000x128_0_0) (fun _ => rfl)

/-- The offsets the gather reads are in range: what the index fetch landed in the scratch is the subcore's block of
    the index vector, each word below 1000. -/
theorem inb_of_pre (hpre : PreOK m) (fs : Buf (Elt F) ((V d (cV L) (jV L)).loc cc0_scratch0)) (pay : S128.Idx → Elt F .i32)
    (hpay : pay = (iSliceK L).view.read (Elt F) (m (iLoc d))) :
    ∀ x, ((sV).view.read (Elt F) (View.write (Elt F) (sV).view fs pay Finset.univ) x).toNat < S1000x128.size gathers_S1000x128_S128x128.axis := by
  subst hpay; intro x
  rw [View.write_whole_univ]
  simp only [Memref.view_whole, View.read_whole]
  rw [show ∀ j, (iSliceK L).view.read (Elt F) (m (iLoc d)) j = m (iLoc d) ((iSliceK L).view.emb j) from fun j => (View.read_apply _ _).trans (cast_eq _ _)]
  exact hpre d _

/-- The gathered rows as ONE array: entry (r, j) is entry j of the table row the r-th index word names. -/
def Gout (d : Dev nD) : Buf (Elt F) (oLoc d) := Cert.Spec.gathered (m (iLoc d)) (m (tLoc d))

end Tile
end Cert.KB
end
-- ==== Proof.KBScPay.lean ====
/-
  What the launch's handshakes carry for the one SparseCore call: the TensorCore hands each of the two SparseCores its
  sixteen tasks' parts — per task its block of the index vector, one of 32 read shares of the table, its block of
  the result array — and gets them back, the result's blocks at the gathered rows.
-/
import proofs.«205810_g90829968376338_cont_sun_m_901_13_alg».proof.Proof.KBScDefs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4096 EltTy.i32)
local notation "tV" => (Memref.whole Cert.Kernel.main_arg2_scv : Memref Cert.Kernel.sig Kind.scVector Space.hbm Cert.Kernel.S1000x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

/-! ## What the launch's handshakes carry, and the launch theorem's obligations for the gather -/

section Pay

variable [FloatOps F]

/-- The block of vector subcore i of SparseCore c. -/
def bOf (c : Fin ((K (F := F)).nCore 0)) (i : Fin ((K (F := F)).nSub 0)) : Fin 32 :=
  ⟨2 * i.val + c.val, by
    have h0 : c.val < 2 := c.isLt
    have h1 : i.val < 16 := i.isLt
    omega⟩

/-- What a task is handed: its block of the index vector, a read share of the table, its block of the result;
    and what it hands back: the same, the result's block at the gathered rows. -/
abbrev goOf (d : Dev nD) (b : Fin 32) : sProp 𝕄 := iprop(iPart m d b ∗ tPart m d b ∗ oPart d b (m (oLoc d)))
abbrev tdOf (d : Dev nD) (b : Fin 32) : sProp 𝕄 := iprop(iPart m d b ∗ tPart m d b ∗ oPart d b (Gout m d))

/-- The one call hands each SparseCore its sixteen tasks' parts, and takes them back. -/
def P : (K (F := F)).Pay (nD := nD) (Val := Elt F) (Name := ℕ) (U := UU) where
  st := fun q d c => match q with | 0 => bigSep Finset.univ fun i : Fin ((K (F := F)).nSub 0) => goOf m d (bOf c i)
  dn := fun q d c => match q with | 0 => bigSep Finset.univ fun i : Fin ((K (F := F)).nSub 0) => tdOf m d (bOf c i)
  go := fun q d c i => match q with | 0 => goOf m d (bOf c i)
  td := fun q d c i => match q with | 0 => tdOf m d (bOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goOf m d (bOf c i)))
  dn q d c := match q with
    | 0 => (inferInstance : BI.Storable (upEmb : UEmb _ 𝕄) (bigSep Finset.univ fun i : Fin ((K (F := F)).nSub 0) => tdOf m d (bOf c i)))
  go q d c i := match q with
    | 0 => (inferInstance : BI.Storable (upEmb : UEmb _ 𝕄) (goOf m d (bOf c i)))
  td q d c i := match q with
    | 0 => (inferInstance : BI.Storable (upEmb : UEmb _ 𝕄) (tdOf m d (bOf c i)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A SparseCore's operands ARE its sixteen tasks' parts: nothing to split. -/
theorem vecSplit : (K (F := F)).VecSplit' (P m) 0 := by
  intro d c
  show (bigSep Finset.univ fun i : Fin ((K (F := F)).nSub 0) => goOf m d (bOf c i))
    ⊢ |={Set.univ}=> iprop((bigSep Finset.univ fun i : Fin ((K (F := F)).nSub 0) => goOf m d (bOf c i))
      ∗ ((bigSep Finset.univ fun i : Fin ((K (F := F)).nSub 0) => tdOf m d (bOf c i))
          -∗ bigSep Finset.univ fun i : Fin ((K (F := F)).nSub 0) => tdOf m d (bOf c i)))
  iintro H; imodintro
  isplitl [H]; · iexact H
  iintro H; iexact H

end Pay

end Cert.KB
end
-- ==== Proof.KBTc1.lean ====
/-
  The first TensorCore call (the projection ds * (x W + b) over four row blocks of 1024) as pipeline proof data:
  what each window's staging buffer holds when the body runs and after it, stated at the buffer contents the call
  finds (a variable), and the body's obligation at every grid point.
-/
import proofs.«205810_g90829968376338_cont_sun_m_901_13_alg».proof.Proof.KBGhost
import proofs.«205810_g90829968376338_cont_sun_m_901_13_alg».proof.Proof.Gen.Kernel.Launch
import proofs.«205810_g90829968376338_cont_sun_m_901_13_alg».proof.Proof.Gen.Kernel.Skeleton
import proofs.«205810_g90829968376338_cont_sun_m_901_13_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.KB.Tc

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.KB.UU ℕ

variable (c : Dev nD) (V : (b : Ref sig .tc) → Buf (Elt F) ((c : Thread nD τ).loc b))

/-! ## The windows' blocks -/

/-- Window w's block at point t, read off its array as the call finds it. -/
def iblk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- An input window's current staging buffer holds its block at every point, fetched there or not (where it is not
    fetched its block index has not moved), for any proof data over these arrays whose body leaves the block in place. -/
theorem before1_0_of (dat : Dat τ (Elt F) (HIx 1) ℕ Cert.KB.UU ℕ cfg1 c) (hA : dat.A 0 = V (Pipeline.arrRef spec1 0))
    (hafter : ∀ t, dat.after 0 t = iblk1 c V 0 t) (t : Fin cfg1.N) (d) : dat.before 0 t d = iblk1 c V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of (dat : Dat τ (Elt F) (HIx 1) ℕ Cert.KB.UU ℕ cfg1 c) (hA : dat.A 1 = V (Pipeline.arrRef spec1 1))
    (hafter : ∀ t, dat.after 1 t = iblk1 c V 1 t) (t : Fin cfg1.N) (d) : dat.before 1 t d = iblk1 c V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of (dat : Dat τ (Elt F) (HIx 1) ℕ Cert.KB.UU ℕ cfg1 c) (hA : dat.A 2 = V (Pipeline.arrRef spec1 2))
    (hafter : ∀ t, dat.after 2 t = iblk1 c V 2 t) (t : Fin cfg1.N) (d) : dat.before 2 t d = iblk1 c V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of (dat : Dat τ (Elt F) (HIx 1) ℕ Cert.KB.UU ℕ cfg1 c) (hA : dat.A 3 = V (Pipeline.arrRef spec1 3))
    (hafter : ∀ t, dat.after 3 t = iblk1 c V 3 t) (t : Fin cfg1.N) (d) : dat.before 3 t d = iblk1 c V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one word of the scalar window, -/
abbrev r1_s : Rect S1 := Rect.unit (s := S1) ![0] S1.size inb_S1_S1_0
/-- its one index, -/
abbrev x1_s : r1_s.shape.Idx := Shape.Idx.first (numel1_S1.symm ▸ Nat.one_pos)
/-- a whole block of x, the whole of W, the one row of b, a whole block of the result. -/
abbrev r1_x : Rect S1024x2048 := Rect.unit (s := S1024x2048) ![0, 0] S1024x2048.size inb_S1024x2048_S1024x2048_0_0
abbrev r1_w : Rect S2048x128 := Rect.unit (s := S2048x128) ![0, 0] S2048x128.size inb_S2048x128_S2048x128_0_0
abbrev r1_b : Rect S1x128 := Rect.unit (s := S1x128) ![0, 0] S1x128.size inb_S1x128_S1x128_0_0
abbrev r1_o : Rect S1024x128 := Rect.unit (s := S1024x128) ![0, 0] S1024x128.size inb_S1024x128_S1024x128_0_0

/-! ## What the body leaves in the output window's buffer -/

/-- Window 4's staging buffer after the body, from the input windows' blocks: its one store, of the scalar read times
    (the block of x times W, plus the row of b). -/
def out1_4 (x0 : Vec F S1 .f32) (x1 : Vec F S1024x2048 .f32) (x2 : Vec F S2048x128 .f32) (x3 : Vec F S1x128 .f32) : Vec F S1024x128 .f32 :=
  View.canon [⟨r1_o, k1_pay1 (View.ld x1 r1_x) (View.ld x2 r1_w) (View.ld x0 r1_s x1_s) (View.ld x3 r1_b)⟩]

/-- The store covers the buffer. -/
theorem cover1_4 (p0 : Vec F S1024x128 .f32) (y : S1024x128.Idx) :
    ∃ pc ∈ ([⟨r1_o, p0⟩] : List (View.Piece (Elt F) S1024x128 .f32)), y ∈ pc.1.set :=
  View.cover_of_tiled [⟨r1_o, p0⟩] S1024x128.size (by rfl) y

/-! ## The body's triple -/

set_option maxHeartbeats 1000000 in
/-- The body on whole staging memrefs, the inputs' at contents x0 … x3 and the output's at anything, runs to the
    continuation holding the inputs' as they were and the output's at out1_4 of them. -/
theorem sound_kernel1 (E : Set ℕ) (i : grid1.Coords) (arg1 : Memref sig .tc .smem S1 .f32) (harg1 : arg1.IsWhole)
    (arg2 : Memref sig .tc .vmem S1024x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x128 .f32) (harg5 : arg5.IsWhole)
    (x0 : Vec F S1 .f32) (x1 : Vec F S1024x2048 .f32) (x2 : Vec F S2048x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__matmul_body i arg1 harg1 arg2 harg2 arg3 harg3 arg4 harg4 arg5 harg5) K := by
  simp only [cc1__matmul_body_eq_skeleton]; unfold cc1__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The call's invariant on core c: the core's scoped buffers that are no staging buffer of this call, each at some
    contents, and its generator register at some state. -/
abbrev Φ1 : sProp 𝕄 :=
  iprop(Pipeline.scopedRest (Ix := HIx 1) (Name := ℕ) (U := Cert.KB.UU) (Lvl := ℕ) (Val := Elt F) spec1 c ∗ ∃ r, prngReg c r)

/-- The proof data of the call on core c: the arrays as the call finds them; after the body at point t each input's
    buffer at its block and the output's at out1_4 of the input blocks; the invariant the scoped rest and the generator
    register, untouched; nothing owed; full shares; the recorded wait pairs within the bound the launch left. -/
def dat1 : Dat τ (Elt F) (HIx 1) ℕ Cert.KB.UU ℕ cfg1 c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => out1_4 (iblk1 c V 0 t) (iblk1 c V 1 t) (iblk1 c V 2 t) (iblk1 c V 3 t)
  Φ _ := Φ1 c
  q _ := fullShare
  owed _ := 0
  recorded _ := Cert.KB.recB F c

/-- The proof data's arrays are the contents the call finds. -/
theorem A_eq1 (w : Fin cfg1.W) : (dat1 c V).A w = V (Pipeline.arrRef spec1 w) := by
  dsimp only [dat1]

/-- What the body leaves, window by window. -/
theorem after1_0 (t : Fin cfg1.N) : (dat1 c V).after 0 t = iblk1 c V 0 t := by dsimp only [dat1]
theorem after1_1 (t : Fin cfg1.N) : (dat1 c V).after 1 t = iblk1 c V 1 t := by dsimp only [dat1]
theorem after1_2 (t : Fin cfg1.N) : (dat1 c V).after 2 t = iblk1 c V 2 t := by dsimp only [dat1]
theorem after1_3 (t : Fin cfg1.N) : (dat1 c V).after 3 t = iblk1 c V 3 t := by dsimp only [dat1]
theorem after1_4 (t : Fin cfg1.N) : (dat1 c V).after 4 t = out1_4 (iblk1 c V 0 t) (iblk1 c V 1 t) (iblk1 c V 2 t) (iblk1 c V 3 t) := by dsimp only [dat1]

/-- Each input's current staging buffer holds its block at every point. -/
theorem before1_0 (t : Fin cfg1.N) (d) : (dat1 c V).before 0 t d = iblk1 c V 0 t :=
  before1_0_of c V (dat1 c V) (A_eq1 c V 0) (after1_0 c V) t d
theorem before1_1 (t : Fin cfg1.N) (d) : (dat1 c V).before 1 t d = iblk1 c V 1 t :=
  before1_1_of c V (dat1 c V) (A_eq1 c V 1) (after1_1 c V) t d
theorem before1_2 (t : Fin cfg1.N) (d) : (dat1 c V).before 2 t d = iblk1 c V 2 t :=
  before1_2_of c V (dat1 c V) (A_eq1 c V 2) (after1_2 c V) t d
theorem before1_3 (t : Fin cfg1.N) (d) : (dat1 c V).before 3 t d = iblk1 c V 3 t :=
  before1_3_of c V (dat1 c V) (A_eq1 c V 3) (after1_3 c V) t d

/-! ## The body obligation, at a generic point -/

/-- What the body is called with at point t, the windows one by one, -/
def bodyPre1 (t : Fin cfg1.N) : sProp 𝕄 :=
  iprop((dat1 c V).Φ t.castSucc ∗ (dat1 c V).owesAt (none : HIx 1) t.castSucc
    ∗ (∃ d, owns (c : Thread nD τ) (st1_0 t) fullShare ((dat1 c V).before 0 t d))
    ∗ (∃ d, owns (c : Thread nD τ) (st1_1 t) fullShare ((dat1 c V).before 1 t d))
    ∗ (∃ d, owns (c : Thread nD τ) (st1_2 t) fullShare ((dat1 c V).before 2 t d))
    ∗ (∃ d, owns (c : Thread nD τ) (st1_3 t) fullShare ((dat1 c V).before 3 t d))
    ∗ (∃ d, owns (c : Thread nD τ) (st1_4 t) fullShare ((dat1 c V).before 4 t d)))

/-- and what it returns. -/
def bodyPost1 (t : Fin cfg1.N) : sProp 𝕄 :=
  iprop((dat1 c V).Φ t.succ ∗ (dat1 c V).owesAt (none : HIx 1) t.succ
    ∗ owns (c : Thread nD τ) (st1_0 t) fullShare ((dat1 c V).after 0 t)
    ∗ owns (c : Thread nD τ) (st1_1 t) fullShare ((dat1 c V).after 1 t)
    ∗ owns (c : Thread nD τ) (st1_2 t) fullShare ((dat1 c V).after 2 t)
    ∗ owns (c : Thread nD τ) (st1_3 t) fullShare ((dat1 c V).after 3 t)
    ∗ owns (c : Thread nD τ) (st1_4 t) fullShare ((dat1 c V).after 4 t))

/-- The body at any point: the inputs' memrefs hold their blocks, so the body's triple applies; the invariant and the
    core's owed tallies pass through unread. -/
theorem sound_body1 (t : Fin cfg1.N) :
    bodyPre1 c V t ⊢ wp frame (wpE (defs₀ (F := F)) Variants.none c none) Set.univ (bodyAt1 t) (fun _ => bodyPost1 c V t) := by
  unfold bodyPre1 bodyPost1 bodyAt1
  simp only [before1_0, before1_1, before1_2, before1_3]
  rw [show (dat1 c V).Φ t.succ = (dat1 c V).Φ t.castSucc from rfl,
    show (dat1 c V).owesAt (none : HIx 1) t.succ = (dat1 c V).owesAt (none : HIx 1) t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 c V 0 t) (iblk1 c V 1 t) (iblk1 c V 2 t) (iblk1 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 : BodyObligation (dat1 (F := F) c V) (defs₀ (F := F)) Variants.none (none : HIx 1) Set.univ := fun t => by
  rw [bigSep_W1, bigSep_W1]
  exact sound_body1 c V t

end Cert.KB.Tc

end
-- ==== Proof.KBTc2.lean ====
/-
  The second TensorCore call (the combination cs * emb + p over two row blocks of 2048) as pipeline proof data:
  what each window's staging buffer holds when the body runs and after it, stated at the buffer contents the call
  finds (a variable), and the body's obligation at every grid point.
-/
import proofs.«205810_g90829968376338_cont_sun_m_901_13_alg».proof.Proof.KBGhost
import proofs.«205810_g90829968376338_cont_sun_m_901_13_alg».proof.Proof.Gen.Kernel.Launch
import proofs.«205810_g90829968376338_cont_sun_m_901_13_alg».proof.Proof.Gen.Kernel.Skeleton
import proofs.«205810_g90829968376338_cont_sun_m_901_13_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.KB.Tc

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.KB.UU ℕ

variable (c : Dev nD) (V : (b : Ref sig .tc) → Buf (Elt F) ((c : Thread nD τ).loc b))

/-! ## The windows' blocks -/

/-- Window w's block at point t, read off its array as the call finds it. -/
def iblk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- An input window's current staging buffer holds its block at every point, fetched there or not (where it is not
    fetched its block index has not moved), for any proof data over these arrays whose body leaves the block in place. -/
theorem before2_0_of (dat : Dat τ (Elt F) (HIx 1) ℕ Cert.KB.UU ℕ cfg2 c) (hA : dat.A 0 = V (Pipeline.arrRef spec2 0))
    (hafter : ∀ t, dat.after 0 t = iblk2 c V 0 t) (t : Fin cfg2.N) (d) : dat.before 0 t d = iblk2 c V 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of (dat : Dat τ (Elt F) (HIx 1) ℕ Cert.KB.UU ℕ cfg2 c) (hA : dat.A 1 = V (Pipeline.arrRef spec2 1))
    (hafter : ∀ t, dat.after 1 t = iblk2 c V 1 t) (t : Fin cfg2.N) (d) : dat.before 1 t d = iblk2 c V 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of (dat : Dat τ (Elt F) (HIx 1) ℕ Cert.KB.UU ℕ cfg2 c) (hA : dat.A 2 = V (Pipeline.arrRef spec2 2))
    (hafter : ∀ t, dat.after 2 t = iblk2 c V 2 t) (t : Fin cfg2.N) (d) : dat.before 2 t d = iblk2 c V 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one word of the scalar window, -/
abbrev r2_s : Rect S1 := Rect.unit (s := S1) ![0] S1.size inb_S1_S1_0
/-- its one index, -/
abbrev x2_s : r2_s.shape.Idx := Shape.Idx.first (numel1_S1.symm ▸ Nat.one_pos)
/-- and a whole row block. -/
abbrev r2_0 : Rect S2048x128 := Rect.unit (s := S2048x128) ![0, 0] S2048x128.size inb_S2048x128_S2048x128_0_0

/-! ## What the body leaves in the output window's buffer -/

/-- Window 3's staging buffer after the body, from the input windows' blocks: its one store, of the scalar read
    times the first block plus the second. -/
def out2_3 (x0 : Vec F S1 .f32) (x1 : Vec F S2048x128 .f32) (x2 : Vec F S2048x128 .f32) : Vec F S2048x128 .f32 :=
  View.canon [⟨r2_0, k2_pay1 (View.ld x0 r2_s x2_s) (View.ld x1 r2_0) (View.ld x2 r2_0)⟩]

/-- The store covers the buffer. -/
theorem cover2_3 (p0 : Vec F S2048x128 .f32) (y : S2048x128.Idx) :
    ∃ pc ∈ ([⟨r2_0, p0⟩] : List (View.Piece (Elt F) S2048x128 .f32)), y ∈ pc.1.set :=
  View.cover_of_tiled [⟨r2_0, p0⟩] S2048x128.size (by rfl) y

/-! ## The body's triple -/

set_option maxHeartbeats 1000000 in
/-- The body on whole staging memrefs, the inputs' at contents x0, x1, x2 and the output's at anything, runs to the
    continuation holding the inputs' as they were and the output's at out2_3 of them. -/
theorem sound_kernel2 (E : Set ℕ) (i : grid2.Coords) (arg1 : Memref sig .tc .smem S1 .f32) (harg1 : arg1.IsWhole)
    (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole)
    (x0 : Vec F S1 .f32) (x1 : Vec F S2048x128 .f32) (x2 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine_body i arg1 harg1 arg2 harg2 arg3 harg3 arg4 harg4) K := by
  simp only [cc2__combine_body_eq_skeleton]; unfold cc2__combine_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The call's invariant on core c: the core's scoped buffers that are no staging buffer of this call, each at some
    contents, and its generator register at some state. -/
abbrev Φ2 : sProp 𝕄 :=
  iprop(Pipeline.scopedRest (Ix := HIx 1) (Name := ℕ) (U := Cert.KB.UU) (Lvl := ℕ) (Val := Elt F) spec2 c ∗ ∃ r, prngReg c r)

/-- The proof data of the call on core c: the arrays as the call finds them; after the body at point t each input's
    buffer at its block and the output's at out2_3 of the input blocks; the invariant the scoped rest and the generator
    register, untouched; nothing owed; full shares; the recorded wait pairs within the bound the launch left. -/
def dat2 : Dat τ (Elt F) (HIx 1) ℕ Cert.KB.UU ℕ cfg2 c where
  A w := V (Pipeline.arrRef spec2 w)
  after w t := match w with
    | ⟨0, _⟩ => iblk2 c V 0 t
    | ⟨1, _⟩ => iblk2 c V 1 t
    | ⟨2, _⟩ => iblk2 c V 2 t
    | ⟨3, _⟩ => out2_3 (iblk2 c V 0 t) (iblk2 c V 1 t) (iblk2 c V 2 t)
  Φ _ := Φ2 c
  q _ := fullShare
  owed _ := 0
  recorded _ := Cert.KB.recB F c

/-- The proof data's arrays are the contents the call finds. -/
theorem A_eq2 (w : Fin cfg2.W) : (dat2 c V).A w = V (Pipeline.arrRef spec2 w) := by
  dsimp only [dat2]

/-- What the body leaves, window by window. -/
theorem after2_0 (t : Fin cfg2.N) : (dat2 c V).after 0 t = iblk2 c V 0 t := by dsimp only [dat2]
theorem after2_1 (t : Fin cfg2.N) : (dat2 c V).after 1 t = iblk2 c V 1 t := by dsimp only [dat2]
theorem after2_2 (t : Fin cfg2.N) : (dat2 c V).after 2 t = iblk2 c V 2 t := by dsimp only [dat2]
theorem after2_3 (t : Fin cfg2.N) : (dat2 c V).after 3 t = out2_3 (iblk2 c V 0 t) (iblk2 c V 1 t) (iblk2 c V 2 t) := by dsimp only [dat2]

/-- Each input's current staging buffer holds its block at every point. -/
theorem before2_0 (t : Fin cfg2.N) (d) : (dat2 c V).before 0 t d = iblk2 c V 0 t :=
  before2_0_of c V (dat2 c V) (A_eq2 c V 0) (after2_0 c V) t d
theorem before2_1 (t : Fin cfg2.N) (d) : (dat2 c V).before 1 t d = iblk2 c V 1 t :=
  before2_1_of c V (dat2 c V) (A_eq2 c V 1) (after2_1 c V) t d
theorem before2_2 (t : Fin cfg2.N) (d) : (dat2 c V).before 2 t d = iblk2 c V 2 t :=
  before2_2_of c V (dat2 c V) (A_eq2 c V 2) (after2_2 c V) t d

/-! ## The body obligation, at a generic point -/

/-- What the body is called with at point t, the windows one by one, -/
def bodyPre2 (t : Fin cfg2.N) : sProp 𝕄 :=
  iprop((dat2 c V).Φ t.castSucc ∗ (dat2 c V).owesAt (none : HIx 1) t.castSucc
    ∗ (∃ d, owns (c : Thread nD τ) (st2_0 t) fullShare ((dat2 c V).before 0 t d))
    ∗ (∃ d, owns (c : Thread nD τ) (st2_1 t) fullShare ((dat2 c V).before 1 t d))
    ∗ (∃ d, owns (c : Thread nD τ) (st2_2 t) fullShare ((dat2 c V).before 2 t d))
    ∗ (∃ d, owns (c : Thread nD τ) (st2_3 t) fullShare ((dat2 c V).before 3 t d)))

/-- and what it returns. -/
def bodyPost2 (t : Fin cfg2.N) : sProp 𝕄 :=
  iprop((dat2 c V).Φ t.succ ∗ (dat2 c V).owesAt (none : HIx 1) t.succ
    ∗ owns (c : Thread nD τ) (st2_0 t) fullShare ((dat2 c V).after 0 t)
    ∗ owns (c : Thread nD τ) (st2_1 t) fullShare ((dat2 c V).after 1 t)
    ∗ owns (c : Thread nD τ) (st2_2 t) fullShare ((dat2 c V).after 2 t)
    ∗ owns (c : Thread nD τ) (st2_3 t) fullShare ((dat2 c V).after 3 t))

/-- The body at any point: the inputs' memrefs hold their blocks, so the body's triple applies; the invariant and the
    core's owed tallies pass through unread. -/
theorem sound_body2 (t : Fin cfg2.N) :
    bodyPre2 c V t ⊢ wp frame (wpE (defs₀ (F := F)) Variants.none c none) Set.univ (bodyAt2 t) (fun _ => bodyPost2 c V t) := by
  unfold bodyPre2 bodyPost2 bodyAt2
  simp only [before2_0, before2_1, before2_2]
  rw [show (dat2 c V).Φ t.succ = (dat2 c V).Φ t.castSucc from rfl,
    show (dat2 c V).owesAt (none : HIx 1) t.succ = (dat2 c V).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 c V 0 t) (iblk2 c V 1 t) (iblk2 c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 : BodyObligation (dat2 (F := F) c V) (defs₀ (F := F)) Variants.none (none : HIx 1) Set.univ := fun t => by
  rw [bigSep_W2, bigSep_W2]
  exact sound_body2 c V t

end Cert.KB.Tc

end
-- ==== Proof.KBSegs.lean ====
/-
  The TensorCore's part of the program after the SparseCore gather, as the list of items a pipeline launch runs:
  two reshapes (the scale ds as a one-element vector, b as a one-row matrix), the first pallas_call
  (p = ds * (x W + b), four row blocks), one reshape (cs as a one-element vector), the second pallas_call
  (cs * emb + p, two row blocks); the contents of every buffer between the items, as a fold; and each call as a
  region entered from the contents the item before it left and left at what its pipeline computes.
-/
import proofs.«205810_g90829968376338_cont_sun_m_901_13_alg».proof.Proof.KBScPay
import proofs.«205810_g90829968376338_cont_sun_m_901_13_alg».proof.Proof.KBTc1
import proofs.«205810_g90829968376338_cont_sun_m_901_13_alg».proof.Proof.KBTc2
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Seg HostSeg RegionSeg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's part after the gather: two reshapes, the first call, a reshape, the second call -/

/-- No pallas_call has a prefetched table. -/
abbrev adm : (p : Fin 2) → (pcfgs (F := F) p).Adm := fun p => (cfgs p).toPCfg_adm

abbrev opA : HloOp τ sig (Elt F) := StableHlo.reshape main_arg6 main_v1 rfl shapeCasts_S_S1
abbrev opB : HloOp τ sig (Elt F) := StableHlo.reshape main_arg4 main_v2 rfl shapeCasts_S128_S1x128
abbrev opC : HloOp τ sig (Elt F) := StableHlo.reshape main_arg5 main_v4 rfl shapeCasts_S_S1
abbrev hostOps0 : List (HloOp τ sig (Elt F)) := [opA, opB]
abbrev hostOps1 : List (HloOp τ sig (Elt F)) := [opC]

theorem hostOps0_sub : (hostOps0 : List (HloOp τ sig (Elt F))).Forall fun op => op.bufs ⊆ StableHlo.tcRefs τ sig :=
  ⟨StableHlo.reshape_bufs_sub .., StableHlo.reshape_bufs_sub ..⟩
theorem hostOps1_sub : (hostOps1 : List (HloOp τ sig (Elt F))).Forall fun op => op.bufs ⊆ StableHlo.tcRefs τ sig :=
  StableHlo.reshape_bufs_sub ..
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ### The buffers' contents between the items -/

/-- At launch; -/
abbrev W0 (c : Dev nD) : Valuation τ sig (Elt F) := fun b => m (c, b)
/-- after the gather: the gathered rows' array at the gathered rows; -/
def W1 (c : Dev nD) : Valuation τ sig (Elt F) := Function.update (W0 m c) (Proc.devRef .tc main_v0) (Gout m c)
/-- after the two reshapes; -/
abbrev W2 (c : Dev nD) : Valuation τ sig (Elt F) := StableHlo.after hostOps0 (W1 m c)
abbrev V2 (c : Dev nD) : (b : Ref sig .tc) → Buf (Elt F) ((c : Thread nD τ).loc b) := fun b => W2 m c b
/-- after the first call: its arrays at what its pipeline leaves; -/
def W3 (c : Dev nD) : Valuation τ sig (Elt F) :=
  Pipeline.withArrays spec1 c (W2 m c) fun w => (Tc.dat1 c (V2 m c)).arrAt w cfg1.N
/-- after the third reshape; -/
abbrev W4 (c : Dev nD) : Valuation τ sig (Elt F) := StableHlo.after hostOps1 (W3 m c)
abbrev V4 (c : Dev nD) : (b : Ref sig .tc) → Buf (Elt F) ((c : Thread nD τ).loc b) := fun b => W4 m c b
/-- after the second call. -/
def W5 (c : Dev nD) : Valuation τ sig (Elt F) :=
  Pipeline.withArrays spec2 c (W4 m c) fun w => (Tc.dat2 c (V4 m c)).arrAt w cfg2.N
abbrev V3 (c : Dev nD) : (b : Ref sig .tc) → Buf (Elt F) ((c : Thread nD τ).loc b) := fun b => W3 m c b
abbrev V5 (c : Dev nD) : (b : Ref sig .tc) → Buf (Elt F) ((c : Thread nD τ).loc b) := fun b => W5 m c b

theorem W3_arr (c : Dev nD) (w : Fin cfg1.W) :
    W3 m c (Proc.devRef .tc (Pipeline.arrRef spec1 w)) = (Tc.dat1 c (V2 m c)).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (Tc.dat2 c (V4 m c)).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

theorem hF1 (c : Dev nD) (w : Fin cfg1.W) : (Tc.dat1 c (V2 m c)).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (Tc.dat2 c (V4 m c)).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ### The proof data family, the thread state, the segments -/

def pdats : (p : Fin 2) → (c : Dev nD) → Dat τ (Elt F) (HIx 1) ℕ UU ℕ (Pipeline.pin (pcfgs (F := F)) adm p) c
  | ⟨0, _⟩ => fun c => Tc.dat1 c (V2 m c)
  | ⟨1, _⟩ => fun c => Tc.dat2 c (V4 m c)

abbrev LL : GSem nD τ sig → Finset (HIx 1) := (K (F := F)).L
abbrev lv : GSem nD τ sig → HIx 1 → ℕ := (K (F := F)).lev

/-- What rides beside the buffers: the generator register and the TensorCore's dues, none, its recorded waits below
    the level the launch bounds them by. -/
abbrev RR (c : Dev nD) : sProp 𝕄 :=
  iprop((∃ r, prngReg c r) ∗ ∃ W, ⌜↑W ⊆ recB F c⌝ ∗ owes (c : Thread nD τ) (0 : CellTallies nD τ sig (HIx 1)) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR (F := F))

/-- The wait pairs of a pipeline's own staging cells sit at level 0. -/
theorem bound_sub (c : Dev nD) {cfg : Pipeline.Cfg sig Λ₀} {Wt : Waits sig (HIx 1)}
    (h : ↑Wt ⊆ recB F c ∪ cfg.waitPairs (none : HIx 1)) : ↑Wt ⊆ recB F c := by
  intro p hp
  rcases h hp with h | ⟨w, s, rfl⟩
  · exact h
  · show (K (F := F)).lev _ none ≤ 8
    rw [SparseCore.Cfg.lev_none]; omega

set_option backward.isDefEq.respectTransparency.types false in
/-- The first call over the thread state: entered from every unscoped buffer at the contents the item before left,
    left at the contents its pipeline leaves; its arrays split out of the unscoped buffers and put back; the generator
    register into the invariant and out; nothing owed; no semaphore of the kernel's own. -/
def reg0 : Pipeline.RegionSeg (pcfgs (F := F)) adm (pdats m) (none : HIx 1) defs₀ 𝒱₀ (LL (F := F)) (lv (F := F)) 0 where
  win := launch1.win.to₀
  block_pos := launch1.block_pos
  stage_whole := launch1.stage_whole
  K := PEmpty
  osem k := k.elim
  ho := Pipeline.OwnSemFacts.none _
  hbody c := (Tc.body_obligation1 c (V2 m c)).loose
  hwaits := Pipeline.hwaits_of_owed_zero _ _ _ _ (LL (F := F)) (lv (F := F)) 0 fun _ _ => rfl
  pre c := iprop(StableHlo.held (c : Thread nD τ) (Pipeline.ucRefs τ sig) (W2 m c) ∗ RR (F := F) c)
  post c := iprop(StableHlo.held (c : Thread nD τ) (Pipeline.ucRefs τ sig) (W3 m c) ∗ RR (F := F) c)
  X c := iprop(∃ r, prngReg c r)
  Y c := iprop(∃ r, prngReg c r)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun _ hp => Or.inl (hW hp)
      iexact HO
    isplitl [Hp]; · iexact Hp
    iexact Hrest
  hin c := by
    rw [show (pdats m 0 c).Φ 0 = Tc.Φ1 c from rfl]
    iintro ⟨Hp, -, Hr⟩
    isplitl [Hr]; · iexact Hr
    iexact Hp
  hout c := by
    rw [Pipeline.ownSems0_none, show (pdats m 0 c).Φ (Fin.last _) = Tc.Φ1 c from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hW, HO⟩; iexists Wt; isplitr; · ipureintro; exact bound_sub c hW
    iexact HO

set_option backward.isDefEq.respectTransparency.types false in
/-- The second call over the thread state: entered from every unscoped buffer at the contents the item before left,
    left at the contents its pipeline leaves; its arrays split out of the unscoped buffers and put back; the generator
    register into the invariant and out; nothing owed; no semaphore of the kernel's own. -/
def reg1 : Pipeline.RegionSeg (pcfgs (F := F)) adm (pdats m) (none : HIx 1) defs₀ 𝒱₀ (LL (F := F)) (lv (F := F)) 1 where
  win := launch2.win.to₀
  block_pos := launch2.block_pos
  stage_whole := launch2.stage_whole
  K := PEmpty
  osem k := k.elim
  ho := Pipeline.OwnSemFacts.none _
  hbody c := (Tc.body_obligation2 c (V4 m c)).loose
  hwaits := Pipeline.hwaits_of_owed_zero _ _ _ _ (LL (F := F)) (lv (F := F)) 1 fun _ _ => rfl
  pre c := iprop(StableHlo.held (c : Thread nD τ) (Pipeline.ucRefs τ sig) (W4 m c) ∗ RR (F := F) c)
  post c := iprop(StableHlo.held (c : Thread nD τ) (Pipeline.ucRefs τ sig) (W5 m c) ∗ RR (F := F) c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun _ hp => Or.inl (hW hp)
      iexact HO
    isplitl [Hp]; · iexact Hp
    iexact Hrest
  hin c := by
    rw [show (pdats m 1 c).Φ 0 = Tc.Φ2 c from rfl]
    iintro ⟨Hp, -, Hr⟩
    isplitl [Hr]; · iexact Hr
    iexact Hp
  hout c := by
    rw [Pipeline.ownSems0_none, show (pdats m 1 c).Φ (Fin.last _) = Tc.Φ2 c from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hW, HO⟩; iexists Wt; isplitr; · ipureintro; exact bound_sub c hW
    iexact HO

/-- The TensorCore's items after the gather, in order. -/
abbrev segs : List (Pipeline.Seg (pcfgs (F := F)) adm (pdats m) (none : HIx 1) defs₀ 𝒱₀ (LL (F := F)) (lv (F := F))) :=
  [ .host (hseg hostOps0 hostOps0_sub hostOps0_fresh (W1 m)),
    .region (reg0 m),
    .host (hseg hostOps1 hostOps1_sub hostOps1_fresh (W3 m)),
    .region (reg1 m) ]

/-- @main is the SparseCore call followed by those items, read in the extended signature. -/
theorem main_eq (d : Dev nD) : main (F := F) d = (sc (F := F)).run d 0 >>= fun _ => SparseCore.liftProg (Pipeline.Seg.run (segs m)) := by
  simp only [main, segs, Pipeline.Seg.run, hseg, Pipeline.HostSeg.ofOps, StableHlo.seq, Prog.lift, Prog.bind_op, Prog.bind_ret, bind_pure_comp]
  rfl

end Cert.KB
end
-- ==== Proof.KBParts.lean ====
/-
  The TensorCore's side of the one SparseCore call, as a regrouping of what it holds.  It holds the index vector,
  the table and the result array whole.  The 4096 rows fall into 32 blocks of 128, pairwise disjoint and covering,
  so the index vector and the result array are each the 32 blocks; the table's full share is 32 read shares and a
  remainder.  Block b of each array and share b of the table are what the task of block b is handed; the tasks are
  indexed by SparseCore c and subcore i with block 2 i + c, which runs over the 32 blocks once.  Afterwards the
  same pieces come back, the result array's blocks all at one function, and join to the whole arrays again.
-/
import proofs.«205810_g90829968376338_cont_sun_m_901_13_alg».proof.Proof.KBScPay
import Idealize.ShloMosaic.Lib.Transfers
import Mathlib.Logic.Equiv.Fin.Basic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S4096 EltTy.i32)
local notation "tV" => (Memref.whole Cert.Kernel.main_arg2_scv : Memref Cert.Kernel.sig Kind.scVector Space.hbm Cert.Kernel.S1000x128 EltTy.f32)
local notation "oV" => (Memref.whole Cert.Kernel.main_v0_scv : Memref Cert.Kernel.sig Kind.scVector Space.hbm Cert.Kernel.S4096x128 EltTy.f32)

/-! ## The blocks: disjoint, and covering -/

theorem iSet_eq (b : Fin 32) : iSet b = (iblk b).set := by
  show ((View.whole (main_arg0_scv : Ref sig .scVector)).slice (iblk b)).set = _
  rw [View.set_slice]; exact Finset.map_refl
theorem oSet_eq (b : Fin 32) : oSet b = (oblk b).set := by
  show ((View.whole (main_v0_scv : Ref sig .scVector)).slice (oblk b)).set = _
  rw [View.set_slice]; exact Finset.map_refl

theorem iSets_disjoint : ∀ b ∈ (Finset.univ : Finset (Fin 32)), ∀ b' ∈ (Finset.univ : Finset (Fin 32)), b ≠ b' → Disjoint (iSet b) (iSet b') :=
  fun b _ b' _ h => by rw [iSet_eq, iSet_eq]; exact Rect.part_disjoint idiv h
theorem oSets_disjoint : ∀ b ∈ (Finset.univ : Finset (Fin 32)), ∀ b' ∈ (Finset.univ : Finset (Fin 32)), b ≠ b' → Disjoint (oSet b) (oSet b') :=
  fun b _ b' _ h => by rw [oSet_eq, oSet_eq]; exact Rect.part_disjoint odiv h
theorem iSets_cover : (Finset.univ : Finset (Fin 32)).biUnion iSet = Finset.univ :=
  (Finset.biUnion_congr rfl fun b _ => iSet_eq b).trans (Rect.biUnion_part idiv)
theorem oSets_cover : (Finset.univ : Finset (Fin 32)).biUnion oSet = Finset.univ :=
  (Finset.biUnion_congr rfl fun b _ => oSet_eq b).trans (Rect.biUnion_part odiv)

/-- The index vector held whole is its 32 blocks held. -/
theorem iPts_blocks (d : Dev nD) (f : Buf (Elt F) (iLoc d)) :
    (iLoc d ↦{fullShare} f : sProp 𝕄) = bigSep Finset.univ fun b : Fin 32 => iLoc d ↦[iSet b]{fullShare} f := by
  rw [← pointsTo_biUnion Finset.univ (ℓ := iLoc d) iSet iSets_disjoint, iSets_cover]; try rfl
/-- The result array held whole is its 32 blocks held. -/
theorem oPts_blocks (d : Dev nD) (f : Buf (Elt F) (oLoc d)) :
    (oLoc d ↦{fullShare} f : sProp 𝕄) = bigSep Finset.univ fun b : Fin 32 => oLoc d ↦[oSet b]{fullShare} f := by
  rw [← pointsTo_biUnion Finset.univ (ℓ := oLoc d) oSet oSets_disjoint, oSets_cover]; try rfl

/-! ## The tasks run over the blocks once -/

/-- Block 2 i + c, over SparseCore c of 2 and subcore i of 16, runs over the 32 blocks once. -/
theorem regroup_aux (Φ : Fin 32 → sProp 𝕄) :
    (bigSep Finset.univ fun c : Fin 2 => bigSep Finset.univ fun i : Fin 16 =>
        Φ ⟨2 * i.val + c.val, by have := c.isLt; have := i.isLt; omega⟩) = bigSep Finset.univ Φ := by
  rw [bigSep_univ_comm,
    ← bigSep_univ_prod (fun p : Fin 16 × Fin 2 => Φ ⟨2 * p.1.val + p.2.val, by have := p.1.isLt; have := p.2.isLt; omega⟩),
    bigSep_univ_equiv (finProdFinEquiv : Fin 16 × Fin 2 ≃ Fin (16 * 2)) Φ]
  exact bigSep_congr fun p _ => congrArg Φ (Fin.ext (by simp [finProdFinEquiv]; omega))

variable [FloatOps F]

theorem regroup (Φ : Fin 32 → sProp 𝕄) :
    (bigSep Finset.univ fun c : Fin ((K (F := F)).nCore 0) => bigSep Finset.univ fun i : Fin ((K (F := F)).nSub 0) => Φ (bOf c i))
      = bigSep Finset.univ Φ :=
  regroup_aux Φ

/-! ## Cutting into the tasks' parts, and putting them together again -/

/-- The three arrays held whole are the table's remainder and, per block, what its task is handed. -/
theorem parts_split (d : Dev nD) :
    iprop((iLoc d ↦{fullShare} m (iLoc d)) ∗ (tLoc d ↦{fullShare} m (tLoc d)) ∗ (oLoc d ↦{fullShare} m (oLoc d)))
      ⊢ (iprop((tLoc d ↦{Transfers.shareDrop fullShare 32} m (tLoc d)) ∗ bigSep Finset.univ fun b : Fin 32 => goOf m d b) : sProp 𝕄) := by
  rw [bigSep_sep', bigSep_sep', iPts_blocks, oPts_blocks]
  iintro ⟨Hi, Ht, Ho⟩
  ihave Ht' := (Transfers.pointsTo_toks_split fullShare 32) $$ Ht
  icases Ht' with ⟨Hd, Hts⟩
  isplitl [Hd]; · iexact Hd
  isplitl [Hi]; · iexact Hi
  isplitl [Hts]; · iexact Hts
  iexact Ho

/-- The table's remainder and, per block, what its task hands back are the three arrays held whole, the result
    array at the one function all its blocks are at. -/
theorem parts_join (d : Dev nD) :
    iprop((tLoc d ↦{Transfers.shareDrop fullShare 32} m (tLoc d)) ∗ bigSep Finset.univ fun b : Fin 32 => tdOf m d b)
      ⊢ (iprop((iLoc d ↦{fullShare} m (iLoc d)) ∗ (tLoc d ↦{fullShare} m (tLoc d)) ∗ (oLoc d ↦{fullShare} Gout m d)) : sProp 𝕄) := by
  rw [bigSep_sep', bigSep_sep', iPts_blocks, oPts_blocks]
  iintro ⟨Hd, Hi, Hts, Ho⟩
  isplitl [Hi]; · iexact Hi
  isplitl [Hd Hts]
  · iapply (Transfers.pointsTo_toks_join fullShare 32)
    isplitl [Hd]; · iexact Hd
    iexact Hts
  iexact Ho

end Cert.KB
end
-- ==== Proof.KBMain.lean ====
/-
  @main on the TensorCore: it cuts the index vector and the result array into the 32 tasks' blocks and the table into
  32 read shares, starts the SparseCore call and waits for it, puts the arrays together again — the gathered rows'
  array now at the gathered rows —, and then runs its own items (the reshapes and the two pallas_calls) as a
  pipeline launch's segments, entered with nothing owed and left with nothing owed; at the end every unscoped buffer
  is at the last item's contents.
-/
import proofs.«205810_g90829968376338_cont_sun_m_901_13_alg».proof.Proof.KBSegs
import proofs.«205810_g90829968376338_cont_sun_m_901_13_alg».proof.Proof.KBParts
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Seg HostSeg RegionSeg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

/-- The three arrays the gather touches, as the TensorCore's buffers. -/
abbrev i' : DevRef τ sig := Proc.devRef .tc (main_arg0 : Ref sig .tc)
abbrev t' : DevRef τ sig := Proc.devRef .tc (main_arg2 : Ref sig .tc)
abbrev o' : DevRef τ sig := Proc.devRef .tc (main_v0 : Ref sig .tc)
abbrev T3 : Finset (DevRef τ sig) := {i', t', o'}
theorem T3_sub : T3 ⊆ Pipeline.ucRefs τ sig := by decide

omit [FloatOps F] in
theorem held_T3 (d : Dev nD) (Wv : Valuation τ sig (Elt F)) :
    (StableHlo.held (SparseCore.T d) T3 Wv : sProp 𝕄) = iprop((iLoc d ↦{fullShare} Wv i') ∗ (tLoc d ↦{fullShare} Wv t') ∗ (oLoc d ↦{fullShare} Wv o')) := by
  unfold StableHlo.held T3
  rw [SparseCore.bigSep_insert' (by decide), SparseCore.bigSep_insert' (by decide), bigSep_singleton]

theorem W1_i (d : Dev nD) : W1 m d i' = m (iLoc d) := Function.update_of_ne (show i' ≠ o' by decide) _ _
theorem W1_t (d : Dev nD) : W1 m d t' = m (tLoc d) := Function.update_of_ne (show t' ≠ o' by decide) _ _
theorem W1_o (d : Dev nD) : W1 m d o' = Gout m d := Function.update_self _ _ _
theorem held_rest_W1 (d : Dev nD) :
    (StableHlo.held (SparseCore.T d) (Pipeline.ucRefs τ sig \ T3) (W1 m d) : sProp 𝕄) = StableHlo.held (SparseCore.T d) (Pipeline.ucRefs τ sig \ T3) (W0 m d) :=
  StableHlo.held_congr _ fun b hb => Function.update_of_ne (fun (e : b = o') => (Finset.mem_sdiff.mp hb).2 (by rw [e]; decide)) _ _

theorem st0_eq (d : Dev nD) : (bigSep Finset.univ fun c : Fin ((K (F := F)).nCore 0) => (P m).st 0 d c) = bigSep Finset.univ fun b : Fin 32 => goOf m d b :=
  regroup (fun b => goOf m d b)
theorem dn0_eq (d : Dev nD) : (bigSep Finset.univ fun c : Fin ((K (F := F)).nCore 0) => (P m).dn 0 d c) = bigSep Finset.univ fun b : Fin 32 => tdOf m d b :=
  regroup (fun b => tdOf m d b)

theorem held_W1 (d : Dev nD) :
    (StableHlo.held (SparseCore.T d) (Pipeline.ucRefs τ sig) (W1 m d) : sProp 𝕄)
      = iprop(((iLoc d ↦{fullShare} m (iLoc d)) ∗ (tLoc d ↦{fullShare} m (tLoc d)) ∗ (oLoc d ↦{fullShare} Gout m d))
          ∗ StableHlo.held (SparseCore.T d) (Pipeline.ucRefs τ sig \ T3) (W0 m d)) := by
  rw [StableHlo.held_sub_split (SparseCore.T d) T3_sub, held_T3, held_rest_W1, W1_i, W1_t, W1_o]

/-- What the launch leaves the TensorCore beside its dues after the one call. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) :
    ((K (F := F)).tcSt EH d 1 : sProp 𝕄)
      = iprop((∃ Wt, ⌜(K (F := F)).WBelow (SparseCore.T d) Wt (8 * 1)⌝ ∗ owes (SparseCore.T d) (0 : CellTallies nD τ sig (HIx 1)) Wt) ∗ tcTail (F := F) d) := by
  unfold SparseCore.Cfg.tcSt tcTail
  rw [(K (F := F)).Otc_end d (le_refl 1)]

/-- The final contents of every unscoped buffer of the TensorCore. -/
abbrev FIN (d : Dev nD) : sProp 𝕄 := StableHlo.held (SparseCore.T d) (Pipeline.ucRefs τ sig) (W5 m d)

set_option maxHeartbeats 1000000 in
theorem hmain (κ : GSem nD τ sig → ℕ) (d : Dev nD) :
    iprop((K (F := F)).ctx EH (P m) κ ∗ (K (F := F)).tcSt EH d 0 ∗ (K (F := F)).tcRes m ρ d
        ∗ Pipeline.ghostOn (pcfgs (F := F)) adm EP Finset.univ d)
      ⊢ wp frame (wpE ((K (F := F)).defs (D (F := F))) 𝒱 (SparseCore.T d) none) Set.univ (main d)
          fun _ => iprop((K (F := F)).tcSt EH d 1 ∗ FIN m d) := by
  rw [main_eq m d, wp_bind, tcSt_one]
  unfold SparseCore.Cfg.tcRes
  rw [show (unscopedBufs d (fun b => m ((SparseCore.T d).loc b)) : sProp 𝕄) = StableHlo.held (SparseCore.T d) (Pipeline.ucRefs τ sig) (W0 m d)
      from Pipeline.unscopedBufs_held d (W0 m d),
    StableHlo.held_sub_split (SparseCore.T d) T3_sub, held_T3]
  iintro ⟨#Hctx, Hst, ⟨Hb, ⟨⟨Hi, Ht, Ho⟩, Hrest⟩, Hsems, Hprng⟩, Hghost⟩
  ihave Hparts := (parts_split m d) $$ [Hi Ht Ho]
  · isplitl [Hi]; · iexact Hi
    isplitl [Ht] <;> iassumption
  icases Hparts with ⟨Htd, Hgo⟩
  iapply ((K (F := F)).wp_run (D (F := F)) 𝒱 (EH := EH) (P := P m) κ d 0) $$ [Hst Hgo Hb Htd Hrest Hsems Hprng Hghost]
  isplitr; · iexact Hctx
  isplitl [Hst]; · iexact Hst
  isplitl [Hgo]; · rw [st0_eq]; iexact Hgo
  iintro ⟨Hst, Hdn⟩
  ihave Hst' := (Entails.of_eq (show ((K (F := F)).tcSt EH d ((0 : Fin 1).val + 1) : sProp 𝕄) = _ from tcSt_one (F := F) d)) $$ Hst
  icases Hst' with ⟨⟨%Wt, %hWt, HO⟩, Htail⟩
  ihave Hdn' := (Entails.of_eq (dn0_eq m d)) $$ Hdn
  ihave Hj := (parts_join m d) $$ [Htd Hdn']
  · isplitl [Htd] <;> iassumption
  icases Hj with ⟨Hi, Ht, Ho⟩
  ihave Hheld := (Entails.of_eq (held_W1 m d).symm) $$ [Hi Ht Ho Hrest]
  · isplitl [Hi Ht Ho]
    · isplitl [Hi]; · iexact Hi
      isplitl [Ht] <;> iassumption
    · iexact Hrest
  ihave Hlev := ((K (F := F)).ctx_levAts κ) $$ Hctx
  iapply ((K (F := F)).wp_liftProg (D (F := F)) 𝒱 (SparseCore.T d) Set.univ none (Seg.run (segs m)) _)
  iapply (Pipeline.wp_segs (pcfgs (F := F)) adm (pdats m) (none : HIx 1) cellOf_inj EP defs₀ 𝒱₀ (LL (F := F)) (lv (F := F)) d (segs m) Finset.univ
      (fun c => iprop(StableHlo.held (c : Thread nD τ) (Pipeline.ucRefs τ sig) (W1 m c) ∗ RR (F := F) c))
      (fun c => iprop(StableHlo.held (c : Thread nD τ) (Pipeline.ucRefs τ sig) (W5 m c) ∗ RR (F := F) c))
      (by simp only [segs, Pipeline.Seg.pipes_host, Pipeline.Seg.pipes_region, Pipeline.Seg.pipes_nil]; decide)
      (fun _ _ => Finset.mem_univ _)
      ⟨fun _ => .rfl, fun _ => .rfl, fun _ => .rfl, fun _ => .rfl, fun _ => .rfl⟩) $$ [Hb Hheld Hprng HO Hghost Htail]
  isplitl [Htail]
  · iintro ⟨Hb, Hheld, Hp, ⟨%Wt', %hW', HO⟩⟩
    isplitl [HO Htail]
    · isplitl [HO]
      · iexists Wt'; isplitr
        · ipureintro; intro p hp; exact le_of_le_of_eq (hW' hp) (Nat.mul_one 8).symm
        · iexact HO
      · iexact Htail
    · iexact Hheld
  isplitl [Hb]; · iexact Hb
  isplitl [Hheld Hprng HO]
  · isplitl [Hheld]; · iexact Hheld
    isplitl [Hprng]; · iexists _; iexact Hprng
    iexists Wt; isplitr
    · ipureintro; intro p hp; exact le_of_le_of_eq (hWt p hp) (Nat.mul_one 8)
    · iexact HO
  isplitr; · iexact Hlev
  iexact Hghost

end Cert.KB
end
-- ==== Proof.KBScVal.lean ====
/-
  The SparseCore gather, the value a vector subcore leaves: subcore (c, s) works on block 2 s + c, rows
  128 (2 s + c) … 128 (2 s + c) + 127.  What it writes over its block of the gathered rows' array is the contents
  of its row scratch, and those are the gather's payload: entry (k, j) of the scratch is entry j of the table row
  named by word k of the index scratch, read as a natural; the index scratch holds the block's 128 words of the
  index vector, word k of the scratch being word 128 (2 s + c) + k of the vector.  So on the block's index set the
  written array is the array of gathered rows: entry (r, j) is entry j of the table row word r names (every word
  names a row of the table, so reducing it into the table's thousand rows changes nothing).
-/
import proofs.«205810_g90829968376338_cont_sun_m_901_13_alg».proof.Proof.KBScDefs

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_arg0_scv : Memref Cert.Kernel.sig Kind.scVector Space.hbm Cert.Kernel.S4096 EltTy.i32)
local notation "tV" => (Memref.whole Cert.Kernel.main_arg2_scv : Memref Cert.Kernel.sig Kind.scVector Space.hbm Cert.Kernel.S1000x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

section
variable (m : (ℓ : Loc nD τ sig) → Buf (Elt F) ℓ) (d : Dev nD) (L : grid0.Coords)

/-- On the block of a vector subcore, the result array written with the subcore's row scratch — itself written
    with the gather's payload for the block's index words — is the array of gathered rows.  Coordinate by
    coordinate: the column is kept all the way; the row read of the table at scratch row k is the k-th word of the
    index scratch, which is word (block offset + k) of the index vector, and (block offset + k) is the row of the
    result that scratch row k lands on. -/
theorem out_written [FloatOps F] (hpre : PreOK m) (fs : Buf (Elt F) ((V d (cV L) (jV L)).loc cc0_scratch0)) (fr : Buf (Elt F) ((V d (cV L) (jV L)).loc cc0_scratch1))
    (hn : S128.numel = S128x128.size gathers_S1000x128_S128x128.axis')
    (hin : ∀ x, ((sV).view.read (Elt F) (View.write (Elt F) (sV).view fs ((iSliceK L).view.read (Elt F) (m (iLoc d))) Finset.univ) x).toNat < S1000x128.size gathers_S1000x128_S128x128.axis)
    (pay : S128x128.Idx → Elt F .f32)
    (hpay : pay = ReadAs.same.apply (View.read (Elt F) (rV).view ((rV).view.writes (Elt F) fr
        [⟨Rect.whole S128x128, SparseCore.gatherPayload gathers_S1000x128_S128x128 (View.read (Elt F) (tAllK).view (m (tLoc d)))
            (SparseCore.rows (View.read (Elt F) (sV).view (View.write (Elt F) (sV).view fs (ReadAs.same.apply (View.read (Elt F) (iSliceK L).view (m (iLoc d)))) Finset.univ)) hn hin)⟩]))) :
    ∀ i ∈ (oSliceK L).view.set, ((oSliceK L).view.writes (Elt F) (m (oLoc d)) [⟨Rect.whole S128x128, pay⟩]) i = Gout m d i := by
  subst hpay
  intro i hi
  obtain ⟨y, -, rfl⟩ := Finset.mem_map.mp hi
  rw [View.writes_singleton]
  have e : (oSliceK L).view.emb y = ((oSliceK L).view.slice (Rect.whole S128x128)).emb y := by
    rw [View.emb_slice]
    show _ = (oSliceK L).view.emb ((Rect.whole S128x128).emb y)
    rw [Rect.emb_whole_apply]
  conv_lhs => rw [e, View.write_emb_of_mem _ _ (Finset.mem_univ _)]
  rw [cast_eq, ReadAs.apply_same]
  have hr : ∀ (P : S128x128.Idx → Elt F .f32), View.read (Elt F) (rV).view ((rV).view.writes (Elt F) fr [⟨Rect.whole S128x128, P⟩]) y = P y := fun P => by
    have h := View.read_writes_cons_emb (rV).view fr (Rect.whole S128x128) P [] y
    have e2 : (Rect.whole S128x128).emb y = y := Rect.emb_whole_apply S128x128 y
    rwa [e2] at h
  rw [hr]
  unfold SparseCore.gatherPayload
  rw [View.read_apply, cast_eq]
  unfold Gout Cert.Spec.gathered
  congr 1
  have ht : ∀ (z : S1000x128.Idx) (a : Fin 2), ((tAllK).view.emb z a).val = (z a).val := fun z a => by
    show (![0, 0] : Fin 2 → ℕ) a + 1 * (z a).val = _
    match a with
    | 0 => simp
    | 1 => simp
  have ho : ∀ a : Fin 2, ((oSliceK L).view.emb y a).val = (k0_off2 L a) + (y a).val := fun a => by
    show k0_off2 L a + 1 * (y a).val = _
    omega
  funext a; apply Fin.ext
  match a with
  | 0 =>
    refine (ht _ 0).trans ?_
    refine (congrArg Fin.val (Shape.Gathers.idx_axis gathers_S1000x128_S128x128 _ y)).trans ?_
    show (View.read (Elt F) (sV).view (View.write (Elt F) (sV).view fs
            (ReadAs.same.apply (View.read (Elt F) (iSliceK L).view (m (iLoc d)))) Finset.univ)
          (S128.rowMajor.symm ((y 0).cast hn.symm))).toNat
        = (Spec.rowOf (m (iLoc d) (ValueIdx.ix1 ((oSliceK L).view.emb y 0)))).val
    rw [Cert.Spec.rowOf_val (hpre d _)]
    congr 1
    rw [View.write_whole_univ]
    simp only [Memref.view_whole, View.read_whole, ReadAs.apply_same]
    refine ((View.read_apply _ _).trans (cast_eq _ _)).trans ?_
    congr 1
    funext b; apply Fin.ext
    match b with
    | 0 =>
      show k0_off1 L 0 + 1 * ((S128.rowMajor.symm ((y 0).cast hn.symm)) 0).val = ((oSliceK L).view.emb y 0).val
      have hk : ((S128.rowMajor.symm ((y 0).cast hn.symm)) 0).val = (y 0).val := by
        have h1 := Shape.rowMajor_val_one (S128.rowMajor.symm ((y 0).cast hn.symm))
        rw [Equiv.apply_symm_apply] at h1
        exact h1.symm
      rw [hk, ho, k0_off1_eq, k0_off2_eq]
      simp
  | 1 =>
    refine (ht _ 1).trans ?_
    refine (Shape.Gathers.idx_of_ne gathers_S1000x128_S128x128 _ y 1 (by decide)).trans ?_
    show (y 1).val = ((oSliceK L).view.emb y 1).val
    rw [ho, k0_off2_eq]; simp

end
end Cert.KB
end
-- ==== Proof.KBSc.lean ====
/-
  One vector subcore's task of the gather, run: the block's 128 index words copied into the index scratch and waited
  for; the 128 table rows they name gathered into the row scratch (the offsets in range because every index word names
  a table row) and waited for; the rows copied out to the block's rows of the result and waited for.  It leaves the
  block's rows of the result at the gathered rows, the index words and the table as they were, the subcore's own
  storage as it found it.  That is the launch theorem's obligation for each of the 32 tasks.
-/
import proofs.«205810_g90829968376338_cont_sun_m_901_13_alg».proof.Proof.KBScPay
import proofs.«205810_g90829968376338_cont_sun_m_901_13_alg».proof.Proof.KBScVal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4096 EltTy.i32)
local notation "tV" => (Memref.whole Cert.Kernel.main_arg2_scv : Memref Cert.Kernel.sig Kind.scVector Space.hbm Cert.Kernel.S1000x128 EltTy.f32)
local notation "oV" => (Memref.whole Cert.Kernel.main_v0_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

section Tile
variable (d : Dev nD) (L : grid0.Coords) [FloatOps F]

set_option maxHeartbeats 4000000 in
/-- One vector subcore's task: the block's index words fetched, the table rows they name gathered, the rows written
    out — leaving the block's rows of the result at the gathered rows, the index words and the table as they were. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iPart m d (bL L) ∗ tPart m d (bL L) ∗ oPart d (bL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) tV (Memref.isWhole_whole _) oV (Memref.isWhole_whole _)
            sV (Memref.isWhole_whole _) rV (Memref.isWhole_whole _) cc0_scratch2 cc0_scoped0 cc0_scoped1)
          fun _ => iprop((iPart m d (bL L) ∗ tPart m d (bL L) ∗ oPart d (bL L) (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSliceK (F := F) d L _).symm) $$ Hi
  ihave Ho' := (Entails.of_eq (pts_oSliceK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  -- the index fetch and its wait
  sl_exec
  -- the gather reads the table through the whole-array slice the program takes of it, and its offsets are in range
  ihave Hts := (pointsTo_split_subset (q := tq (bL L)) (f := m (tLoc d)) (S := Finset.univ) (Finset.subset_univ (tAllK).view.set)).1 $$ Ht'
  icases Hts with ⟨Hts, Htr⟩
  ihave Hts' := (Entails.of_eq (show ((tV).view.loc (V d (cV L) (jV L)) ↦[(tAllK).view.set]{tq (bL L)} m (tLoc d) : sProp 𝕄)
      = (tAllK).view.loc (V d (cV L) (jV L)) ↦[(tAllK).view.set]{tq (bL L)} m (tLoc d) from rfl)) $$ Hts
  have hin := inb_of_pre m d L hpre fs _ rfl
  -- the gather and its wait, the write-out and its wait
  sl_exec
  have hw := out_written m d L hpre fs fr (by decide) hin (tile_body.sl.dma0_1 m d L fs fr hin) rfl
  ihave Ho2 := (Entails.of_eq (pointsTo_congr (q := fullShare) hw)) $$ Ho'
  sl_step
  isplitl [Hi' Htr Ho2]
  · isplitl [Hi']; · iapply (Entails.of_eq (pts_iSliceK (F := F) d L _)); iexact Hi'
    isplitl [Htr]; · iexact Htr
    iapply (Entails.of_eq (pts_oSliceK (F := F) d L _)); iexact Ho2
  isplitl [Hs' Hr' Hbufs]
  · isplitl [Hs']; · iexists _; iexact Hs'
    isplitl [Hr']; · iexists _; iexact Hr'
    iexact Hbufs
  isplitl [HsemG HsemI HsemO Hsems]
  · isplitl [HsemG]; · iexact HsemG
    isplitl [HsemI]; · iexact HsemI
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

section Obl
variable [FloatOps F]

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hc : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Obl

end Cert.KB
end
-- ==== Proof.KBLaunch.lean ====
/-
  The launch element of the ghost state: the rounds of the launch's handshakes at their start, beside the rounds
  of the two pipelines' staging cells at their start, beside no counter.  Owning it gives the handshakes' rounds,
  and, after an update, every core's share of the pipelines' ghost state: per pipeline its cells' rounds and its
  duty tokens; the handshakes hand nothing of the kernels' own on.
-/
import proofs.«205810_g90829968376338_cont_sun_m_901_13_alg».proof.Proof.KBSegs
import proofs.«205810_g90829968376338_cont_sun_m_901_13_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Tactic

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The two pipelines' staging cells are pairwise distinct. -/
theorem cellOf_inj' : Function.Injective (Pipeline.cellOf (nD := nD) (τ := τ) (Pipeline.pin (pcfgs (F := F)) adm)) := Gen.cellOf_inj

/-- The launch element: the handshakes' rounds at their start, the pipelines' rounds at theirs, no counter. -/
def u₀ : UU := (initOf (K (F := F)).hsCells (K (F := F)).hsToks, (initOf (Pipeline.cells (Pipeline.pin (pcfgs (F := F)) adm) cellOf_inj') (Pipeline.launchToks (Pipeline.pin (pcfgs (F := F)) adm) cellOf_inj'), 1))

/-- Owning the launch element gives the handshakes' rounds and, after an update, on every core each pipeline's cells'
    rounds and duty tokens; what the handshakes hand each thread of the kernels' own is nothing. -/
theorem hu₀ : (ownU (u₀ (F := F)) : sProp 𝕄) ⊢ |={Set.univ}=> iprop(BI.own (EH (initOf (K (F := F)).hsCells (K (F := F)).hsToks)) ∗ (bigSep Finset.univ fun d : Dev nD => Pipeline.ghostOn (pcfgs (F := F)) adm EP Finset.univ d) ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj') $$ HP with ⟨HA, HB⟩
  imodintro
  isplitl [HH]; · iexact HH
  isplitl [HA HB]
  · have hg : (bigSep Finset.univ fun d : Dev nD => Pipeline.ghostOn (pcfgs (F := F)) adm EP Finset.univ d : sProp 𝕄)
        = iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) := by
      rw [← bigSep_sep']
      refine bigSep_congr fun c _ => ?_
      rw [← bigSep_sep']
      rfl
    rw [hg]
    isplitl [HA]; · iexact HA
    iexact HB
  · have hx : (bigSep Finset.univ fun thr : Thread nD τ => bigSep Finset.univ fun q : Fin 1 => (P m).x q thr : sProp 𝕄) = iprop(emp) := by
      show (bigSep Finset.univ fun _ : Thread nD τ => bigSep Finset.univ fun _ : Fin 1 => (iprop(emp) : sProp 𝕄)) = iprop(emp)
      have be : ∀ {I : Type} (s : Finset I), (bigSep s fun _ => iprop(emp)) = (iprop(emp) : sProp 𝕄) := fun s => bigSep_emp_const s
      rw [bigSep_congr fun _ _ => be _, be]
    rw [hx]; iempintro

end Cert.KB
end
-- ==== Proof.KBRun.lean ====
/-
  The whole program's run, from the launch theorem of a SparseCore program: the 32 tasks' obligations, how a
  SparseCore's operands are its tasks' parts, @main on the TensorCore, the launch element of the ghost state, and how
  the last thread state reads a final memory.
-/
import proofs.«205810_g90829968376338_cont_sun_m_901_13_alg».proof.Proof.KBMain
import proofs.«205810_g90829968376338_cont_sun_m_901_13_alg».proof.Proof.KBSc
import proofs.«205810_g90829968376338_cont_sun_m_901_13_alg».proof.Proof.KBLaunch
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Seg HostSeg RegionSeg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The run -/

/-- What a final memory holds on device d, read off the last thread state. -/
def fq (d : Dev nD) (s' : Phys nD τ sig (Elt F)) : Prop :=
  ∀ b ∈ Pipeline.ucRefs τ sig, s'.mem.mem ((d, b) : Loc nD τ sig) = W5 m d b

theorem hfin (d : Dev nD) (s' : Phys nD τ sig (Elt F)) : iprop(FIN m d ∗ SI s') ⊢ (⌜fq m d s'⌝ : sProp 𝕄) := by
  show iprop(StableHlo.held (SparseCore.T d) (Pipeline.ucRefs τ sig) (W5 m d) ∗ SI s') ⊢ _
  unfold StableHlo.held
  iintro ⟨Hh, HSI⟩
  ihave H := (pointsTo_read_all (Pipeline.ucRefs τ sig) (fun b => ((d, b) : Loc nD τ sig)) (W5 m d) s') $$ [Hh HSI]
  · isplitl [Hh] <;> iassumption
  icases H with ⟨%h, -⟩
  ipureintro; exact h

/-- Every final memory holds, on every device, every unscoped TensorCore buffer at the last item's contents. -/
def QC : PUnit × MemSt nD τ sig (Elt F) → Prop := fun r => ∀ c : Dev nD, ∀ b ∈ Pipeline.ucRefs τ sig, r.2.mem ((c, b) : Loc nD τ sig) = W5 m c b

/-- THE RUN: from any memory with zero counters whose index words name table rows, every weakly fair execution of
    the device's 35 threads terminates, nothing faulting, and ends with every unscoped buffer at the fold's last
    contents. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => Pipeline.ghostOn (pcfgs (F := F)) adm EP Finset.univ d) (FIN m) (u₀ (F := F))
    (sep_elim_left.trans (hu₀ m)) (hmain m ρ) (fq m) (hfin m) (QC m) (fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KB
end
-- ==== Proof.KBTc1Val.lean ====
/-
  The first TensorCore call's output array after its last grid point, at the ideal values, as one function of the
  arrays the call finds: entry (r, j) is the scalar times (the sum over the 2048 features k of x (r, k) * W (k, j), plus
  entry j of the bias) — the specification's projected features, the bias read off its one row and the scalar off
  its one word.  Each point writes back its block of that function (the features' blocks move with the output's, the
  weights, the bias and the scalar stay in place), and the four blocks of 1024 rows cover the 4096 rows.
-/
import proofs.«205810_g90829968376338_cont_sun_m_901_13_alg».proof.Proof.KBTc1
import proofs.«205810_g90829968376338_cont_sun_m_901_13_alg».proof.Proof.Spec
import proofs.«205810_g90829968376338_cont_sun_m_901_13_alg».proof.Proof.LibPlainMatmul
import Idealize.ShloMosaic.Lib.Pipeline.Value
import Idealize.ShloMosaic.Lib.ValueIdx
import Idealize.ShloMosaic.Lib.ValueLayout

set_option maxRecDepth 16384

noncomputable section

open scoped BigOperators

namespace Cert.KB.Tc

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable (c : Dev nD) (V : (b : Ref sig .tc) → Buf (Elt Ideal) ((c : Thread nD τ).loc b))

theorem hz1 : (![0, 0] : Fin 2 → Nat) = fun _ => 0 := funext fun a => by fin_cases a <;> rfl

/-- The four arrays the call reads, as functions into the extended reals: the scalar (one word), the features, the
    weights, the bias as one row. -/
abbrev ds1 : S1.Idx → EReal := V main_v1
abbrev x1 : S4096x2048.Idx → EReal := V main_arg1
abbrev w1 : S2048x128.Idx → EReal := V main_arg3
abbrev b1 : S1x128.Idx → EReal := V main_v2

/-- What the output array ends holding: the projected features of the specification, the bias read off its one row and
    the scalar off its one word. -/
def G1 : S4096x128.Idx → EReal :=
  Cert.Spec.projected (x1 c V) (w1 c V) (fun j => b1 c V (ix2 (0 : Fin 1) (j 0))) (fun _ => ds1 c V (ix1 (0 : Fin 1)))

/-- The body's payload at the ideal values, at an entry: the scalar times (the row of the first operand times the
    column of the second, plus the row vector's entry). -/
theorem pay1_apply (v0 : S1024x2048.Idx → EReal) (v1 : S2048x128.Idx → EReal) (v3 : EReal) (v4 : S1x128.Idx → EReal)
    (p : Fin 1024) (q : Fin 128) :
    k1_pay1 (F := Ideal) v0 v1 v3 v4 (ix2 p q)
      = v3 * ((∑ k : Fin 2048, v0 (ix2 p k) * v1 (ix2 k q)) + v4 (ix2 (0 : Fin 1) q)) := by
  unfold k1_pay1
  simp only [shapeCast_self]
  show v3 * (matmul (F := Ideal) dot_S1024x2048_S2048x128_S1024x128_1_0_0_1_n_n none v0 v1 (constant (F := Ideal) S1024x128 .f32 0x00000000#32) (ix2 p q)
      + broadcastTo S1024x128 v4 broadcasts_S1x128_S1024x128 (ix2 p q)) = _
  rw [broadcastTo_1b_ab_apply]
  rw [show dot_S1024x2048_S2048x128_S1024x128_1_0_0_1_n_n = DotDims.plain 1024 2048 128 from rfl]
  rw [Cert.Proof.LibPlainMatmul.matmul_plain_zero_apply]

/-- One point, over plain arrays and indices: the payload at block entry (p, q), of blocks whose entries are the
    arrays' at the places named, is the specification's entry at the output's own index e. -/
theorem point1 (s : S1.Idx → EReal) (X : S4096x2048.Idx → EReal) (Wm : S2048x128.Idx → EReal) (B : S1x128.Idx → EReal)
    (v3 : EReal) (x0 : S1024x2048.Idx → EReal) (xw : S2048x128.Idx → EReal) (x4 : S1x128.Idx → EReal)
    (p : Fin 1024) (q : Fin 128) (e : S4096x128.Idx)
    (hv : v3 = s (ix1 (0 : Fin 1)))
    (hx0 : ∀ k : Fin 2048, x0 (ix2 p k) = X (ix2 (e 0) k))
    (hxw : ∀ k : Fin 2048, xw (ix2 k q) = Wm (ix2 k (e 1)))
    (hx4 : x4 (ix2 (0 : Fin 1) q) = B (ix2 (0 : Fin 1) (e 1))) :
    k1_pay1 (F := Ideal) x0 xw v3 x4 (ix2 p q)
      = Cert.Spec.projected X Wm (fun j => B (ix2 (0 : Fin 1) (j 0))) (fun _ => s (ix1 (0 : Fin 1))) e := by
  rw [pay1_apply, hv, hx4]
  simp only [hx0, hxw]
  rfl

/-- The printed index maps, decided over the grid: the scalar, the weights and the bias stay at block 0; the features'
    blocks move with the output's, down the rows. -/
theorem idx_facts1 : ∀ t : Fin cfg1.N, win1_0.index t (0 : Fin 1) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of G1 of the arrays as the call finds them. -/
theorem flushed1_eq (t : Fin cfg1.N) :
    (dat1 c V).flushed 4 t = ((cfg1.win 4).blk t).view.read (Elt Ideal) (G1 c V) := by
  show (cfg1.win 4).cut (grid1.coords t) ((dat1 c V).after 4 t) = _
  rw [after1_4]
  unfold out1_4
  rw [View.canon_unit_zero hz1]
  simp only [View.ld_unit_zero (S := S1024x2048) hz1, View.ld_unit_zero (S := S2048x128) hz1, View.ld_unit_zero (S := S1x128) hz1]
  obtain ⟨e0, e1, e2, e3, e4, e5, e6, e7, e8⟩ := idx_facts1 t
  funext j
  have hj0 : (j 0).val < 1024 := (j 0).isLt
  have hj1 : (j 1).val < 128 := (j 1).isLt
  have hj : j = ix2 (⟨(j 0).val, hj0⟩ : Fin 1024) (⟨(j 1).val, hj1⟩ : Fin 128) := by
    funext a; match a with | ⟨0, _⟩ => rfl | ⟨1, _⟩ => rfl
  refine (congrArg (k1_pay1 (F := Ideal) (iblk1 c V 1 t) (iblk1 c V 2 t) (View.ld (iblk1 c V 0 t) r1_s x1_s) (iblk1 c V 3 t)) hj).trans ?_
  refine point1 (ds1 c V) (x1 c V) (w1 c V) (b1 c V) _ _ _ _ _ _ (((cfg1.win 4).blk t).view.emb j) ?_ ?_ ?_ ?_
  · show ds1 c V (((cfg1.win 0).blk t).view.emb (r1_s.idx x1_s)) = ds1 c V (ix1 (0 : Fin 1))
    congr 1
    funext a; apply Fin.ext
    match a with
    | ⟨0, _⟩ => show win1_0.index t (0 : Fin 1) * 1 + 1 * 0 = 0; omega
  · intro k
    show x1 c V (((cfg1.win 1).blk t).view.emb (ix2 (⟨(j 0).val, hj0⟩ : Fin 1024) k)) = x1 c V (ix2 ((((cfg1.win 4).blk t).view.emb j) 0) k)
    congr 1
    funext a; apply Fin.ext
    match a with
    | ⟨0, _⟩ => show win1_1.index t (0 : Fin 2) * 1024 + 1 * (j 0).val = win1_4.index t (0 : Fin 2) * 1024 + 1 * (j 0).val; omega
    | ⟨1, _⟩ => show win1_1.index t (1 : Fin 2) * 2048 + 1 * k.val = k.val; omega
  · intro k
    show w1 c V (((cfg1.win 2).blk t).view.emb (ix2 k (⟨(j 1).val, hj1⟩ : Fin 128))) = w1 c V (ix2 k ((((cfg1.win 4).blk t).view.emb j) 1))
    congr 1
    funext a; apply Fin.ext
    match a with
    | ⟨0, _⟩ => show win1_2.index t (0 : Fin 2) * 2048 + 1 * k.val = k.val; omega
    | ⟨1, _⟩ => show win1_2.index t (1 : Fin 2) * 128 + 1 * (j 1).val = win1_4.index t (1 : Fin 2) * 128 + 1 * (j 1).val; omega
  · show b1 c V (((cfg1.win 3).blk t).view.emb (ix2 (0 : Fin 1) (⟨(j 1).val, hj1⟩ : Fin 128))) = b1 c V (ix2 (0 : Fin 1) ((((cfg1.win 4).blk t).view.emb j) 1))
    congr 1
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the array is in point t's block iff each coordinate is in the block's range on its axis. -/
theorem mem_blk1 (t : Fin cfg1.N) (i : S4096x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v3).slice (win1_4.rect t)).set ↔ _
  rw [View.set_slice_whole, Rect.mem_set_unit]
  exact Iff.rfl

/-- Every index of the array is in some point's block: row r is in the block of point r / 1024. -/
theorem cover1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 4 := N_1
  let t : Fin cfg1.N := ⟨(i 0).val / 1024, by rw [hN]; omega⟩
  have ht : t.val = (i 0).val / 1024 := rfl
  obtain ⟨e0, e1, e2, e3, e4, e5, e6, e7, e8⟩ := idx_facts1 t
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 128 ≤ (i 1).val ∧ (i 1).val < win1_4.index t (1 : Fin 2) * 128 + 128; omega

/-- The output array after the last point: the specification's projected features of the arrays the call finds. -/
theorem arr1_out : (dat1 (F := Ideal) c V).arrAt 4 cfg1.N
    = Cert.Spec.projected (x1 c V) (w1 c V) (fun j => b1 c V (ix2 (0 : Fin 1) (j 0))) (fun _ => ds1 c V (ix1 (0 : Fin 1))) :=
  (dat1 c V).arrAt_eq_of_cover 4 (G1 c V) (fun t _ => flushed1_eq c V t) (cover1)

end Cert.KB.Tc

end
-- ==== Proof.KBTc2Val.lean ====
/-
  The second TensorCore call's output array after its last grid point, at the ideal values, as one function of
  the arrays the call finds: entry (r, j) is the scalar times entry (r, j) of the gathered rows plus entry (r, j) of
  the projected features.  Each point writes back its block of that function (the input windows move with the
  output window, block for block), and the two blocks of 2048 rows cover the 4096 rows.
-/
import proofs.«205810_g90829968376338_cont_sun_m_901_13_alg».proof.Proof.KBTc2
import Idealize.ShloMosaic.Lib.Pipeline.Value
import Idealize.ShloMosaic.Lib.ValueIdx
import Idealize.ShloMosaic.Lib.ValueLayout

set_option maxRecDepth 16384

noncomputable section

open scoped BigOperators

namespace Cert.KB.Tc

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable (c : Dev nD) (V : (b : Ref sig .tc) → Buf (Elt Ideal) ((c : Thread nD τ).loc b))

theorem hz2 : (![0, 0] : Fin 2 → Nat) = fun _ => 0 := funext fun a => by fin_cases a <;> rfl

/-- The three arrays the call reads, as functions into the extended reals: the scalar (one word), the gathered rows, the
    projected features. -/
abbrev cs2 : S1.Idx → EReal := V main_v4
abbrev emb2 : S4096x128.Idx → EReal := V main_v0
abbrev p2 : S4096x128.Idx → EReal := V main_v3

/-- What the output array ends holding: the scalar times the first array plus the second, index by index. -/
def G2 : S4096x128.Idx → EReal := fun i => cs2 c V (ix1 (0 : Fin 1)) * emb2 c V i + p2 c V i

/-- The body's payload at the ideal values, at an index. -/
theorem pay2_apply (v0 : EReal) (x1 x5 : S2048x128.Idx → EReal) (j : S2048x128.Idx) :
    k2_pay1 (F := Ideal) v0 x1 x5 j = v0 * x1 j + x5 j := by
  unfold k2_pay1
  simp only [shapeCast_self]
  rfl

/-- One point, over plain arrays and indices: the payload of a scalar read at the word e0, a block whose entry j is the
    first array's at e1 and a block whose entry j is the second's at e2, these three being the scalar's one index and
    the output's own index e3, is the result array's entry at e3. -/
theorem point2 (s : S1.Idx → EReal) (A B : S4096x128.Idx → EReal) (e0 : S1.Idx) (e1 e2 e3 : S4096x128.Idx)
    (h0 : e0 = ix1 (0 : Fin 1)) (h1 : e1 = e3) (h2 : e2 = e3) (v0 : EReal) (x1 x5 : S2048x128.Idx → EReal) (j : S2048x128.Idx)
    (hv : v0 = s e0) (hx1 : x1 j = A e1) (hx5 : x5 j = B e2) :
    k2_pay1 (F := Ideal) v0 x1 x5 j = s (ix1 (0 : Fin 1)) * A e3 + B e3 := by
  rw [pay2_apply, hv, hx1, hx5, h0, h1, h2]

theorem idx_facts2 : ∀ t : Fin cfg2.N, win2_0.index t (0 : Fin 1) = 0
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) = t.val ∧ win2_3.index t (1 : Fin 2) = 0 :=
  (by decide +kernel : ∀ t : Fin grid2.N, _)

theorem flushed2_eq (t : Fin cfg2.N) :
    (dat2 c V).flushed 3 t = ((cfg2.win 3).blk t).view.read (Elt Ideal) (G2 c V) := by
  show (cfg2.win 3).cut (grid2.coords t) ((dat2 c V).after 3 t) = _
  rw [after2_3]
  unfold out2_3
  rw [View.canon_unit_zero hz2]
  simp only [View.ld_unit_zero (S := S2048x128) hz2]
  obtain ⟨e0, e1, e2, e3, e4, e5, e6⟩ := idx_facts2 t
  funext j
  have h0 : ((cfg2.win 0).blk t).view.emb (r2_s.idx x2_s) = ix1 (0 : Fin 1) := by
    funext a; apply Fin.ext
    match a with
    | ⟨0, _⟩ => show win2_0.index t (0 : Fin 1) * 1 + 1 * 0 = 0; omega
  have h1 : ((cfg2.win 1).blk t).view.emb j = ((cfg2.win 3).blk t).view.emb j := by
    funext a; apply Fin.ext
    match a with
    | ⟨0, _⟩ => show win2_1.index t (0 : Fin 2) * 2048 + 1 * (j 0).val = win2_3.index t (0 : Fin 2) * 2048 + 1 * (j 0).val; omega
    | ⟨1, _⟩ => show win2_1.index t (1 : Fin 2) * 128 + 1 * (j 1).val = win2_3.index t (1 : Fin 2) * 128 + 1 * (j 1).val; omega
  have h2 : ((cfg2.win 2).blk t).view.emb j = ((cfg2.win 3).blk t).view.emb j := by
    funext a; apply Fin.ext
    match a with
    | ⟨0, _⟩ => show win2_2.index t (0 : Fin 2) * 2048 + 1 * (j 0).val = win2_3.index t (0 : Fin 2) * 2048 + 1 * (j 0).val; omega
    | ⟨1, _⟩ => show win2_2.index t (1 : Fin 2) * 128 + 1 * (j 1).val = win2_3.index t (1 : Fin 2) * 128 + 1 * (j 1).val; omega
  exact point2 (cs2 c V) (emb2 c V) (p2 c V) _ _ _ _ h0 h1 h2 _ _ _ j rfl rfl rfl

/-- An index of the array is in point t's block iff each coordinate is in the block's range on its axis. -/
theorem mem_blk2 (t : Fin cfg2.N) (i : S4096x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v5).slice (win2_3.rect t)).set ↔ _
  rw [View.set_slice_whole, Rect.mem_set_unit]
  exact Iff.rfl

/-- Every index of the array is in some point's block: row r is in the block of point r / 2048. -/
theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have hN : cfg2.N = 2 := N_2
  let t : Fin cfg2.N := ⟨(i 0).val / 2048, by rw [hN]; omega⟩
  have ht : t.val = (i 0).val / 2048 := rfl
  obtain ⟨e0, e1, e2, e3, e4, e5, e6⟩ := idx_facts2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

/-- The output array after the last point, as one function of the arrays the call finds. -/
theorem arr2_out : (dat2 (F := Ideal) c V).arrAt 3 cfg2.N = fun i => cs2 c V (ix1 (0 : Fin 1)) * emb2 c V i + p2 c V i :=
  (dat2 c V).arrAt_eq_of_cover 3 (G2 c V) (fun t _ => flushed2_eq c V t) (cover2)

end Cert.KB.Tc

end
-- ==== Proof.KBWalk.lean ====
/-
  The contents of the TensorCore's buffers after its last item, read back through the items to the launch memory.
  No item writes an argument array, so each argument ends as launched.  The result array ends, at the ideal
  values, at the specification's function of the seven arguments: the second call leaves cs times the gathered
  rows plus the projected features; the scalar it reads is the one element of the reshaped cs; the gathered rows
  are what the gather left; the projected features are what the first call leaves, whose scalar and bias row are
  the reshaped ds and b.
-/
import proofs.«205810_g90829968376338_cont_sun_m_901_13_alg».proof.Proof.KBSegs
import proofs.«205810_g90829968376338_cont_sun_m_901_13_alg».proof.Proof.KBTc1Val
import proofs.«205810_g90829968376338_cont_sun_m_901_13_alg».proof.Proof.KBTc2Val
import Idealize.ShloMosaic.Lib.ValueLayout

noncomputable section

open scoped BigOperators

namespace Cert.KB

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

section Arguments

variable {F : FTy → Type} [FloatOps F]
variable (m : (ℓ : Loc nD τ sig) → Buf (Elt F) ℓ)

/-! ## One item back at a buffer the item does not write -/

/-- The gather writes the gathered rows' array only. -/
theorem W1_of_ne (c : Dev nD) {b : Ref sig .tc} (h : b ≠ main_v0) :
    W1 m c (Proc.devRef .tc b) = m ((c : Thread nD τ).loc b) := by
  unfold W1
  rw [Function.update_of_ne (StableHlo.devRef_ne_of_ne h)]

/-- The two reshapes write the one-element ds and the one-row b only. -/
theorem W2_of_ne (c : Dev nD) {b : Ref sig .tc} (h1 : b ≠ main_v1) (h2 : b ≠ main_v2) :
    W2 m c (Proc.devRef .tc b) = W1 m c (Proc.devRef .tc b) := by
  show StableHlo.after hostOps0 (W1 m c) (Proc.devRef .tc b) = _
  simp only [StableHlo.after_cons, StableHlo.after_nil]
  rw [StableHlo.reshape_result_ne _ _ _ _ _ _ _ h2, StableHlo.reshape_result_ne _ _ _ _ _ _ _ h1]

/-- The third reshape writes the one-element cs only. -/
theorem W4_of_ne (c : Dev nD) {b : Ref sig .tc} (h : b ≠ main_v4) :
    W4 m c (Proc.devRef .tc b) = W3 m c (Proc.devRef .tc b) := by
  show StableHlo.after hostOps1 (W3 m c) (Proc.devRef .tc b) = _
  simp only [StableHlo.after_cons, StableHlo.after_nil]
  rw [StableHlo.reshape_result_ne _ _ _ _ _ _ _ h]

/-- An input window's array is left by the first call as it was found. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((Tc.dat1 c (V2 m c)).arrAt_in w hw _).trans (Tc.A_eq1 c (V2 m c) w))

/-- An input window's array is left by the second call as it was found. -/
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((Tc.dat2 c (V4 m c)).arrAt_in w hw _).trans (Tc.A_eq2 c (V4 m c) w))

/-! ## The arguments end as launched -/

theorem W5_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c (by decide)
    _ = W2 m c (Proc.devRef .tc main_arg0) := W3_of_ne m c main_arg0 (by decide)
    _ = W1 m c (Proc.devRef .tc main_arg0) := W2_of_ne m c (by decide) (by decide)
    _ = m ((c : Thread nD τ).loc main_arg0) := W1_of_ne m c (by decide)

theorem W5_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c (by decide)
    _ = W2 m c (Proc.devRef .tc main_arg1) := W3_in m c 1 rfl
    _ = W1 m c (Proc.devRef .tc main_arg1) := W2_of_ne m c (by decide) (by decide)
    _ = m ((c : Thread nD τ).loc main_arg1) := W1_of_ne m c (by decide)

theorem W5_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c (by decide)
    _ = W2 m c (Proc.devRef .tc main_arg2) := W3_of_ne m c main_arg2 (by decide)
    _ = W1 m c (Proc.devRef .tc main_arg2) := W2_of_ne m c (by decide) (by decide)
    _ = m ((c : Thread nD τ).loc main_arg2) := W1_of_ne m c (by decide)

theorem W5_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c (by decide)
    _ = W2 m c (Proc.devRef .tc main_arg3) := W3_in m c 2 rfl
    _ = W1 m c (Proc.devRef .tc main_arg3) := W2_of_ne m c (by decide) (by decide)
    _ = m ((c : Thread nD τ).loc main_arg3) := W1_of_ne m c (by decide)

theorem W5_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c (by decide)
    _ = W2 m c (Proc.devRef .tc main_arg4) := W3_of_ne m c main_arg4 (by decide)
    _ = W1 m c (Proc.devRef .tc main_arg4) := W2_of_ne m c (by decide) (by decide)
    _ = m ((c : Thread nD τ).loc main_arg4) := W1_of_ne m c (by decide)

theorem W5_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of_ne m c (by decide)
    _ = W2 m c (Proc.devRef .tc main_arg5) := W3_of_ne m c main_arg5 (by decide)
    _ = W1 m c (Proc.devRef .tc main_arg5) := W2_of_ne m c (by decide) (by decide)
    _ = m ((c : Thread nD τ).loc main_arg5) := W1_of_ne m c (by decide)

theorem W5_arg6 (c : Dev nD) : W5 m c (Proc.devRef .tc main_arg6) = m ((c : Thread nD τ).loc main_arg6) :=
  calc W5 m c (Proc.devRef .tc main_arg6)
    _ = W4 m c (Proc.devRef .tc main_arg6) := W5_of_ne m c main_arg6 (by decide)
    _ = W3 m c (Proc.devRef .tc main_arg6) := W4_of_ne m c (by decide)
    _ = W2 m c (Proc.devRef .tc main_arg6) := W3_of_ne m c main_arg6 (by decide)
    _ = W1 m c (Proc.devRef .tc main_arg6) := W2_of_ne m c (by decide) (by decide)
    _ = m ((c : Thread nD τ).loc main_arg6) := W1_of_ne m c (by decide)

end Arguments

section Result

variable (m : (ℓ : Loc nD τ sig) → Buf (Elt Ideal) ℓ)

/-! ## The launch arrays, as functions of the specification's types -/

abbrev L0 (c : Dev nD) : Cert.Spec.SIdx.Idx → BitVec 32 := m ((c : Thread nD τ).loc main_arg0)
abbrev L1 (c : Dev nD) : Cert.Spec.SX.Idx → EReal := m ((c : Thread nD τ).loc main_arg1)
abbrev L2 (c : Dev nD) : Cert.Spec.STab.Idx → EReal := m ((c : Thread nD τ).loc main_arg2)
abbrev L3 (c : Dev nD) : Cert.Spec.SW.Idx → EReal := m ((c : Thread nD τ).loc main_arg3)
abbrev L4 (c : Dev nD) : Cert.Spec.SB.Idx → EReal := m ((c : Thread nD τ).loc main_arg4)
abbrev L5 (c : Dev nD) : Cert.Spec.S0.Idx → EReal := m ((c : Thread nD τ).loc main_arg5)
abbrev L6 (c : Dev nD) : Cert.Spec.S0.Idx → EReal := m ((c : Thread nD τ).loc main_arg6)

/-- A scalar reshaped to one element reads, at its one index, the scalar. -/
theorem shapeCast_scalar_one {α : Type} (x : S_.Idx → α) (h : S_.ShapeCasts S1) : shapeCast S1 x h (ix1 (0 : Fin 1)) = x ix0 :=
  shapeCast_apply x h _ _ (by
    have h1 : (S_.rowMajor ix0).val < S_.numel := (S_.rowMajor ix0).isLt
    have h2 : (S1.rowMajor (ix1 (0 : Fin 1))).val < S1.numel := (S1.rowMajor (ix1 (0 : Fin 1))).isLt
    have e1 : S_.numel = 1 := by decide
    have e2 : S1.numel = 1 := by decide
    omega)

/-! ## What the first call finds -/

theorem V2_x (c : Dev nD) : Tc.x1 c (V2 m c) = L1 m c :=
  (W2_of_ne m c (by decide) (by decide)).trans (W1_of_ne m c (by decide))

theorem V2_w (c : Dev nD) : Tc.w1 c (V2 m c) = L3 m c :=
  (W2_of_ne m c (by decide) (by decide)).trans (W1_of_ne m c (by decide))

/-- The scalar window's word is ds. -/
theorem V2_ds (c : Dev nD) : Tc.ds1 c (V2 m c) (ix1 (0 : Fin 1)) = L6 m c ix0 := by
  have h : W2 m c (Proc.devRef .tc main_v1) = fun i => shapeCast S1 (L6 m c) shapeCasts_S_S1 i := by
    show StableHlo.after hostOps0 (W1 m c) (Proc.devRef .tc main_v1) = _
    simp only [StableHlo.after_cons, StableHlo.after_nil]
    rw [StableHlo.reshape_result_ne _ _ _ _ _ _ _ (by decide : main_v1 ≠ main_v2), StableHlo.reshape_result,
      W1_of_ne m c (by decide : main_arg6 ≠ main_v0)]
    rfl
  show W2 m c (Proc.devRef .tc main_v1) (ix1 (0 : Fin 1)) = _
  rw [h]
  exact shapeCast_scalar_one _ _

/-- The bias window's row is b. -/
theorem V2_b (c : Dev nD) (q : Fin 128) : Tc.b1 c (V2 m c) (ix2 (0 : Fin 1) q) = L4 m c (ix1 q) := by
  have h : W2 m c (Proc.devRef .tc main_v2) = fun i => shapeCast S1x128 (L4 m c) shapeCasts_S128_S1x128 i := by
    show StableHlo.after hostOps0 (W1 m c) (Proc.devRef .tc main_v2) = _
    simp only [StableHlo.after_cons, StableHlo.after_nil]
    rw [StableHlo.reshape_result, StableHlo.reshape_result_ne _ _ _ _ _ _ _ (by decide : main_arg4 ≠ main_v1),
      W1_of_ne m c (by decide : main_arg4 ≠ main_v0)]
    rfl
  show W2 m c (Proc.devRef .tc main_v2) (ix2 (0 : Fin 1) q) = _
  rw [h]
  exact shapeCast_a_1a_apply _ _ _ _

/-! ## What the second call finds -/

/-- The scalar window's word is cs. -/
theorem V4_cs (c : Dev nD) : Tc.cs2 c (V4 m c) (ix1 (0 : Fin 1)) = L5 m c ix0 := by
  have h : W4 m c (Proc.devRef .tc main_v4) = fun i => shapeCast S1 (L5 m c) shapeCasts_S_S1 i := by
    show StableHlo.after hostOps1 (W3 m c) (Proc.devRef .tc main_v4) = _
    simp only [StableHlo.after_cons, StableHlo.after_nil]
    rw [StableHlo.reshape_result, W3_of_ne m c main_arg5 (by decide), W2_of_ne m c (by decide) (by decide),
      W1_of_ne m c (by decide : main_arg5 ≠ main_v0)]
    rfl
  show W4 m c (Proc.devRef .tc main_v4) (ix1 (0 : Fin 1)) = _
  rw [h]
  exact shapeCast_scalar_one _ _

/-- The gathered rows' array is what the gather left. -/
theorem V4_emb (c : Dev nD) : Tc.emb2 c (V4 m c) = Cert.Spec.gathered (L0 m c) (L2 m c) := by
  show W4 m c (Proc.devRef .tc main_v0) = _
  rw [W4_of_ne m c (by decide), W3_of_ne m c main_v0 (by decide), W2_of_ne m c (by decide) (by decide)]
  unfold W1
  rw [Function.update_self]
  rfl

/-- The projected features' array is what the first call left: the specification's, of the launch arrays. -/
theorem V4_p (c : Dev nD) : Tc.p2 c (V4 m c) = Cert.Spec.projected (L1 m c) (L3 m c) (L4 m c) (L6 m c) := by
  show W4 m c (Proc.devRef .tc main_v3) = _
  rw [W4_of_ne m c (by decide)]
  refine (W3_arr m c 4).trans ?_
  rw [Tc.arr1_out]
  have hb : (fun j : Cert.Spec.SB.Idx => Tc.b1 c (V2 m c) (ix2 (0 : Fin 1) (j 0))) = L4 m c :=
    funext fun j => (V2_b m c (j 0)).trans (congrArg (L4 m c) (eq_ix1 j).symm)
  have hd : (fun _ : Cert.Spec.S0.Idx => Tc.ds1 c (V2 m c) (ix1 (0 : Fin 1))) = L6 m c :=
    funext fun j => (V2_ds m c).trans (congrArg (L6 m c) (eq_ix0 j).symm)
  exact congr (congr (congr (congrArg Cert.Spec.projected (V2_x m c)) (V2_w m c)) hb) hd

/-! ## The result -/

/-- The result array after the last item is the specification's function of the seven launch arrays. -/
theorem W5_out (c : Dev nD) : W5 (F := Ideal) m c (Proc.devRef .tc main_v5)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W5_arr m c 3).trans ?_
  rw [Tc.arr2_out]
  funext i
  show Tc.cs2 c (V4 m c) (ix1 (0 : Fin 1)) * Tc.emb2 c (V4 m c) i + Tc.p2 c (V4 m c) i
    = L5 m c ix0 * Cert.Spec.gathered (L0 m c) (L2 m c) i + Cert.Spec.projected (L1 m c) (L3 m c) (L4 m c) (L6 m c) i
  rw [V4_cs, V4_emb, V4_p]

end Result

end Cert.KB

end
-- ==== Proof.RefRun.lean ====
/-
  The reference program's run.  Its @main is a straight line of host tensor operations once the two helper
  functions it calls are unfolded at their call sites: the index lookup's twenty-three operations (the
  wrap of negative indices, the in-range mask, the row gather and the fill of out-of-range rows), then the
  matrix product, the bias's two broadcasts, and the scaling and the sum.  From any memory with zero
  counters every weakly fair execution terminates, each buffer holding the operations' fold over the launch
  contents; the seven argument buffers are written by no operation.
-/
import proofs.«205810_g90829968376338_cont_sun_m_901_13_alg».proof.ReferenceIdeal
import proofs.«205810_g90829968376338_cont_sun_m_901_13_alg».proof.Proof.Gen.ReferenceIdeal
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- @main's thirty-two operations in order, the calls unfolded: the lookup's twenty-three over the call's
    buffer record (the select of the inner helper seventh), then @main's own nine. -/
abbrev ops : List (HloOp τ sig (Elt F)) :=
  [ TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 1000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg2) main_call0.v5 main_call0.v13 (fun x i => Host.gather gather_S1000x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select,
    binary main_arg1 main_arg3 main_v1 ((fun l r => Host.dotGeneral dot_S4096x2048_S2048x128_S4096x128_1_0_0_1_n_n none l r) : (⟨S4096x2048, .f32⟩ : BufTy).Contents (Elt F) → (⟨S2048x128, .f32⟩ : BufTy).Contents (Elt F) → (⟨S4096x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S4096x128 ![0, 1] bcast_S1x128_S4096x128_0_1 : (⟨S1x128, .f32⟩ : BufTy).Contents (Elt F) → (⟨S4096x128, .f32⟩ : BufTy).Contents (Elt F)),
    binary main_v1 main_v3 main_v4 (addf : (⟨S4096x128, .f32⟩ : BufTy).Contents (Elt F) → (⟨S4096x128, .f32⟩ : BufTy).Contents (Elt F) → (⟨S4096x128, .f32⟩ : BufTy).Contents (Elt F)),
    unary main_arg5 main_v5 (broadcastInDim S4096x128 ![] bcast_S_S4096x128 : (⟨S_, .f32⟩ : BufTy).Contents (Elt F) → (⟨S4096x128, .f32⟩ : BufTy).Contents (Elt F)),
    binary main_v5 main_v0 main_v6 (mulf : (⟨S4096x128, .f32⟩ : BufTy).Contents (Elt F) → (⟨S4096x128, .f32⟩ : BufTy).Contents (Elt F) → (⟨S4096x128, .f32⟩ : BufTy).Contents (Elt F)),
    unary main_arg6 main_v7 (broadcastInDim S4096x128 ![] bcast_S_S4096x128 : (⟨S_, .f32⟩ : BufTy).Contents (Elt F) → (⟨S4096x128, .f32⟩ : BufTy).Contents (Elt F)),
    binary main_v7 main_v4 main_v8 (mulf : (⟨S4096x128, .f32⟩ : BufTy).Contents (Elt F) → (⟨S4096x128, .f32⟩ : BufTy).Contents (Elt F) → (⟨S4096x128, .f32⟩ : BufTy).Contents (Elt F)),
    binary main_v6 main_v8 main_v9 (addf : (⟨S4096x128, .f32⟩ : BufTy).Contents (Elt F) → (⟨S4096x128, .f32⟩ : BufTy).Contents (Elt F) → (⟨S4096x128, .f32⟩ : BufTy).Contents (Elt F)) ]

-- thirty-two binds re-associated under the chain
set_option maxRecDepth 1024 in
/-- @main is that straight line: the two helpers' definitions unfolded at their calls and the call's record at
    its fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., unary_bufs_sub .., binary_bufs_sub ..,
    unary_bufs_sub .., binary_bufs_sub .., binary_bufs_sub ..⟩

/-- At the compiled mesh, for any float values, from any memory with zero counters: every weakly fair execution
    of @main terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! The argument buffers are written by no operation. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

end Cert.RefHand

end
-- ==== Proof.LibPlainDot.lean ====
import Idealize.ShloMosaic.PureOps.Ideal.Laws
import Idealize.ShloMosaic.Lib.ValueLayout
import Idealize.ShloMosaic.Lib.ValueIdx

/-!
The host's `dot_general` of a plain matrix product (rows by contraction, times contraction by columns),
read at one entry at the ideal values: the sum over the contracted coordinate of the products of the two
operands' entries — whatever the sizes, whatever the operands' float formats, with no accumulator and no
order of summation left in it.
-/

noncomputable section

namespace Cert.Proof.LibPlainDot

open Idealize.ShloMosaic Idealize.ShloMosaic.ValueIdx

/-- The plain `m × k` by `k × n` host product, at entry `(a, b)`, is `∑ c, A (a, c) * B (c, b)`. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (F := Ideal) (DotDims.plain m k n) prec A B (ix2 a b)
      = ∑ c : Fin k, A (ix2 a c) * B (ix2 c b) := by
  simp only [Host.dotGeneral]
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.Proof.LibPlainDot

end
-- ==== Proof.LibRowOps.lean ====
/-
  Row operations of a two-axis array read at an index.

  A gather of rows: the operand is n × q, the start indices an m × 1 array of words, and row e of the result is the
  operand's row at the word of e read signed and clamped into 0 … n − 1 (the slice is one whole row, so the clamp's upper
  end is n − 1).  Its rank-1 sibling gathers entries of a vector of n entries.

  An accumulating scatter of rows: update row e is added to operand row i exactly when the word of e, read signed and
  not clamped, is i; the column is kept.  So entry (i, c) of the result is the operand's entry plus the sum, over the
  rows e whose word is i, of update entry (e, c).

  Two facts about extended reals used beside them: a finite sum times a factor that is nonnegative and not ⊤ distributes,
  and the guarded reciprocal square root (0 unless the argument is positive) is nonnegative and never ⊤.
-/
import Idealize.ShloMosaic.Lib.ValueIdx
import Idealize.ShloMosaic.PureOps.Ideal.Laws

noncomputable section

open scoped BigOperators

namespace RowOps

open Idealize.ShloMosaic Idealize.ShloMosaic.ValueIdx

/-- a word read signed, a negative one as 0, capped at n - 1 -/
def clampRow (n : Nat) (hn : 0 < n) {wd : Nat} (x : BitVec wd) : Fin n := ⟨min x.toInt.toNat (n - 1), by omega⟩

/-! ## A gather of rows -/

section GatherRows
variable {α : Type} {n m q wd : Nat}

/-- The dimension numbers of a gather of rows as a literal record over given conditions. -/
abbrev rowGatherDims (n m q : Nat)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

/-- The gather of rows read at (e, c), for the literal record: the operand at the clamped word of row e, column c. -/
theorem rowGatherDims_apply (wf : GatherDims.WF ⟨2, ![n, q]⟩ ⟨2, ![m, 1]⟩ ⟨2, ![m, q]⟩ [1] [0] [] [0] [] 1 ![1, q])
    (hn : 0 < n) (x : (⟨2, ![n, q]⟩ : Shape).Idx → α) (idx : IVec (⟨2, ![m, 1]⟩ : Shape) wd) (e : Fin m) (c : Fin q) :
    Host.gather (rowGatherDims n m q wf) x idx (ix2 e c) = x (ix2 (clampRow n hn (idx (ix2 e (0 : Fin 1)))) c) := by
  unfold Host.gather
  congr 1
  funext a
  refine Fin.ext ?_
  match a with
  | ⟨0, _⟩ =>
    show (rowGatherDims n m q wf).start (ix2 e c) idx 0 + (rowGatherDims n m q wf).batchCoord (ix2 e c) 0
      + (rowGatherDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n m q wf).startIndexMap from List.mem_singleton.mpr rfl)]
    have hsi : (rowGatherDims n m q wf).siIdx (ix2 e c) ⟨List.idxOf (0 : Fin 2) (rowGatherDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims n m q wf).start (ix2 e c) idx 1 + (rowGatherDims n m q wf).batchCoord (ix2 e c) 1
      + (rowGatherDims n m q wf).offCoord (ix2 e c) 1 = c.val
    rw [GatherDims.batchCoord_eq_zero _ _ _ List.not_mem_nil]
    have hst : (rowGatherDims n m q wf).start (ix2 e c) idx 1 = 0 := by
      unfold GatherDims.start
      rw [dif_neg (show ¬ (1 : Fin 2) ∈ ([0] : List (Fin 2)) by decide)]
    have hoff : (rowGatherDims n m q wf).offCoord (ix2 e c) 1 = c.val := by
      unfold GatherDims.offCoord
      have hmem : (1 : Fin 2) ∈ (rowGatherDims n m q wf).sKept :=
        (GatherDims.mem_sKept _ _).mpr ⟨show ¬ (1 : Fin 2) ∈ ([0] : List (Fin 2)) by decide, List.not_mem_nil⟩
      rw [dif_pos hmem]
      rfl
    rw [hst, hoff]; simp

/-- THE GATHER OF ROWS READ AT (e, c), for any record with these fields: the operand at the word of row e, read signed
    and clamped into 0 … n − 1, column c. -/
theorem gather_rows_apply {α : Type} {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) wd) (e : Fin m) (c : Fin q) :
    Host.gather gd x idx (ix2 e c) = x (ix2 (clampRow n hn (idx (ix2 e (0 : Fin 1)))) c) := by
  obtain ⟨od, cd, ob, sb, sm, iv, ss, wf⟩ := gd
  dsimp only at ho hc hob hsb hm hv hs
  subst ho hc hob hsb hm hv hs
  exact rowGatherDims_apply wf hn x idx e c

end GatherRows

/-! ## An accumulating scatter of rows -/

section ScatterRows
variable {n m q wd : Nat}

/-- The dimension numbers of a scatter of rows as a literal record over given conditions. -/
abbrev rowScatterDims (n m q : Nat) (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

/-- On the row axis, start plus window coordinate of update (e, c') is the word of row e read signed. -/
theorem rowScatterDims_axis0 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 0 + ((rowScatterDims n m q wf).window (ix2 e c') 0 : Nat)
      = (idx (ix2 e (0 : Fin 1))).toInt := by
  have hw : (rowScatterDims n m q wf).window (ix2 e c') 0 = 0 := by
    unfold ScatterDims.window
    have hmem : ¬ (0 : Fin 2) ∈ (rowScatterDims n m q wf).sKept := by
      show ¬ (0 : Fin 2) ∈ (List.finRange 2).filter (· ∉ ([0] : List (Fin 2)))
      decide
    rw [dif_neg hmem]
  have hs : (rowScatterDims n m q wf).start (ix2 e c') idx 0 = (idx (ix2 e (0 : Fin 1))).toInt := by
    unfold ScatterDims.start
    rw [dif_pos (show (0 : Fin 2) ∈ (rowScatterDims n m q wf).scatterDimsToOperandDims from List.mem_cons_self)]
    have hsi : (rowScatterDims n m q wf).siIdx (ix2 e c')
        ⟨List.idxOf (0 : Fin 2) (rowScatterDims n m q wf).scatterDimsToOperandDims,
          List.idxOf_lt_length_iff.2 List.mem_cons_self⟩ = ix2 e (0 : Fin 1) := by
      funext b; refine Fin.ext ?_
      match b with
      | ⟨0, _⟩ => rfl
      | ⟨1, _⟩ => rfl
    rw [hsi]
  rw [hw, hs]; simp

/-- On the column axis, start plus window coordinate of update (e, c') is c'. -/
theorem rowScatterDims_axis1 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 1 + ((rowScatterDims n m q wf).window (ix2 e c') 1 : Nat)
      = (c'.val : Int) := by
  have hw : (rowScatterDims n m q wf).window (ix2 e c') 1 = c'.val := by
    unfold ScatterDims.window
    have hmem : (1 : Fin 2) ∈ (rowScatterDims n m q wf).sKept := by
      show (1 : Fin 2) ∈ (List.finRange 2).filter (· ∉ ([0] : List (Fin 2)))
      decide
    rw [dif_pos hmem]
    rfl
  have hs : (rowScatterDims n m q wf).start (ix2 e c') idx 1 = 0 := by
    unfold ScatterDims.start
    rw [dif_neg (show ¬ (1 : Fin 2) ∈ ([0] : List (Fin 2)) by decide)]
  rw [hw, hs]; simp

/-- Update (e, c') lands on entry (i, c) exactly when the word of row e read signed is i and c' = c: the literal
    record. -/
theorem rowScatterDims_resultIdx (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) (i : Fin n) (c : Fin q) :
    (rowScatterDims n m q wf).resultIdx? (ix2 e c') idx = some (ix2 i c)
      ↔ (idx (ix2 e (0 : Fin 1))).toInt = (i.val : Int) ∧ c' = c := by
  have h0 := rowScatterDims_axis0 wf idx e c'
  have h1 := rowScatterDims_axis1 wf idx e c'
  have hi := i.isLt
  have hc' := c'.isLt
  unfold ScatterDims.resultIdx?
  constructor
  · intro h
    split at h
    · have e0 := congrArg Fin.val (congrFun (Option.some.inj h) 0)
      have e1 := congrArg Fin.val (congrFun (Option.some.inj h) 1)
      change ((rowScatterDims n m q wf).start (ix2 e c') idx 0
        + ((rowScatterDims n m q wf).window (ix2 e c') 0 : Nat)).toNat = i.val at e0
      change ((rowScatterDims n m q wf).start (ix2 e c') idx 1
        + ((rowScatterDims n m q wf).window (ix2 e c') 1 : Nat)).toNat = c.val at e1
      rename_i hall
      have a0 := hall 0
      rw [h0] at e0 a0
      rw [h1] at e1
      exact ⟨by omega, Fin.ext (by omega)⟩
    · cases h
  · rintro ⟨hw, rfl⟩
    have hall : ∀ a : Fin 2, 0 ≤ (rowScatterDims n m q wf).start (ix2 e c') idx a
          + ((rowScatterDims n m q wf).window (ix2 e c') a : Nat)
        ∧ (rowScatterDims n m q wf).start (ix2 e c') idx a + ((rowScatterDims n m q wf).window (ix2 e c') a : Nat)
          < ((⟨2, ![n, q]⟩ : Shape).size a : Nat) := by
      intro a
      match a with
      | ⟨0, _⟩ =>
        show 0 ≤ (rowScatterDims n m q wf).start (ix2 e c') idx 0 + ((rowScatterDims n m q wf).window (ix2 e c') 0 : Nat)
          ∧ (rowScatterDims n m q wf).start (ix2 e c') idx 0 + ((rowScatterDims n m q wf).window (ix2 e c') 0 : Nat)
            < (n : Int)
        rw [h0]; omega
      | ⟨1, _⟩ =>
        show 0 ≤ (rowScatterDims n m q wf).start (ix2 e c') idx 1 + ((rowScatterDims n m q wf).window (ix2 e c') 1 : Nat)
          ∧ (rowScatterDims n m q wf).start (ix2 e c') idx 1 + ((rowScatterDims n m q wf).window (ix2 e c') 1 : Nat)
            < (q : Int)
        rw [h1]; omega
    rw [dif_pos hall]
    congr 1
    funext a
    refine Fin.ext ?_
    match a with
    | ⟨0, _⟩ =>
      show ((rowScatterDims n m q wf).start (ix2 e c') idx 0
        + ((rowScatterDims n m q wf).window (ix2 e c') 0 : Nat)).toNat = i.val
      rw [h0]; omega
    | ⟨1, _⟩ =>
      show ((rowScatterDims n m q wf).start (ix2 e c') idx 1
        + ((rowScatterDims n m q wf).window (ix2 e c') 1 : Nat)).toNat = c'.val
      rw [h1]; omega

/-- UPDATE (e, c') LANDS ON ENTRY (i, c) EXACTLY WHEN THE WORD OF ROW e READ SIGNED IS i AND c' = c, for any record with
    these fields. -/
theorem resultIdx_rows (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (idx : IVec (⟨2, ![m, 1]⟩ : Shape) wd) (e : Fin m) (c' : Fin q) (i : Fin n) (c : Fin q) :
    d.resultIdx? (ix2 e c') idx = some (ix2 i c) ↔ (idx (ix2 e (0 : Fin 1))).toInt = (i.val : Int) ∧ c' = c := by
  obtain ⟨uw, iw, sd, iv, wf⟩ := d
  dsimp only at hu hi hs hv
  subst hu hi hs hv
  exact rowScatterDims_resultIdx wf idx e c' i c

/-- ENTRY (i, c) OF THE ACCUMULATING SCATTER OF ROWS: the operand's entry plus the sum, over the update rows whose word
    read signed is i, of their entries in column c. -/
theorem scatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Ideal.hostScatterAdd d x idx upd (ix2 i c)
      = x (ix2 i c) + ∑ e ∈ Finset.univ.filter (fun e : Fin m => (idx (ix2 e (0 : Fin 1))).toInt = (i.val : Int)), upd (ix2 e c) := by
  unfold Ideal.hostScatterAdd
  congr 1
  rw [Finset.sum_filter, Finset.sum_filter, sum_idx2]
  refine Finset.sum_congr rfl fun e _ => ?_
  have hterm : ∀ c' : Fin q,
      (if d.resultIdx? (ix2 e c') idx = some (ix2 i c) then upd (ix2 e c') else 0)
        = if c' = c then (if (idx (ix2 e (0 : Fin 1))).toInt = (i.val : Int) then upd (ix2 e c) else 0) else 0 := by
    intro c'
    rw [if_congr (resultIdx_rows d hu hi hs hv idx e c' i c) rfl rfl]
    by_cases hcc : c' = c
    · subst hcc; simp
    · simp [hcc]
  rw [Finset.sum_congr rfl fun c' _ => hterm c']
  simp

end ScatterRows

/-! ## A gather of entries of a vector -/

section GatherVec
variable {α : Type} {n m wd : Nat}

/-- The dimension numbers of a gather of entries of a vector as a literal record over given conditions. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The gather of entries read at e, for the literal record: the operand at the clamped word of row e. -/
theorem vecGatherDims_apply (wf : GatherDims.WF ⟨1, ![n]⟩ ⟨2, ![m, 1]⟩ ⟨1, ![m]⟩ [] [0] [] [0] [] 1 ![1])
    (hn : 0 < n) (x : (⟨1, ![n]⟩ : Shape).Idx → α) (idx : IVec (⟨2, ![m, 1]⟩ : Shape) wd) (e : Fin m) :
    Host.gather (vecGatherDims n m wf) x idx (ix1 e) = x (ix1 (clampRow n hn (idx (ix2 e (0 : Fin 1))))) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES OF A VECTOR READ AT e, for any record with these fields: the operand at the word of row e,
    read signed and clamped into 0 … n − 1. -/
theorem gather_vec_apply {α : Type} {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    (x : (⟨1, ![n]⟩ : Shape).Idx → α) (idx : IVec (⟨2, ![m, 1]⟩ : Shape) wd) (e : Fin m) :
    Host.gather gd x idx (ix1 e) = x (ix1 (clampRow n hn (idx (ix2 e (0 : Fin 1))))) := by
  obtain ⟨od, cd, ob, sb, sm, iv, ss, wf⟩ := gd
  dsimp only at ho hc hob hsb hm hv hs
  subst ho hc hob hsb hm hv hs
  exact vecGatherDims_apply wf hn x idx e

end GatherVec

/-! ## Extended reals: a sum times a factor, and the guarded reciprocal square root -/

/-- A finite sum times a factor that is nonnegative and not ⊤ is the sum of the products. -/
theorem sum_mul_of_nonneg_ne_top {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root guarded by "the argument is positive" (0 otherwise) is nonnegative and never ⊤: at ⊤ it is
    0, at a positive real r it is the real (√r)⁻¹, and everywhere else the guard gives 0. -/
theorem dinv_nonneg_ne_top (x : EReal) :
    0 ≤ (Scalar.select (Ideal.cmp .ogt x 0) (Ideal.rsqrt x) (0 : EReal))
      ∧ (Scalar.select (Ideal.cmp .ogt x 0) (Ideal.rsqrt x) (0 : EReal)) ≠ ⊤ := by
  by_cases hx : 0 < x
  · have hcmp : Ideal.cmp .ogt x 0 = 1#1 := by simp [Ideal.cmp, hx]
    rw [hcmp, select_one]
    induction x using EReal.rec with
    | bot => exact absurd hx (by simp)
    | top =>
      have hval : Ideal.rsqrt (⊤ : EReal) = 0 := rfl
      rw [hval]
      exact ⟨le_refl _, EReal.zero_ne_top⟩
    | coe r =>
      have hr : 0 < r := by exact_mod_cast hx
      have hval : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hval]
      exact ⟨by exact_mod_cast inv_nonneg.mpr (Real.sqrt_nonneg r), EReal.coe_ne_top _⟩
  · have hcmp : Ideal.cmp .ogt x 0 = 0#1 := by simp [Ideal.cmp, hx]
    rw [hcmp, select_zero]
    exact ⟨le_refl _, EReal.zero_ne_top⟩

end RowOps

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.RefValue.lean ====
/-
  What the reference computes, index by index on the extended reals.

  The run leaves the result buffer at the operations' composed term of the seven argument arrays; that term is
  named here in stages (the wrapped indices, their column, the in-range mask, the looked-up rows, the
  projection) and then read at an entry (r, j).  Every index word being below 1000, the wrap of negative
  indices leaves it as it is, both range tests hold so the mask is one, the gather's clamp of the start row into
  0 … 999 is the identity, and the fill of out-of-range rows is never selected: the looked-up entry is the
  table's entry in the row the word names.  The matrix product at (r, j) is the sum over the contracted
  coordinate, the bias is broadcast along the rows, and the two scalars multiply every entry.
-/
import proofs.«205810_g90829968376338_cont_sun_m_901_13_alg».proof.Proof.RefRun
import proofs.«205810_g90829968376338_cont_sun_m_901_13_alg».proof.Proof.Spec
import proofs.«205810_g90829968376338_cont_sun_m_901_13_alg».proof.Proof.LibPlainDot
import proofs.«205810_g90829968376338_cont_sun_m_901_13_alg».proof.Proof.LibRowOps
import proofs.«205810_g90829968376338_cont_sun_m_901_13_alg».proof.Proof.LibBroadcasts
import Idealize.ShloMosaic.PureOps.Reduce
import Idealize.ShloMosaic.Lib.Affine

noncomputable section

open scoped BigOperators

namespace Cert.RefHand

open Cert.ReferenceIdeal Cert.ReferenceIdeal.Gen Idealize.ShloMosaic Idealize.ShloMosaic.TcCoe Idealize.SL.Sem Idealize.ShloMosaic.StableHlo Idealize.ShloMosaic.ValueIdx

/-! ## Two general facts -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, hf => by
    rw [List.foldl_cons, hf a List.mem_cons_self, show IntOp.andi (1#1 : BitVec 1) 1#1 = 1#1 from by decide]
    exact foldl_andi_one f l fun n hn => hf n (List.mem_cons_of_mem _ hn)

/-- A reduction by `and`, from 1, of an array that is 1 everywhere is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-- A vector of m entries repeated along q columns reads entry e at (e, c). -/
theorem rows_apply {α : Type} {m q : Nat} (h : (⟨1, ![m]⟩ : Shape).BroadcastsInDim ⟨2, ![m, q]⟩ (![0] : Fin 1 → Fin 2))
    (x : (⟨1, ![m]⟩ : Shape).Idx → α) (e : Fin m) (c : Fin q) :
    broadcastInDim (⟨2, ![m, q]⟩ : Shape) ![0] h x (ix2 e c) = x (ix1 e) :=
  broadcastInDim_apply _ h x _ (ix1 e) (fun a => match a with
    | ⟨0, _⟩ => by
      show e.val = if m = 1 then 0 else e.val
      split
      · have := e.isLt; omega
      · rfl)

/-! ## The composed term, in stages -/

section Stages
variable {F : FTy → Type} [FloatOps F]

/-- The index words with the negative ones moved up by the number of rows. -/
def wrapped (idx : IVec S4096 32) : IVec S4096 32 :=
  select (cmpi .slt idx (broadcastInDim S4096 ![] bcast_S_S4096 (constantI S_ 32 0#32)))
    (addi idx (broadcastInDim S4096 ![] bcast_S_S4096 (constantI S_ 32 1000#32))) idx

/-- The wrapped words as a column of start rows. -/
def startCol (idx : IVec S4096 32) : IVec S4096x1 32 :=
  broadcastInDim S4096x1 ![0] bcast_S4096_S4096x1_0 (wrapped idx)

/-- The mask of the start rows that lie within 0 … 999. -/
def inRange (idx : IVec S4096 32) : IVec S4096 1 :=
  Host.reduce IntOp.andi
    (andi (cmpi .sge (startCol idx) (broadcastInDim S4096x1 ![] bcast_S_S4096x1 (constantI S_ 32 0#32)))
      (cmpi .sle (startCol idx)
        (broadcastInDim S4096x1 ![0, 1] bcast_S1x1_S4096x1_0_1 (broadcastInDim S1x1 ![1] bcast_S1_S1x1_1 (constantI S1 32 999#32)))))
    (constantI S_ 1 1#1) reducesTo_S4096x1_S4096_d1 h_S_

/-- The looked-up rows: the gathered row where the mask holds, the fill elsewhere. -/
def taken (idx : IVec S4096 32) (tbl : FVec F S1000x128 .f32) : FVec F S4096x128 .f32 :=
  select (broadcastInDim S4096x128 ![0] bcast_S4096_S4096x128_0 (inRange idx))
    (Host.gather gather_S1000x128_S4096x1_S4096x128_1_0_n_n_0_1_1128 tbl (startCol idx))
    (broadcastInDim S4096x128 ![] bcast_S_S4096x128 (constant S_ .f32 0x7FC00000#32))

/-- The projection: the matrix product plus the bias along the rows. -/
def proj (x : FVec F S4096x2048 .f32) (w : FVec F S2048x128 .f32) (b : FVec F S128 .f32) : FVec F S4096x128 .f32 :=
  addf (Host.dotGeneral dot_S4096x2048_S2048x128_S4096x128_1_0_0_1_n_n none x w)
    (broadcastInDim S4096x128 ![0, 1] bcast_S1x128_S4096x128_0_1 (broadcastInDim S1x128 ![1] bcast_S128_S1x128_1 b))

/-- The result: the first scalar times the looked-up rows plus the second times the projection. -/
def refTerm (idx : IVec S4096 32) (x : FVec F S4096x2048 .f32) (tbl : FVec F S1000x128 .f32) (w : FVec F S2048x128 .f32)
    (b : FVec F S128 .f32) (cs ds : FVec F S_ .f32) : FVec F S4096x128 .f32 :=
  addf (mulf (broadcastInDim S4096x128 ![] bcast_S_S4096x128 cs) (taken idx tbl))
    (mulf (broadcastInDim S4096x128 ![] bcast_S_S4096x128 ds) (proj x w b))

attribute [local irreducible] Host.reduce Host.gather in
set_option maxRecDepth 8192 in
set_option maxHeartbeats 400000 in
/-- The fold at the result buffer is that term of the argument contents, by computation: the fold unrolled,
    each operation's result read at the buffer it writes. -/
theorem after_v9 (V : Valuation τ sig (Elt F)) :
    after ops V (main_v9 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

end Stages

/-! ## The term read at an entry, on the extended reals -/

section Read

/-- A word below 1000 reads the same signed and unsigned. -/
theorem toInt_of_lt {v : BitVec 32} (h : v.toNat < 1000) : v.toInt = (v.toNat : Int) :=
  BitVec.toInt_eq_toNat_of_lt (by omega)

/-- In range, the wrap leaves the word as it is. -/
theorem wrapped_apply (idx : IVec S4096 32) (r : Fin 4096) (h : (idx (ix1 r)).toNat < 1000) :
    wrapped idx (ix1 r) = idx (ix1 r) := by
  have hc : cmpi .slt idx (broadcastInDim S4096 ![] bcast_S_S4096 (constantI S_ 32 0#32)) (ix1 r) = 0#1 := by
    apply eq_zero_of_ne_one
    show ¬ IntOp.cmpi .slt (idx (ix1 r)) 0#32 = 1#1
    rw [IntOp.cmpi_slt, toInt_of_lt h, show (0#32 : BitVec 32).toInt = 0 from by decide]
    omega
  show Scalar.select (cmpi .slt idx (broadcastInDim S4096 ![] bcast_S_S4096 (constantI S_ 32 0#32)) (ix1 r)) _ _ = _
  rw [hc, select_zero]

/-- The start row of result row r is the wrapped word of r. -/
theorem startCol_apply (idx : IVec S4096 32) (r : Fin 4096) : startCol idx (ix2 r (0 : Fin 1)) = wrapped idx (ix1 r) :=
  Broadcasts.column_apply _ _ r

/-- In range, the mask is one at every row. -/
theorem inRange_apply (idx : IVec S4096 32) (hidx : ∀ i, (idx i).toNat < 1000) (r : Fin 4096) :
    inRange idx (ix1 r) = 1#1 := by
  refine reduce_andi_of_all _ _ _ _ _ (fun i => ?_) rfl
  obtain ⟨e, z, rfl⟩ : ∃ (e : Fin 4096) (z : Fin 1), i = ix2 e z := ⟨i 0, i 1, eq_ix2 i⟩
  obtain rfl : z = 0 := Subsingleton.elim _ _
  show IntOp.andi (IntOp.cmpi .sge (startCol idx (ix2 e (0 : Fin 1))) 0#32)
    (IntOp.cmpi .sle (startCol idx (ix2 e (0 : Fin 1))) 999#32) = 1#1
  rw [startCol_apply, wrapped_apply idx e (hidx _), IntOp.andi_eq_one, IntOp.cmpi_sge, IntOp.cmpi_sle, toInt_of_lt (hidx _),
    show (0#32 : BitVec 32).toInt = 0 from by decide, show (999#32 : BitVec 32).toInt = 999 from by decide]
  have := hidx (ix1 e)
  omega

/-- In range, the clamp of the start row is the row the word names. -/
theorem clampRow_eq {v : BitVec 32} (h : v.toNat < 1000) : RowOps.clampRow 1000 (by norm_num) v = Cert.Spec.rowOf v := by
  apply Fin.ext
  show min v.toInt.toNat (1000 - 1) = v.toNat % 1000
  rw [toInt_of_lt h, Int.toNat_natCast, Nat.mod_eq_of_lt h]
  omega

/-- In range, the looked-up entry (r, j) is the table's entry j in the row the word of r names. -/
theorem taken_apply (idx : IVec S4096 32) (tbl : FVec Ideal S1000x128 .f32) (hidx : ∀ i, (idx i).toNat < 1000)
    (r : Fin 4096) (j : Fin 128) :
    taken idx tbl (ix2 r j) = tbl (ix2 (Cert.Spec.rowOf (idx (ix1 r))) j) := by
  show Scalar.select (broadcastInDim S4096x128 ![0] bcast_S4096_S4096x128_0 (inRange idx) (ix2 r j))
    (Host.gather gather_S1000x128_S4096x1_S4096x128_1_0_n_n_0_1_1128 tbl (startCol idx) (ix2 r j)) _ = _
  rw [rows_apply, inRange_apply idx hidx r, select_one,
    RowOps.gather_rows_apply gather_S1000x128_S4096x1_S4096x128_1_0_n_n_0_1_1128 rfl rfl rfl rfl rfl rfl rfl (by norm_num),
    startCol_apply, wrapped_apply idx r (hidx _), clampRow_eq (hidx _)]

/-- The projection at (r, j): the sum over the contracted coordinate, plus entry j of the bias. -/
theorem proj_apply (x : FVec Ideal S4096x2048 .f32) (w : FVec Ideal S2048x128 .f32) (b : FVec Ideal S128 .f32)
    (r : Fin 4096) (j : Fin 128) :
    proj x w b (ix2 r j) = (∑ k : Fin 2048, x (ix2 r k) * w (ix2 k j)) + b (ix1 j) := by
  show Host.dotGeneral dot_S4096x2048_S2048x128_S4096x128_1_0_0_1_n_n none x w (ix2 r j)
    + broadcastInDim S4096x128 ![0, 1] bcast_S1x128_S4096x128_0_1 (broadcastInDim S1x128 ![1] bcast_S128_S1x128_1 b) (ix2 r j) = _
  rw [Broadcasts.repeat_apply, Broadcasts.row_apply,
    show dot_S4096x2048_S2048x128_S4096x128_1_0_0_1_n_n = DotDims.plain 4096 2048 128 from rfl,
    Cert.Proof.LibPlainDot.dotGeneral_plain_apply]

/-- The composed term at (r, j), in range. -/
theorem refTerm_apply (idx : IVec S4096 32) (x : FVec Ideal S4096x2048 .f32) (tbl : FVec Ideal S1000x128 .f32)
    (w : FVec Ideal S2048x128 .f32) (b : FVec Ideal S128 .f32) (cs ds : FVec Ideal S_ .f32)
    (hidx : ∀ i, (idx i).toNat < 1000) (r : Fin 4096) (j : Fin 128) :
    refTerm idx x tbl w b cs ds (ix2 r j)
      = cs ix0 * tbl (ix2 (Cert.Spec.rowOf (idx (ix1 r))) j)
        + ds ix0 * ((∑ k : Fin 2048, x (ix2 r k) * w (ix2 k j)) + b (ix1 j)) := by
  show broadcastInDim S4096x128 ![] bcast_S_S4096x128 cs (ix2 r j) * taken idx tbl (ix2 r j)
    + broadcastInDim S4096x128 ![] bcast_S_S4096x128 ds (ix2 r j) * proj x w b (ix2 r j) = _
  rw [Broadcasts.scalar_apply, Broadcasts.scalar_apply, taken_apply idx tbl hidx, proj_apply]

end Read

/-! ## The value -/

/-- With every index word below 1000, the reference's result is the shared specification of its arguments. -/
theorem result_eq (V : Valuation τ sig (Elt Ideal)) (hidx : ∀ i, (V (main_arg0 : DevRef τ sig) i).toNat < 1000) :
    after ops V (main_v9 : DevRef τ sig)
      = Cert.Spec.G (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_v9]
  funext i
  obtain ⟨r, j, rfl⟩ : ∃ (r : Fin 4096) (j : Fin 128), i = ix2 r j := ⟨i 0, i 1, eq_ix2 i⟩
  rw [refTerm_apply _ _ _ _ _ _ _ hidx r j]
  rfl

/-! ## The two runs the claims cite -/

/-- The reference runs from any memory with zero counters and leaves its seven argument buffers unchanged. -/
theorem frame_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run (Cert.ReferenceIdeal.defs (F := Ideal)) _ _).mono
    (fun _ h c => ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run (F := Ideal) m ρ)

/-- From a memory whose index words are all below 1000 the reference ends with its result buffer at the shared
    specification of the argument arrays it started from, and those unchanged. -/
theorem value_run (m : (ℓ : Loc Cert.ReferenceIdeal.nD Cert.ReferenceIdeal.τ Cert.ReferenceIdeal.sig) → Buf (Elt Ideal) ℓ)
    (ρ : Dev Cert.ReferenceIdeal.nD → PrngReg)
    (hidx : ∀ (c : Dev Cert.ReferenceIdeal.nD) i, (m ((c.tc : Thread Cert.ReferenceIdeal.nD Cert.ReferenceIdeal.τ).loc Cert.ReferenceIdeal.main_arg0) i).toNat < 1000) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v9)
            = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run (Cert.ReferenceIdeal.defs (F := Ideal)) _ _).mono
    (fun _ h c => ⟨(h c main_v9).trans (result_eq (launchContents m c) (hidx c)),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run (F := Ideal) m ρ)

end Cert.RefHand

end
-- ==== Proof.PreRange.lean ====
/-
  The precondition's last conjunct, read back.  The printed predicate is a conjunction of whole-array
  tests, the last of them that every index word w satisfies 0 ≤ w and w ≤ 999 as signed words; when the
  predicate is all ones, so is each conjunct, so is each element under the last reduction, and a word
  that is non-negative and at most 999 read signed is below 1000 read unsigned.
-/
import proofs.«205810_g90829968376338_cont_sun_m_901_13_alg».proof.Pre_input_domain
import proofs.«205810_g90829968376338_cont_sun_m_901_13_alg».proof.Proof.Gen.Pre_input_domain
import Idealize.ShloMosaic.Lib.ReduceAll
import Idealize.ShloMosaic.Lib.ValueIdx

namespace Cert.PreRange

open Idealize.ShloMosaic Cert.Pre_input_domain

/-- The rank-zero shape has one index. -/
instance subsingleton_S_ : Subsingleton S_.Idx := ⟨fun a b => funext fun d => d.elim0⟩

/-- A word that tests non-negative and at most 999, both signed, is below 1000 as a natural. -/
theorem word_lt (v : BitVec 32)
    (h : IntOp.andi (IntOp.cmpi .sge v 0#32) (IntOp.cmpi .sle v 999#32) = 1#1) : v.toNat < 1000 := by
  obtain ⟨h1, h2⟩ := IntOp.andi_eq_one.1 h
  rw [IntOp.cmpi_sge, show (0#32 : BitVec 32).toInt = 0 from by decide] at h1
  rw [IntOp.cmpi_sle, show (999#32 : BitVec 32).toInt = 999 from by decide] at h2
  rw [BitVec.toInt_eq_toNat_cond] at h1 h2
  have hv := v.isLt
  split at h1 <;> split at h2 <;> omega

/-- Under the precondition every index word is below 1000. -/
theorem idx_lt {F : FTy → Type} [FloatOps F] [Cert.Pre_input_domain.Facts]
    (a0 : IVec S4096 32) (a1 : FVec F S4096x2048 .f32) (a2 : FVec F S1000x128 .f32) (a3 : FVec F S2048x128 .f32)
    (a4 : FVec F S128 .f32) (a5 : FVec F S_ .f32) (a6 : FVec F S_ .f32)
    (h : Cert.Pre_input_domain.fn (F := F) a0 a1 a2 a3 a4 a5 a6 = (fun _ => 1#1)) :
    ∀ i, (a0 i).toNat < 1000 := by
  intro i
  have e := congrFun h ValueIdx.ix0
  dsimp only [fn, fn_part1, fn_part2] at e
  have e2 := (IntOp.andi_eq_one.1 e).2
  have e3 := Host.reduce_andi_all _ _ _ _ _ e2 i
  exact word_lt _ e3

end Cert.PreRange
-- ==== Proof.lean ====
/-
  The five claims.  Both programs compute, on the extended reals, result[r, j] = cs * table[idx[r], j]
  + ds * (sum over k of x[r, k] * W[k, j] + b[j]) (Proof/Spec.lean).  The kernel does it in three steps: 32 vector
  subcores of the two SparseCores gather the table rows the index words name, 128 rows each, into an array in HBM;
  a TensorCore pipeline of four row blocks computes ds * (x W + b); a second pipeline of two row blocks combines the
  two.  The reference is a row gather (its index wrap and out-of-range fill inert on words that name a row), one
  matrix product and broadcasts.  The precondition's one integer conjunct — every index word between 0 and 999 — is
  what makes every gathered row exist: the frames use it, the values do not.  No algebraic law is needed beyond
  reading both sides at an index: the two sums over k are the same sum.
  The kernel's two printed programs (at the bit-level instance and at the ideal one) are the same text; each frame
  is the program's run (Proof/KBRun.lean, Proof/KIRun.lean) with the values dropped, and the algebraic claim is the
  ideal run's result array read back through the fold of buffer contents (Proof/KIWalk.lean) beside the reference's
  run and value (Proof/RefRun.lean, Proof/RefValue.lean).
-/
import proofs.«205810_g90829968376338_cont_sun_m_901_13_alg».proof.Defs
import proofs.«205810_g90829968376338_cont_sun_m_901_13_alg».proof.Proof.Gen.Kernel
import proofs.«205810_g90829968376338_cont_sun_m_901_13_alg».proof.Proof.Gen.Kernel.Skeleton
import proofs.«205810_g90829968376338_cont_sun_m_901_13_alg».proof.Proof.Gen.Kernel.Launch
import proofs.«205810_g90829968376338_cont_sun_m_901_13_alg».proof.Proof.Gen.Kernel.Regions
import proofs.«205810_g90829968376338_cont_sun_m_901_13_alg».proof.Proof.Gen.Kernel.Points
import proofs.«205810_g90829968376338_cont_sun_m_901_13_alg».proof.Proof.Gen.KernelIdeal
import proofs.«205810_g90829968376338_cont_sun_m_901_13_alg».proof.Proof.Gen.KernelIdeal.Skeleton
import proofs.«205810_g90829968376338_cont_sun_m_901_13_alg».proof.Proof.Gen.KernelIdeal.Launch
import proofs.«205810_g90829968376338_cont_sun_m_901_13_alg».proof.Proof.Gen.KernelIdeal.Regions
import proofs.«205810_g90829968376338_cont_sun_m_901_13_alg».proof.Proof.Gen.KernelIdeal.Points
import proofs.«205810_g90829968376338_cont_sun_m_901_13_alg».proof.Proof.Gen.ReferenceIdeal
import proofs.«205810_g90829968376338_cont_sun_m_901_13_alg».proof.Proof.Gen.Pre_input_domain
import proofs.«205810_g90829968376338_cont_sun_m_901_13_alg».proof.Proof.KIRun
import proofs.«205810_g90829968376338_cont_sun_m_901_13_alg».proof.Proof.KIWalk
import proofs.«205810_g90829968376338_cont_sun_m_901_13_alg».proof.Proof.KBRun
import proofs.«205810_g90829968376338_cont_sun_m_901_13_alg».proof.Proof.KBWalk
import proofs.«205810_g90829968376338_cont_sun_m_901_13_alg».proof.Proof.RefValue
import proofs.«205810_g90829968376338_cont_sun_m_901_13_alg».proof.Proof.PreRange
import Idealize.ShloMosaic.Adequacy
import Idealize.ShloMosaic.Init

noncomputable section

namespace Cert.Proof

open Idealize.ShloMosaic Idealize.ShloMosaic.TcCoe Idealize.SL.Sem

/-- Under the precondition every index word names a table row: at the bit-level instance, -/
theorem preOK_bits (m : (ℓ : Loc Cert.Kernel.nD Cert.Kernel.τ Cert.Kernel.sig) → Buf (Elt Bits) ℓ)
    (h : Cert.Pre_Kernel (hPre_input_domain := Cert.Pre_input_domain.Gen.facts) m) : Cert.KB.PreOK m :=
  fun d j => Cert.PreRange.idx_lt _ _ _ _ _ _ _ (h d) j
/-- and at the ideal one. -/
theorem preOK_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KI.PreOK m :=
  fun d j => Cert.PreRange.idx_lt _ _ _ _ _ _ _ (h d) j

/-- The kernel as printed runs to the end and leaves its seven arguments as launched. -/
theorem frame_bits : Cert.frame_Kernel (hKernel := Cert.Kernel.Gen.facts) (hPre_input_domain := Cert.Pre_input_domain.Gen.facts) :=
  fun m ρ hpre => (θ_run (Cert.Kernel.defs (F := Bits)) _ _).mono (fun _ h c =>
    ⟨(h c _ (Cert.KB.mem_uc Cert.Kernel.main_arg0 (by decide))).trans (Cert.KB.W5_arg0 m c),
     (h c _ (Cert.KB.mem_uc Cert.Kernel.main_arg1 (by decide))).trans (Cert.KB.W5_arg1 m c),
     (h c _ (Cert.KB.mem_uc Cert.Kernel.main_arg2 (by decide))).trans (Cert.KB.W5_arg2 m c),
     (h c _ (Cert.KB.mem_uc Cert.Kernel.main_arg3 (by decide))).trans (Cert.KB.W5_arg3 m c),
     (h c _ (Cert.KB.mem_uc Cert.Kernel.main_arg4 (by decide))).trans (Cert.KB.W5_arg4 m c),
     (h c _ (Cert.KB.mem_uc Cert.Kernel.main_arg5 (by decide))).trans (Cert.KB.W5_arg5 m c),
     (h c _ (Cert.KB.mem_uc Cert.Kernel.main_arg6 (by decide))).trans (Cert.KB.W5_arg6 m c)⟩)
    (Cert.KB.run_main (F := Bits) m ρ (preOK_bits m hpre))

/-- The same of the idealized kernel. -/
theorem frame_ideal : Cert.frame_KernelIdeal (hKernelIdeal := Cert.KernelIdeal.Gen.facts) (hPre_input_domain := Cert.Pre_input_domain.Gen.facts) :=
  fun m ρ hpre => (θ_run (Cert.KernelIdeal.defs (F := Ideal)) _ _).mono (fun _ h c =>
    ⟨(h c _ (Cert.KI.mem_uc Cert.KernelIdeal.main_arg0 (by decide))).trans (Cert.KI.W5_arg0 m c),
     (h c _ (Cert.KI.mem_uc Cert.KernelIdeal.main_arg1 (by decide))).trans (Cert.KI.W5_arg1 m c),
     (h c _ (Cert.KI.mem_uc Cert.KernelIdeal.main_arg2 (by decide))).trans (Cert.KI.W5_arg2 m c),
     (h c _ (Cert.KI.mem_uc Cert.KernelIdeal.main_arg3 (by decide))).trans (Cert.KI.W5_arg3 m c),
     (h c _ (Cert.KI.mem_uc Cert.KernelIdeal.main_arg4 (by decide))).trans (Cert.KI.W5_arg4 m c),
     (h c _ (Cert.KI.mem_uc Cert.KernelIdeal.main_arg5 (by decide))).trans (Cert.KI.W5_arg5 m c),
     (h c _ (Cert.KI.mem_uc Cert.KernelIdeal.main_arg6 (by decide))).trans (Cert.KI.W5_arg6 m c)⟩)
    (Cert.KI.run_main (F := Ideal) m ρ (preOK_ideal m hpre))

/-- The reference runs to the end and leaves its arguments as launched. -/
theorem frame_ref : Cert.frame_ReferenceIdeal (hReferenceIdeal := Cert.ReferenceIdeal.Gen.facts) (hPre_input_domain := Cert.Pre_input_domain.Gen.facts) :=
  fun m ρ _ => Cert.RefHand.frame_run m ρ

/-- At the ideal instance, from memories agreeing on the arguments, both programs end with the result array at the one
    function of the arguments (Cert.Spec.G), the arguments unchanged. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run (Cert.KernelIdeal.defs (F := Ideal)) _ _).mono (fun _ h c =>
      ⟨(h c _ (Cert.KI.mem_uc Cert.KernelIdeal.main_v5 (by decide))).trans (Cert.KI.W5_out m c),
       (h c _ (Cert.KI.mem_uc Cert.KernelIdeal.main_arg0 (by decide))).trans (Cert.KI.W5_arg0 m c),
       (h c _ (Cert.KI.mem_uc Cert.KernelIdeal.main_arg1 (by decide))).trans (Cert.KI.W5_arg1 m c),
       (h c _ (Cert.KI.mem_uc Cert.KernelIdeal.main_arg2 (by decide))).trans (Cert.KI.W5_arg2 m c),
       (h c _ (Cert.KI.mem_uc Cert.KernelIdeal.main_arg3 (by decide))).trans (Cert.KI.W5_arg3 m c),
       (h c _ (Cert.KI.mem_uc Cert.KernelIdeal.main_arg4 (by decide))).trans (Cert.KI.W5_arg4 m c),
       (h c _ (Cert.KI.mem_uc Cert.KernelIdeal.main_arg5 (by decide))).trans (Cert.KI.W5_arg5 m c),
       (h c _ (Cert.KI.mem_uc Cert.KernelIdeal.main_arg6 (by decide))).trans (Cert.KI.W5_arg6 m c)⟩)
      (Cert.KI.run_main (F := Ideal) m ρ (preOK_ideal m hpre))
  · have hidx : ∀ (c : Dev Cert.ReferenceIdeal.nD) i,
        (m' ((c.tc : Thread Cert.ReferenceIdeal.nD Cert.ReferenceIdeal.τ).loc Cert.ReferenceIdeal.main_arg0) i).toNat < 1000 := fun c i => by
      rw [(hagree c).1]; exact preOK_ideal m hpre c i
    refine (θ_run (Cert.ReferenceIdeal.defs (F := Ideal)) _ _).mono (fun _ h c => ?_) (Cert.RefHand.value_run m' ρ' hidx)
    refine ⟨(h c).1.trans ?_, (h c).2⟩
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_input_domain.Gen.facts,
  frame_bits, frame_ideal, frame_ref, trivial, algebraic⟩

end Cert.Proof

end
